-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2048 : Shape := ⟨2, ![1, 2048]⟩
abbrev S16384x2048 : Shape := ⟨2, ![16384, 2048]⟩
abbrev S2048x6144 : Shape := ⟨2, ![2048, 6144]⟩
abbrev S6144 : Shape := ⟨1, ![6144]⟩
abbrev S2048x2048 : Shape := ⟨2, ![2048, 2048]⟩
abbrev S2048 : Shape := ⟨1, ![2048]⟩
abbrev S_ : Shape := ⟨0, ![]⟩

class Facts : Prop where
  bcast_S_S1x2048 : S_.BroadcastsInDim S1x2048 (![] : Fin 0 → Fin S1x2048.rank)
  reducesTo_S1x2048_S_d0_1 : S1x2048.ReducesTo [0, 1] S_
  h_S_ : 0 < S_.numel
  bcast_S_S16384x2048 : S_.BroadcastsInDim S16384x2048 (![] : Fin 0 → Fin S16384x2048.rank)
  reducesTo_S16384x2048_S_d0_1 : S16384x2048.ReducesTo [0, 1] S_
  bcast_S_S2048x6144 : S_.BroadcastsInDim S2048x6144 (![] : Fin 0 → Fin S2048x6144.rank)
  reducesTo_S2048x6144_S_d0_1 : S2048x6144.ReducesTo [0, 1] S_
  bcast_S_S6144 : S_.BroadcastsInDim S6144 (![] : Fin 0 → Fin S6144.rank)
  reducesTo_S6144_S_d0 : S6144.ReducesTo [0] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg7 : FVec F S2048x2048 .f32) (main_arg8 : FVec F S2048x2048 .f32) (main_arg9 : FVec F S2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048x2048 .f32 := Host.absf main_arg8
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  main_v48

def fn_part1 {F : FTy → Type} [FloatOps F] (main_arg4 : FVec F S2048x6144 .f32) (main_arg5 : FVec F S2048x6144 .f32) (main_arg6 : FVec F S6144 .f32) (main_arg7 : FVec F S2048x2048 .f32) (main_arg8 : FVec F S2048x2048 .f32) (main_arg9 : FVec F S2048 .f32) (main_v13 : IVec S_ 1) (main_v16 : IVec S16384x2048 1) : IVec S_ 1 :=
  let main_c_5 : IVec S_ 1 := constantI S_ 1 1#1
  let main_v17 : IVec S_ 1 := (fun x v => Host.reduce IntOp.andi x v reducesTo_S16384x2048_S_d0_1 h_S_) main_v16 main_c_5
  let main_v18 : IVec S_ 1 := andi main_v13 main_v17
  let main_v19 : FVec F S2048x6144 .f32 := Host.absf main_arg4
  let main_cst_6 : FVec F S_ .f32 := constant S_ .f32 0x7F800000#32
  let main_v20 : FVec F S2048x6144 .f32 := broadcastInDim S2048x6144 ![] bcast_S_S2048x6144 main_cst_6
  let main_v21 : IVec S2048x6144 1 := cmpf .olt main_v19 main_v20
  let main_c_7 : IVec S_ 1 := constantI S_ 1 1#1
  let main_v22 : IVec S_ 1 := (fun x v => Host.reduce IntOp.andi x v reducesTo_S2048x6144_S_d0_1 h_S_) main_v21 main_c_7
  let main_v23 : IVec S_ 1 := andi main_v18 main_v22
  let main_v24 : FVec F S2048x6144 .f32 := Host.absf main_arg5
  let main_cst_8 : FVec F S_ .f32 := constant S_ .f32 0x7F800000#32
  let main_v25 : FVec F S2048x6144 .f32 := broadcastInDim S2048x6144 ![] bcast_S_S2048x6144 main_cst_8
  let main_v26 : IVec S2048x6144 1 := cmpf .olt main_v24 main_v25
  let main_c_9 : IVec S_ 1 := constantI S_ 1 1#1
  let main_v27 : IVec S_ 1 := (fun x v => Host.reduce IntOp.andi x v reducesTo_S2048x6144_S_d0_1 h_S_) main_v26 main_c_9
  let main_v28 : IVec S_ 1 := andi main_v23 main_v27
  let main_v29 : FVec F S6144 .f32 := Host.absf main_arg6
  let main_cst_10 : FVec F S_ .f32 := constant S_ .f32 0x7F800000#32
  let main_v30 : FVec F S6144 .f32 := broadcastInDim S6144 ![] bcast_S_S6144 main_cst_10
  let main_v31 : IVec S6144 1 := cmpf .olt main_v29 main_v30
  let main_c_11 : IVec S_ 1 := constantI S_ 1 1#1
  let main_v32 : IVec S_ 1 := (fun x v => Host.reduce IntOp.andi x v reducesTo_S6144_S_d0 h_S_) main_v31 main_c_11
  let main_v33 : IVec S_ 1 := andi main_v28 main_v32
  fn_part2 (F := F) main_arg7 main_arg8 main_arg9 main_v33

def fn {F : FTy → Type} [FloatOps F] (main_arg0 : FVec F S1x2048 .f32) (main_arg1 : FVec F S1x2048 .f32) (main_arg2 : FVec F S1x2048 .f32) (main_arg3 : FVec F S16384x2048 .f32) (main_arg4 : FVec F S2048x6144 .f32) (main_arg5 : FVec F S2048x6144 .f32) (main_arg6 : FVec F S6144 .f32) (main_arg7 : FVec F S2048x2048 .f32) (main_arg8 : FVec F S2048x2048 .f32) (main_arg9 : FVec F S2048 .f32) : IVec S_ 1 :=
  let main_v0 : FVec F S1x2048 .f32 := Host.absf main_arg0
  let main_cst : FVec F S_ .f32 := constant S_ .f32 0x7F800000#32
  let main_v1 : FVec F S1x2048 .f32 := broadcastInDim S1x2048 ![] bcast_S_S1x2048 main_cst
  let main_v2 : IVec S1x2048 1 := cmpf .olt main_v0 main_v1
  let main_c : IVec S_ 1 := constantI S_ 1 1#1
  let main_v3 : IVec S_ 1 := (fun x v => Host.reduce IntOp.andi x v reducesTo_S1x2048_S_d0_1 h_S_) main_v2 main_c
  let main_v4 : FVec F S1x2048 .f32 := Host.absf main_arg1
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_c_1 : IVec S_ 1 := constantI S_ 1 1#1
  let main_v7 : IVec S_ 1 := (fun x v => Host.reduce IntOp.andi x v reducesTo_S1x2048_S_d0_1 h_S_) main_v6 main_c_1
  let main_v8 : IVec S_ 1 := andi main_v3 main_v7
  let main_v9 : FVec F S1x2048 .f32 := Host.absf main_arg2
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_c_3 : IVec S_ 1 := constantI S_ 1 1#1
  let main_v12 : IVec S_ 1 := (fun x v => Host.reduce IntOp.andi x v reducesTo_S1x2048_S_d0_1 h_S_) main_v11 main_c_3
  let main_v13 : IVec S_ 1 := andi main_v8 main_v12
  let main_v14 : FVec F S16384x2048 .f32 := Host.absf main_arg3
  let main_cst_4 : FVec F S_ .f32 := constant S_ .f32 0x7F800000#32
  let main_v15 : FVec F S16384x2048 .f32 := broadcastInDim S16384x2048 ![] bcast_S_S16384x2048 main_cst_4
  let main_v16 : IVec S16384x2048 1 := cmpf .olt main_v14 main_v15
  fn_part1 (F := F) main_arg4 main_arg5 main_arg6 main_arg7 main_arg8 main_arg9 main_v13 main_v16
-- ==== Kernel.lean ====
abbrev S1x2048 : Shape := ⟨2, ![1, 2048]⟩
abbrev S16384x2048 : Shape := ⟨2, ![16384, 2048]⟩
abbrev S2048x6144 : Shape := ⟨2, ![2048, 6144]⟩
abbrev S6144 : Shape := ⟨1, ![6144]⟩
abbrev S2048x2048 : Shape := ⟨2, ![2048, 2048]⟩
abbrev S2048 : Shape := ⟨1, ![2048]⟩
abbrev S1x6144 : Shape := ⟨2, ![1, 6144]⟩
abbrev S2048x512 : Shape := ⟨2, ![2048, 512]⟩
abbrev S1x512 : Shape := ⟨2, ![1, 512]⟩
abbrev S_ : Shape := ⟨0, ![]⟩
abbrev S512x2048 : Shape := ⟨2, ![512, 2048]⟩

abbrev nBuf : Space → Nat
  | .hbm => 42
  | .vmem => 27
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S16384x2048, .f32⟩
  | .hbm, ⟨4, _⟩ => ⟨S2048x6144, .f32⟩
  | .hbm, ⟨5, _⟩ => ⟨S2048x6144, .f32⟩
  | .hbm, ⟨6, _⟩ => ⟨S6144, .f32⟩
  | .hbm, ⟨7, _⟩ => ⟨S2048x2048, .f32⟩
  | .hbm, ⟨8, _⟩ => ⟨S2048x2048, .f32⟩
  | .hbm, ⟨9, _⟩ => ⟨S2048, .f32⟩
  | .hbm, ⟨10, _⟩ => ⟨S1x6144, .f32⟩
  | .hbm, ⟨11, _⟩ => ⟨S1x6144, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S1x2048, .f32⟩
  | .hbm, ⟨16, _⟩ => ⟨S1x2048, .f32⟩
  | .hbm, ⟨17, _⟩ => ⟨S_, .f32⟩
  | .hbm, ⟨18, _⟩ => ⟨S1x2048, .f32⟩
  | .hbm, ⟨19, _⟩ => ⟨S1x2048, .f32⟩
  | .hbm, ⟨20, _⟩ => ⟨S_, .f32⟩
  | .hbm, ⟨21, _⟩ => ⟨S1x2048, .f32⟩
  | .hbm, ⟨22, _⟩ => ⟨S1x2048, .f32⟩
  | .hbm, ⟨23, _⟩ => ⟨S1x2048, .f32⟩
  | .hbm, ⟨24, _⟩ => ⟨S1x2048, .f32⟩
  | .hbm, ⟨25, _⟩ => ⟨S_, .f32⟩
  | .hbm, ⟨26, _⟩ => ⟨S1x2048, .f32⟩
  | .hbm, ⟨27, _⟩ => ⟨S1x2048, .f32⟩
  | .hbm, ⟨28, _⟩ => ⟨S_, .f32⟩
  | .hbm, ⟨29, _⟩ => ⟨S1x2048, .f32⟩
  | .hbm, ⟨30, _⟩ => ⟨S1x2048, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S1x2048, .f32⟩
  | .hbm, ⟨35, _⟩ => ⟨S1x2048, .f32⟩
  | .hbm, ⟨36, _⟩ => ⟨S2048x2048, .bf16⟩
  | .hbm, ⟨37, _⟩ => ⟨S1x2048, .f32⟩
  | .hbm, ⟨38, _⟩ => ⟨S1x2048, .f32⟩
  | .hbm, ⟨39, _⟩ => ⟨S1x2048, .f32⟩
  | .hbm, ⟨40, _⟩ => ⟨S1x2048, .f32⟩
  | .hbm, ⟨41, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x2048, .f32⟩
  | .local _ .vmem, ⟨11, _⟩ => ⟨S2048x512, .f32⟩
  | .local _ .vmem, ⟨12, _⟩ => ⟨S2048x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S512x2048, .f32⟩
  | .local _ .vmem, ⟨18, _⟩ => ⟨S512x2048, .f32⟩
  | .local _ .vmem, ⟨19, _⟩ => ⟨S2048x2048, .bf16⟩
  | .local _ .vmem, ⟨20, _⟩ => ⟨S1x2048, .f32⟩
  | .local _ .vmem, ⟨21, _⟩ => ⟨S1x2048, .f32⟩
  | .local _ .vmem, ⟨22, _⟩ => ⟨S1x2048, .f32⟩
  | .local _ .vmem, ⟨23, _⟩ => ⟨S1x2048, .f32⟩
  | .local _ .vmem, ⟨24, _⟩ => ⟨S1x2048, .f32⟩
  | .local _ .vmem, ⟨25, _⟩ => ⟨S1x2048, .f32⟩
  | .local _ .vmem, ⟨26, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23_0 : Ref sig .tc := ⟨.hbm, 37, rfl⟩
abbrev main_v23_1 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_scratch0 : Ref sig .tc := ⟨.vmem, 25, rfl⟩
abbrev cc2_scratch1 : Ref sig .tc := ⟨.vmem, 26, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2048x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![32], ![false]⟩

def k2_cond2 (i : grid2.Coords) : BitVec 1 :=
  let arg0 : BitVec 32 := BitVec.ofNat 32 (i 0).val
  let c31_i32 : BitVec 32 := 31#32
  let v29 : BitVec 1 := Scalar.cmpi .eq arg0 c31_i32
  let v30 : BitVec 32 := Scalar.extui v29
  let c0_i32_16 : BitVec 32 := 0#32
  let v31 : BitVec 1 := Scalar.cmpi .ne v30 c0_i32_16
  v31

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x2048 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x2048 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x2048 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x2048 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

class Facts₀ : Prop where
  shapeCasts_S6144_S1x6144 : S6144.ShapeCasts S1x6144
  inb_S1x2048_S1x2048_0_0 : ∀ a, (![0, 0] : Fin 2 → Nat) a + S1x2048.size a ≤ S1x2048.size a
  h_S1x2048 : 0 < S1x2048.numel
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  slices_S1x6144_S1x2048_0_0 : S1x6144.Slices ![0, 0] S1x2048
  slices_S1x6144_S1x2048_0_2048 : S1x6144.Slices ![0, 2048] S1x2048
  slices_S1x6144_S1x2048_0_4096 : S1x6144.Slices ![0, 4096] S1x2048
  bcast_S_S1x2048 : S_.BroadcastsInDim S1x2048 (![] : Fin 0 → Fin S1x2048.rank)
  shapeCasts_S2048_S1x2048 : S2048.ShapeCasts S1x2048
  shapeCasts_S1x2048_S1x2048 : S1x2048.ShapeCasts S1x2048
  inb_S512x2048_S512x2048_0_0 : ∀ a, (![0, 0] : Fin 2 → Nat) a + S512x2048.size a ≤ S512x2048.size a
  h_S512x2048 : 0 < S512x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  broadcasts_S1x2048_S512x2048 : S1x2048.Broadcasts S512x2048
  reduces_S512x2048_S2048 : S512x2048.Reduces [0] S2048
  dot_S1x2048_S2048x512_S1x512_1_0_0_1_n_n_wf : DotDims.WF S1x2048 S2048x512 S1x512 [1] [0] [0] [1] [] []
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2048.size a ≤ S1x2048.size a
  hwx0_0 : ∀ i : grid0.Coords, EltTy.bits .f32 = 32 ∨ (Rect.block (s := S1x2048) S1x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S2048x6144.size a
  hwx0_2 : ∀ i : grid0.Coords, EltTy.bits .f32 = 32 ∨ (Rect.block (s := S2048x6144) S2048x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S2048x6144.size a
  hwx0_3 : ∀ i : grid0.Coords, EltTy.bits .f32 = 32 ∨ (Rect.block (s := S2048x6144) S2048x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x6144.size a
  hwx0_4 : ∀ i : grid0.Coords, EltTy.bits .f32 = 32 ∨ (Rect.block (s := S1x6144) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x6144.size a
  hwx0_5 : ∀ i : grid0.Coords, EltTy.bits .f32 = 32 ∨ (Rect.block (s := S1x6144) S1x512.size (cc0_transform_5 i) (hinb0_5 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x2048.size a ≤ S1x2048.size a
  hwx1_0 : ∀ i : grid1.Coords, EltTy.bits .f32 = 32 ∨ (Rect.block (s := S1x2048) S1x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S2048x2048.size a
  hwx1_1 : ∀ i : grid1.Coords, EltTy.bits .f32 = 32 ∨ (Rect.block (s := S2048x2048) S2048x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x2048.size a
  hwx1_2 : ∀ i : grid1.Coords, EltTy.bits .f32 = 32 ∨ (Rect.block (s := S1x2048) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x2048.size a
  hwx1_3 : ∀ i : grid1.Coords, EltTy.bits .f32 = 32 ∨ (Rect.block (s := S1x2048) S1x512.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x2048.size a ≤ S16384x2048.size a
  hwx2_0 : ∀ i : grid2.Coords, EltTy.bits .f32 = 32 ∨ (Rect.block (s := S16384x2048) S512x2048.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2048x2048.size a ≤ S2048x2048.size a
  hwx2_1 : ∀ i : grid2.Coords, EltTy.bits .bf16 = 32 ∨ (Rect.block (s := S2048x2048) S2048x2048.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x2048.size a ≤ S1x2048.size a
  hwx2_2 : ∀ i : grid2.Coords, EltTy.bits .f32 = 32 ∨ (Rect.block (s := S1x2048) S1x2048.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x2048.size a ≤ S1x2048.size a
  hwx2_3 : ∀ i : grid2.Coords, EltTy.bits .f32 = 32 ∨ (Rect.block (s := S1x2048) S1x2048.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x2048.size a ≤ S1x2048.size a
  hwx2_4 : ∀ i : grid2.Coords, EltTy.bits .f32 = 32 ∨ (Rect.block (s := S1x2048) S1x2048.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x2048.size a ≤ S1x2048.size a
  hwx2_5 : ∀ i : grid2.Coords, EltTy.bits .f32 = 32 ∨ (Rect.block (s := S1x2048) S1x2048.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x2048.size a ≤ S1x2048.size a
  hwx2_6 : ∀ i : grid2.Coords, EltTy.bits .f32 = 32 ∨ (Rect.block (s := S1x2048) S1x2048.size (cc2_transform_6 i) (hinb2_6 i)).WholeWords (EltTy.packing .f32)

variable [Facts₀]

def dot_S1x2048_S2048x512_S1x512_1_0_0_1_n_n : DotDims S1x2048 S2048x512 S1x512 where
  lhsContracting := [1]
  rhsContracting := [0]
  lhsNonContracting := [0]
  rhsNonContracting := [1]
  lhsBatch := []
  rhsBatch := []
  wf := dot_S1x2048_S2048x512_S1x512_1_0_0_1_n_n_wf
def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_arg0) S1x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S2048x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S1x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19) S1x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg3) S512x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v22) S2048x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v19) S1x2048.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v20) S1x2048.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v21) S1x2048.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v23_0) S1x2048.size cc2_transform_5 reads2_5 true true 1 stage2_5 sem2_5
    hrank2 hreads2_5 hinb2_5 nbuf2_5 (Memref.isWhole_whole _) hwx2_5 hstage2_5

abbrev win2_6 : Pipeline.Window sig grid2 :=
  Pipeline.Window.ofSpec (Memref.whole main_v23_1) S1x2048.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun i => !(k2_cond2 i == 1#1) | 6 => fun i => !(k2_cond2 i == 1#1) | ⟨_ + 7, h⟩ => absurd h (Nat.not_lt.2 (Nat.le_add_left _ _))

class Facts : Prop extends Facts₀ where

variable [Facts]
-- ==== ReferenceIdeal.lean ====
abbrev S1x2048 : Shape := ⟨2, ![1, 2048]⟩
abbrev S16384x2048 : Shape := ⟨2, ![16384, 2048]⟩
abbrev S2048x6144 : Shape := ⟨2, ![2048, 6144]⟩
abbrev S6144 : Shape := ⟨1, ![6144]⟩
abbrev S2048x2048 : Shape := ⟨2, ![2048, 2048]⟩
abbrev S2048 : Shape := ⟨1, ![2048]⟩
abbrev S1x6144 : Shape := ⟨2, ![1, 6144]⟩
abbrev S_ : Shape := ⟨0, ![]⟩
abbrev S16385x2048 : Shape := ⟨2, ![16385, 2048]⟩

abbrev nBuf : Space → Nat
  | .hbm => 63
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S16384x2048, .f32⟩
  | .hbm, ⟨4, _⟩ => ⟨S2048x6144, .f32⟩
  | .hbm, ⟨5, _⟩ => ⟨S2048x6144, .f32⟩
  | .hbm, ⟨6, _⟩ => ⟨S6144, .f32⟩
  | .hbm, ⟨7, _⟩ => ⟨S2048x2048, .f32⟩
  | .hbm, ⟨8, _⟩ => ⟨S2048x2048, .f32⟩
  | .hbm, ⟨9, _⟩ => ⟨S2048, .f32⟩
  | .hbm, ⟨10, _⟩ => ⟨S1x6144, .f32⟩
  | .hbm, ⟨11, _⟩ => ⟨S1x6144, .f32⟩
  | .hbm, ⟨12, _⟩ => ⟨S1x6144, .f32⟩
  | .hbm, ⟨13, _⟩ => ⟨S1x6144, .f32⟩
  | .hbm, ⟨14, _⟩ => ⟨S1x6144, .f32⟩
  | .hbm, ⟨15, _⟩ => ⟨S1x2048, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S1x2048, .f32⟩
  | .hbm, ⟨20, _⟩ => ⟨S_, .f32⟩
  | .hbm, ⟨21, _⟩ => ⟨S1x2048, .f32⟩
  | .hbm, ⟨22, _⟩ => ⟨S1x2048, .f32⟩
  | .hbm, ⟨23, _⟩ => ⟨S_, .f32⟩
  | .hbm, ⟨24, _⟩ => ⟨S1x2048, .f32⟩
  | .hbm, ⟨25, _⟩ => ⟨S1x2048, .f32⟩
  | .hbm, ⟨26, _⟩ => ⟨S1x2048, .f32⟩
  | .hbm, ⟨27, _⟩ => ⟨S1x2048, .f32⟩
  | .hbm, ⟨28, _⟩ => ⟨S_, .f32⟩
  | .hbm, ⟨29, _⟩ => ⟨S1x2048, .f32⟩
  | .hbm, ⟨30, _⟩ => ⟨S1x2048, .f32⟩
  | .hbm, ⟨31, _⟩ => ⟨S_, .f32⟩
  | .hbm, ⟨32, _⟩ => ⟨S1x2048, .f32⟩
  | .hbm, ⟨33, _⟩ => ⟨S1x2048, .f32⟩
  | .hbm, ⟨34, _⟩ => ⟨S1x2048, .f32⟩
  | .hbm, ⟨35, _⟩ => ⟨S1x2048, .f32⟩
  | .hbm, ⟨36, _⟩ => ⟨S1x2048, .f32⟩
  | .hbm, ⟨37, _⟩ => ⟨S1x2048, .f32⟩
  | .hbm, ⟨38, _⟩ => ⟨S16384x2048, .f32⟩
  | .hbm, ⟨39, _⟩ => ⟨S16384x2048, .f32⟩
  | .hbm, ⟨40, _⟩ => ⟨S16384x2048, .f32⟩
  | .hbm, ⟨41, _⟩ => ⟨S16384x2048, .f32⟩
  | .hbm, ⟨42, _⟩ => ⟨S16384x2048, .f32⟩
  | .hbm, ⟨43, _⟩ => ⟨S_, .f32⟩
  | .hbm, ⟨44, _⟩ => ⟨S16384x2048, .f32⟩
  | .hbm, ⟨45, _⟩ => ⟨S16384x2048, .f32⟩
  | .hbm, ⟨46, _⟩ => ⟨S_, .f32⟩
  | .hbm, ⟨47, _⟩ => ⟨S16384x2048, .f32⟩
  | .hbm, ⟨48, _⟩ => ⟨S16384x2048, .f32⟩
  | .hbm, ⟨49, _⟩ => ⟨S16385x2048, .f32⟩
  | .hbm, ⟨50, _⟩ => ⟨S16385x2048, .f32⟩
  | .hbm, ⟨51, _⟩ => ⟨S_, .f32⟩
  | .hbm, ⟨52, _⟩ => ⟨S2048, .f32⟩
  | .hbm, ⟨53, _⟩ => ⟨S1x2048, .f32⟩
  | .hbm, ⟨54, _⟩ => ⟨S16385x2048, .f32⟩
  | .hbm, ⟨55, _⟩ => ⟨S16385x2048, .f32⟩
  | .hbm, ⟨56, _⟩ => ⟨S16385x2048, .f32⟩
  | .hbm, ⟨57, _⟩ => ⟨S16385x2048, .f32⟩
  | .hbm, ⟨58, _⟩ => ⟨S_, .f32⟩
  | .hbm, ⟨59, _⟩ => ⟨S2048, .f32⟩
  | .hbm, ⟨60, _⟩ => ⟨S1x2048, .f32⟩
  | .hbm, ⟨61, _⟩ => ⟨S1x2048, .f32⟩
  | .hbm, ⟨62, _⟩ => ⟨S1x2048, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩

abbrev nD : Nat := 1
abbrev τ : Topo := Topo.v7x

variable {F : FTy → Type} [FloatOps F]

class Facts₀ : Prop where
  bcast_S6144_S1x6144_1 : S6144.BroadcastsInDim S1x6144 (![1] : Fin 1 → Fin S1x6144.rank)
  slices_S1x6144_S1x2048_0_0 : S1x6144.Slices ![0, 0] S1x2048
  slices_S1x6144_S1x2048_0_2048 : S1x6144.Slices ![0, 2048] S1x2048
  slices_S1x6144_S1x2048_0_4096 : S1x6144.Slices ![0, 4096] S1x2048
  bcast_S_S1x2048 : S_.BroadcastsInDim S1x2048 (![] : Fin 0 → Fin S1x2048.rank)
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  bcast_S_S16384x2048 : S_.BroadcastsInDim S16384x2048 (![] : Fin 0 → Fin S16384x2048.rank)
  concatenates_S1x2048_S16384x2048_S16385x2048_d0 : Shape.Concatenates [S1x2048, S16384x2048] S16385x2048 0
  reducesTo_S16385x2048_S2048_d0 : S16385x2048.ReducesTo [0] S2048
  h_S_ : 0 < S_.numel
  bcast_S1x2048_S16385x2048_0_1 : S1x2048.BroadcastsInDim S16385x2048 (![0, 1] : Fin 2 → Fin S16385x2048.rank)
  dot_S1x2048_S2048x6144_S1x6144_1_0_0_1_n_n_wf : DotDims.WF S1x2048 S2048x6144 S1x6144 [1] [0] [0] [1] [] []
  dot_S1x2048_S2048x2048_S1x2048_1_0_0_1_n_n_wf : DotDims.WF S1x2048 S2048x2048 S1x2048 [1] [0] [0] [1] [] []
  dot_S16384x2048_S2048x2048_S16384x2048_1_0_0_1_n_n_wf : DotDims.WF S16384x2048 S2048x2048 S16384x2048 [1] [0] [0] [1] [] []

variable [Facts₀]

def dot_S1x2048_S2048x6144_S1x6144_1_0_0_1_n_n : DotDims S1x2048 S2048x6144 S1x6144 where
  lhsContracting := [1]
  rhsContracting := [0]
  lhsNonContracting := [0]
  rhsNonContracting := [1]
  lhsBatch := []
  rhsBatch := []
  wf := dot_S1x2048_S2048x6144_S1x6144_1_0_0_1_n_n_wf
def dot_S1x2048_S2048x2048_S1x2048_1_0_0_1_n_n : DotDims S1x2048 S2048x2048 S1x2048 where
  lhsContracting := [1]
  rhsContracting := [0]
  lhsNonContracting := [0]
  rhsNonContracting := [1]
  lhsBatch := []
  rhsBatch := []
  wf := dot_S1x2048_S2048x2048_S1x2048_1_0_0_1_n_n_wf
def dot_S16384x2048_S2048x2048_S16384x2048_1_0_0_1_n_n : DotDims S16384x2048 S2048x2048 S16384x2048 where
  lhsContracting := [1]
  rhsContracting := [0]
  lhsNonContracting := [0]
  rhsNonContracting := [1]
  lhsBatch := []
  rhsBatch := []
  wf := dot_S16384x2048_S2048x2048_S16384x2048_1_0_0_1_n_n_wf

class Facts : Prop extends Facts₀ where

variable [Facts]
-- ==== Proof.KernelFrame.Region0.lean ====
/- Region 0 (the gates matmul, a grid of 12 column tiles): the separation-logic half, at any float instance.
   Per point the body reads five input blocks whole (the two rows x and h0, the two weight tiles, the bias tile) and
   writes one output tile whole: the payload of the five reads. Stated at the entry contents `V`: each window's
   block at a point, what the body leaves in the output buffer, the body's triple, the proof data and the
   obligation at every point. -/
import proofs.«130393_j25555055411309_1_alg».proof.Proof.Gen.Kernel.Launch
import proofs.«130393_j25555055411309_1_alg».proof.Proof.Gen.Kernel.Skeleton
import proofs.«130393_j25555055411309_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with an axis of 2048 entries recurses once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the buffers' contents when the region is entered: everything below is stated at this parameter
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the window was fetched there or
    its block index did not move since the last fetch; for any proof data over the entry contents whose body leaves
    the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl)
      (fun t => by rw [hafter]; unfold Dat.blockOf iblk0; rw [hA]; try rfl) t d).trans
    (by unfold Dat.fetched Dat.blockOf iblk0; rw [hA]; try rfl)

/-- Input window 1's current staging buffer holds its block at every point, whether the window was fetched there or
    its block index did not move since the last fetch; for any proof data over the entry contents whose body leaves
    the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl)
      (fun t => by rw [hafter]; unfold Dat.blockOf iblk0; rw [hA]; try rfl) t d).trans
    (by unfold Dat.fetched Dat.blockOf iblk0; rw [hA]; try rfl)

/-- Input window 2's current staging buffer holds its block at every point, whether the window was fetched there or
    its block index did not move since the last fetch; for any proof data over the entry contents whose body leaves
    the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl)
      (fun t => by rw [hafter]; unfold Dat.blockOf iblk0; rw [hA]; try rfl) t d).trans
    (by unfold Dat.fetched Dat.blockOf iblk0; rw [hA]; try rfl)

/-- Input window 3's current staging buffer holds its block at every point, whether the window was fetched there or
    its block index did not move since the last fetch; for any proof data over the entry contents whose body leaves
    the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl)
      (fun t => by rw [hafter]; unfold Dat.blockOf iblk0; rw [hA]; try rfl) t d).trans
    (by unfold Dat.fetched Dat.blockOf iblk0; rw [hA]; try rfl)

/-- Input window 4's current staging buffer holds its block at every point, whether the window was fetched there or
    its block index did not move since the last fetch; for any proof data over the entry contents whose body leaves
    the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl)
      (fun t => by rw [hafter]; unfold Dat.blockOf iblk0; rw [hA]; try rfl) t d).trans
    (by unfold Dat.fetched Dat.blockOf iblk0; rw [hA]; try rfl)

/-! ## The body's accesses: each buffer whole -/

abbrev rRow : Rect S1x2048 := Rect.unit (s := S1x2048) ![0, 0] S1x2048.size inb_S1x2048_S1x2048_0_0
abbrev rTile : Rect S2048x512 := Rect.unit (s := S2048x512) ![0, 0] S2048x512.size inb_S2048x512_S2048x512_0_0
abbrev rOut : Rect S1x512 := Rect.unit (s := S1x512) ![0, 0] S1x512.size inb_S1x512_S1x512_0_0

/-! ## What the body leaves in the output buffer -/

/-- The output buffer after the body, from the five input blocks: its one store, the payload of the five reads. -/
def out0_5 (x0 x1 : Vec F S1x2048 .f32) (x2 x3 : Vec F S2048x512 .f32) (x4 : Vec F S1x512 .f32) : Vec F S1x512 .f32 :=
  View.canon [⟨rOut, k0_pay1 (View.ld x0 rRow) (View.ld x1 rRow) (View.ld x2 rTile) (View.ld x3 rTile) (View.ld x4 rOut)⟩]

/-- The one store is through the whole buffer's rectangle, so it covers the buffer. -/
theorem cover0_5 (p0 : Vec F S1x512 .f32) (y : S1x512.Idx) :
    ∃ pc ∈ ([⟨rOut, p0⟩] : List (View.Piece (Elt F) S1x512 .f32)), y ∈ pc.1.set :=
  View.cover_of_tiled [⟨rOut, p0⟩] S1x512.size (by rfl) y

/-! ## The body's triple -/

set_option maxHeartbeats 1000000 in
/-- The body on whole staging memrefs, the inputs' reading `x0 … x4` and the output's at anything, runs to the
    continuation holding the inputs' as they were and the output's at `out0_5` of the inputs'. -/
theorem sound_kernel0 (c : Dev nD) (E : Set ℕ) (i : grid0.Coords)
    (arg1 : Memref sig .tc .vmem S1x2048 .f32) (harg1 : arg1.IsWhole) (arg2 : Memref sig .tc .vmem S1x2048 .f32) (harg2 : arg2.IsWhole)
    (arg3 : Memref sig .tc .vmem S2048x512 .f32) (harg3 : arg3.IsWhole) (arg4 : Memref sig .tc .vmem S2048x512 .f32) (harg4 : arg4.IsWhole)
    (arg5 : Memref sig .tc .vmem S1x512 .f32) (harg5 : arg5.IsWhole) (arg6 : Memref sig .tc .vmem S1x512 .f32) (harg6 : arg6.IsWhole)
    (x0 x1 : Vec F S1x2048 .f32) (x2 x3 : Vec F S2048x512 .f32) (x4 : Vec F S1x512 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E
          (cc0__gates_kernel i arg1 harg1 arg2 harg2 arg3 harg3 arg4 harg4 arg5 harg5 arg6 harg6) K := by
  simp only [cc0__gates_kernel_eq_skeleton]; unfold cc0__gates_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of the pipeline on core `c`: the arrays as the region finds them; after the body at point `t`
    each input's buffer still at its block and the output's at `out0_5` of the five input blocks; the invariant is
    the rest of the core's scoped memory and its generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by
  dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KernelFrame.Region1.lean ====
/- Region 1 (the matmul x · aW_ih + ab, a grid of 4 column tiles): the separation-logic half, at any float instance.
   Per point the body reads three input blocks whole (the row x, the weight tile, the bias tile) and writes one
   output tile whole: the payload of the three reads. Stated at the entry contents `V`: each window's block at a
   point, what the body leaves in the output buffer, the body's triple, the proof data and the obligation at every
   point. -/
import proofs.«130393_j25555055411309_1_alg».proof.Proof.Gen.Kernel.Launch
import proofs.«130393_j25555055411309_1_alg».proof.Proof.Gen.Kernel.Skeleton
import proofs.«130393_j25555055411309_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with an axis of 2048 entries recurses once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the buffers' contents when the region is entered: everything below is stated at this parameter
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the window was fetched there or
    its block index did not move since the last fetch; for any proof data over the entry contents whose body leaves
    the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl)
      (fun t => by rw [hafter]; unfold Dat.blockOf iblk1; rw [hA]; try rfl) t d).trans
    (by unfold Dat.fetched Dat.blockOf iblk1; rw [hA]; try rfl)

/-- Input window 1's current staging buffer holds its block at every point, whether the window was fetched there or
    its block index did not move since the last fetch; for any proof data over the entry contents whose body leaves
    the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl)
      (fun t => by rw [hafter]; unfold Dat.blockOf iblk1; rw [hA]; try rfl) t d).trans
    (by unfold Dat.fetched Dat.blockOf iblk1; rw [hA]; try rfl)

/-- Input window 2's current staging buffer holds its block at every point, whether the window was fetched there or
    its block index did not move since the last fetch; for any proof data over the entry contents whose body leaves
    the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl)
      (fun t => by rw [hafter]; unfold Dat.blockOf iblk1; rw [hA]; try rfl) t d).trans
    (by unfold Dat.fetched Dat.blockOf iblk1; rw [hA]; try rfl)

/-! ## The body's accesses: each buffer whole -/

abbrev r1Row : Rect S1x2048 := Rect.unit (s := S1x2048) ![0, 0] S1x2048.size inb_S1x2048_S1x2048_0_0
abbrev r1Tile : Rect S2048x512 := Rect.unit (s := S2048x512) ![0, 0] S2048x512.size inb_S2048x512_S2048x512_0_0
abbrev r1Out : Rect S1x512 := Rect.unit (s := S1x512) ![0, 0] S1x512.size inb_S1x512_S1x512_0_0

/-! ## What the body leaves in the output buffer -/

/-- The output buffer after the body, from the three input blocks: its one store, the payload of the three reads. -/
def out1_3 (x0 : Vec F S1x2048 .f32) (x1 : Vec F S2048x512 .f32) (x2 : Vec F S1x512 .f32) : Vec F S1x512 .f32 :=
  View.canon [⟨r1Out, k1_pay1 (View.ld x0 r1Row) (View.ld x1 r1Tile) (View.ld x2 r1Out)⟩]

/-- The one store is through the whole buffer's rectangle, so it covers the buffer. -/
theorem cover1_3 (p0 : Vec F S1x512 .f32) (y : S1x512.Idx) :
    ∃ pc ∈ ([⟨r1Out, p0⟩] : List (View.Piece (Elt F) S1x512 .f32)), y ∈ pc.1.set :=
  View.cover_of_tiled [⟨r1Out, p0⟩] S1x512.size (by rfl) y

/-! ## The body's triple -/

set_option maxHeartbeats 1000000 in
/-- The body on whole staging memrefs, the inputs' reading `x0 x1 x2` and the output's at anything, runs to the
    continuation holding the inputs' as they were and the output's at `out1_3` of the inputs'. -/
theorem sound_kernel1 (c : Dev nD) (E : Set ℕ) (i : grid1.Coords)
    (arg1 : Memref sig .tc .vmem S1x2048 .f32) (harg1 : arg1.IsWhole) (arg2 : Memref sig .tc .vmem S2048x512 .f32) (harg2 : arg2.IsWhole)
    (arg3 : Memref sig .tc .vmem S1x512 .f32) (harg3 : arg3.IsWhole) (arg4 : Memref sig .tc .vmem S1x512 .f32) (harg4 : arg4.IsWhole)
    (x0 : Vec F S1x2048 .f32) (x1 : Vec F S2048x512 .f32) (x2 : Vec F S1x512 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out1_3 x0 x1 x2)) -∗ K ⟨⟩))
      ⊢ wp frame (wpE (defs₀ (F := F)) Variants.none c none) E
          (cc1__alpha_wi_kernel i arg1 harg1 arg2 harg2 arg3 harg3 arg4 harg4) K := by
  simp only [cc1__alpha_wi_kernel_eq_skeleton]; unfold cc1__alpha_wi_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the pipeline on core `c`: the arrays as the region finds them; after the body at point `t`
    each input's buffer still at its block and the output's at `out1_3` of the three input blocks; the invariant is
    the rest of the core's scoped memory and its generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by
  dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _
    (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KernelFrame.Region2.lean ====
/- Region 2 (the streaming pass over 32 row tiles of c_in): the separation-logic half, at any float instance.
   Two scratch rows are carried between the points: at the first point they are started from the blocks of windows 3
   and 4, at every point each takes its running payload over the point's tile, and at the last point they are stored
   into the two output rows, which are idle elsewhere. Stated at the entry contents `V`: the branch conditions in
   closed form, the body's triple in each of the three control cases, the two carried rows point by point, the proof
   data, the obligation at every point, and the invariant's two ends. -/
import proofs.«130393_j25555055411309_1_alg».proof.Proof.Gen.Kernel.Launch
import proofs.«130393_j25555055411309_1_alg».proof.Proof.Gen.Kernel.Skeleton
import proofs.«130393_j25555055411309_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

-- membership of an index in a rectangle with an axis of 2048 entries recurses once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the buffers' contents when the region is entered: everything below is stated at this parameter
variable (V : (c : Dev nD) → (b : Ref sig .tc) → Buf (Elt F) ((c : Thread nD τ).loc b))

/-! ## The body's two conditions -/

/-- The first conditional's condition, from the grid coordinates: it holds at the first point only. -/
abbrev cond2_0 (i : grid2.Coords) : Prop :=
  (Scalar.cmpi .ne (Scalar.extui (Scalar.cmpi .eq (BitVec.ofNat 32 (i 0).val) 0#32)) 0#32) = 1#1
theorem hcond2_0 : ∀ t : Fin cfg2.N, cond2_0 (grid2.coords t) ↔ t.val % 32 = 0 :=
  (by decide +kernel : ∀ t : Fin grid2.N, cond2_0 (grid2.coords t) ↔ t.val % 32 = 0)

/-- The second conditional's condition: it holds at the last point only. -/
abbrev cond2_1 (i : grid2.Coords) : Prop := k2_cond2 i = 1#1
theorem hcond2_1 : ∀ t : Fin cfg2.N, cond2_1 (grid2.coords t) ↔ t.val % 32 = 31 :=
  (by decide +kernel : ∀ t : Fin grid2.N, cond2_1 (grid2.coords t) ↔ t.val % 32 = 31)

/-! ## The body's accesses: each buffer whole -/

abbrev r2Tile : Rect S512x2048 := Rect.unit (s := S512x2048) ![0, 0] S512x2048.size inb_S512x2048_S512x2048_0_0
abbrev r2Sq : Rect S2048x2048 := Rect.unit (s := S2048x2048) ![0, 0] S2048x2048.size inb_S2048x2048_S2048x2048_0_0
abbrev r2Row : Rect S1x2048 := Rect.unit (s := S1x2048) ![0, 0] S1x2048.size inb_S1x2048_S1x2048_0_0

/-- The whole-buffer rectangles sit at offset zero on both axes. -/
theorem hz2 : (![0, 0] : Fin 2 → Nat) = fun _ => 0 := funext fun a => by fin_cases a <;> rfl

/-- A store through the whole row's rectangle, last, covers the row whatever was stored before it. -/
theorem cover2 (p0 : Vec F S1x2048 .f32) (L : List (View.Piece (Elt F) S1x2048 .f32)) (y : S1x2048.Idx) :
    ∃ pc ∈ ((⟨r2Row, p0⟩ : View.Piece (Elt F) S1x2048 .f32) :: L), y ∈ pc.1.set :=
  let ⟨pc, h, hy⟩ := View.cover_of_tiled [(⟨r2Row, p0⟩ : View.Piece (Elt F) S1x2048 .f32)] S1x2048.size (by rfl) y
  ⟨pc, List.mem_cons.mpr (Or.inl (List.mem_singleton.mp h)), hy⟩

/-! ## The body's triple, case by case -/

set_option maxHeartbeats 4000000 in
/-- THE FIRST POINT (first conditional taken, second not). On whole memrefs — the five inputs reading `x0 … x4`, the
    two output rows at `xi5 xi6`, the two scratch rows at anything — the body runs to the continuation holding the
    inputs and the output rows as they were, the first scratch row at its running payload over the row started from
    window 3's block, the second likewise from window 4's. -/
theorem sound_kernel2_A (c : Dev nD) (E : Set ℕ) (i : grid2.Coords)
    (arg1 : Memref sig .tc .vmem S512x2048 .f32) (harg1 : arg1.IsWhole) (arg2 : Memref sig .tc .vmem S2048x2048 .bf16) (harg2 : arg2.IsWhole)
    (arg3 : Memref sig .tc .vmem S1x2048 .f32) (harg3 : arg3.IsWhole) (arg4 : Memref sig .tc .vmem S1x2048 .f32) (harg4 : arg4.IsWhole)
    (arg5 : Memref sig .tc .vmem S1x2048 .f32) (harg5 : arg5.IsWhole) (arg6 : Memref sig .tc .vmem S1x2048 .f32) (harg6 : arg6.IsWhole)
    (arg7 : Memref sig .tc .vmem S1x2048 .f32) (harg7 : arg7.IsWhole) (arg8 : Memref sig .tc .vmem S1x2048 .f32) (harg8 : arg8.IsWhole)
    (arg9 : Memref sig .tc .vmem S1x2048 .f32) (harg9 : arg9.IsWhole)
    (hc0 : cond2_0 i) (hc1 : ¬cond2_1 i)
    (x0 : Vec F S512x2048 .f32) (x1 : Vec F S2048x2048 .bf16) (x2 x3 x4 xi5 xi6 : Vec F S1x2048 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare xi5
        ∗ owns (c : Thread nD τ) arg7 fullShare xi6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare xi5
            ∗ owns (c : Thread nD τ) arg7 fullShare xi6
            ∗ owns (c : Thread nD τ) arg8 fullShare (k2_pay4 x0 x1 x2 (k2_pay1 x3))
            ∗ owns (c : Thread nD τ) arg9 fullShare (k2_pay5 x0 x1 x2 (k2_pay2 x4))) -∗ K ⟨⟩))
      ⊢ wp frame (wpE (defs₀ (F := F)) Variants.none c none) E
          (cc2__child_attn_kernel i arg1 harg1 arg2 harg2 arg3 harg3 arg4 harg4 arg5 harg5 arg6 harg6 arg7 harg7 arg8 harg8 arg9 harg9) K := by
  simp only [cc2__child_attn_kernel_eq_skeleton]; unfold cc2__child_attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%ds0, %fs0, -, HS0⟩, ⟨%ds1, %fs1, -, HS1⟩, Hk⟩
  subst hf0 hf1 hf2 hf3 hf4 hf5 hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [HS0]
  · iexists _; isplitr
    swap; · iexact HS0
    ipureintro
    sl_unfold_run_names
    rw [View.read_writes_eq_canon _ _ _ (cover2 _ _), View.canon_cons_unit_zero (S := S1x2048) hz2]
    simp only [View.readAt_eq_ld, View.ld_unit_zero (S := S512x2048) hz2, View.ld_unit_zero (S := S2048x2048) hz2,
      View.ld_unit_zero (S := S1x2048) hz2, View.readCov_unit_zero (S := S1x2048) _ hz2]
  · iexists _; isplitr
    swap; · iexact HS1
    ipureintro
    sl_unfold_run_names
    rw [View.read_writes_eq_canon _ _ _ (cover2 _ _), View.canon_cons_unit_zero (S := S1x2048) hz2]
    simp only [View.readAt_eq_ld, View.ld_unit_zero (S := S512x2048) hz2, View.ld_unit_zero (S := S2048x2048) hz2,
      View.ld_unit_zero (S := S1x2048) hz2, View.readCov_unit_zero (S := S1x2048) _ hz2]

set_option maxHeartbeats 4000000 in
/-- A MIDDLE POINT (neither conditional taken). The scratch rows, at `xs0 xs1`, each take their running payload over
    the point's tile; everything else is as it was. -/
theorem sound_kernel2_B (c : Dev nD) (E : Set ℕ) (i : grid2.Coords)
    (arg1 : Memref sig .tc .vmem S512x2048 .f32) (harg1 : arg1.IsWhole) (arg2 : Memref sig .tc .vmem S2048x2048 .bf16) (harg2 : arg2.IsWhole)
    (arg3 : Memref sig .tc .vmem S1x2048 .f32) (harg3 : arg3.IsWhole) (arg4 : Memref sig .tc .vmem S1x2048 .f32) (harg4 : arg4.IsWhole)
    (arg5 : Memref sig .tc .vmem S1x2048 .f32) (harg5 : arg5.IsWhole) (arg6 : Memref sig .tc .vmem S1x2048 .f32) (harg6 : arg6.IsWhole)
    (arg7 : Memref sig .tc .vmem S1x2048 .f32) (harg7 : arg7.IsWhole) (arg8 : Memref sig .tc .vmem S1x2048 .f32) (harg8 : arg8.IsWhole)
    (arg9 : Memref sig .tc .vmem S1x2048 .f32) (harg9 : arg9.IsWhole)
    (hc0 : ¬cond2_0 i) (hc1 : ¬cond2_1 i)
    (x0 : Vec F S512x2048 .f32) (x1 : Vec F S2048x2048 .bf16) (x2 x3 x4 xi5 xi6 xs0 xs1 : Vec F S1x2048 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare xi5
        ∗ owns (c : Thread nD τ) arg7 fullShare xi6
        ∗ owns (c : Thread nD τ) arg8 fullShare xs0 ∗ owns (c : Thread nD τ) arg9 fullShare xs1
        ∗ (iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare xi5
            ∗ owns (c : Thread nD τ) arg7 fullShare xi6
            ∗ owns (c : Thread nD τ) arg8 fullShare (k2_pay4 x0 x1 x2 xs0)
            ∗ owns (c : Thread nD τ) arg9 fullShare (k2_pay5 x0 x1 x2 xs1)) -∗ K ⟨⟩))
      ⊢ wp frame (wpE (defs₀ (F := F)) Variants.none c none) E
          (cc2__child_attn_kernel i arg1 harg1 arg2 harg2 arg3 harg3 arg4 harg4 arg5 harg5 arg6 harg6 arg7 harg7 arg8 harg8 arg9 harg9) K := by
  simp only [cc2__child_attn_kernel_eq_skeleton]; unfold cc2__child_attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%fs0, %hfs0, HS0⟩, ⟨%fs1, %hfs1, HS1⟩, Hk⟩
  subst hf0 hf1 hf2 hf3 hf4 hf5 hf6 hfs0 hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [HS0]
  · iexists _; isplitr
    swap; · iexact HS0
    ipureintro
    sl_unfold_run_names
    rw [View.read_writes_eq_canon _ _ _ (cover2 _ _), View.canon_cons_unit_zero (S := S1x2048) hz2]
    simp only [View.readAt_eq_ld, View.ld_unit_zero (S := S512x2048) hz2, View.ld_unit_zero (S := S2048x2048) hz2,
      View.ld_unit_zero (S := S1x2048) hz2, View.readCov_unit_zero (S := S1x2048) _ hz2]
  · iexists _; isplitr
    swap; · iexact HS1
    ipureintro
    sl_unfold_run_names
    rw [View.read_writes_eq_canon _ _ _ (cover2 _ _), View.canon_cons_unit_zero (S := S1x2048) hz2]
    simp only [View.readAt_eq_ld, View.ld_unit_zero (S := S512x2048) hz2, View.ld_unit_zero (S := S2048x2048) hz2,
      View.ld_unit_zero (S := S1x2048) hz2, View.readCov_unit_zero (S := S1x2048) _ hz2]

set_option maxHeartbeats 4000000 in
/-- THE LAST POINT (first conditional not taken, second taken). The scratch rows take their running payloads as at a
    middle point, and the two output rows, at anything before, end holding the same two rows. -/
theorem sound_kernel2_C (c : Dev nD) (E : Set ℕ) (i : grid2.Coords)
    (arg1 : Memref sig .tc .vmem S512x2048 .f32) (harg1 : arg1.IsWhole) (arg2 : Memref sig .tc .vmem S2048x2048 .bf16) (harg2 : arg2.IsWhole)
    (arg3 : Memref sig .tc .vmem S1x2048 .f32) (harg3 : arg3.IsWhole) (arg4 : Memref sig .tc .vmem S1x2048 .f32) (harg4 : arg4.IsWhole)
    (arg5 : Memref sig .tc .vmem S1x2048 .f32) (harg5 : arg5.IsWhole) (arg6 : Memref sig .tc .vmem S1x2048 .f32) (harg6 : arg6.IsWhole)
    (arg7 : Memref sig .tc .vmem S1x2048 .f32) (harg7 : arg7.IsWhole) (arg8 : Memref sig .tc .vmem S1x2048 .f32) (harg8 : arg8.IsWhole)
    (arg9 : Memref sig .tc .vmem S1x2048 .f32) (harg9 : arg9.IsWhole)
    (hc0 : ¬cond2_0 i) (hc1 : cond2_1 i)
    (x0 : Vec F S512x2048 .f32) (x1 : Vec F S2048x2048 .bf16) (x2 x3 x4 xs0 xs1 : Vec F S1x2048 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (∃ d, owns (c : Thread nD τ) arg7 fullShare d)
        ∗ owns (c : Thread nD τ) arg8 fullShare xs0 ∗ owns (c : Thread nD τ) arg9 fullShare xs1
        ∗ (iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare (k2_pay4 x0 x1 x2 xs0)
            ∗ owns (c : Thread nD τ) arg7 fullShare (k2_pay5 x0 x1 x2 xs1)
            ∗ owns (c : Thread nD τ) arg8 fullShare (k2_pay4 x0 x1 x2 xs0)
            ∗ owns (c : Thread nD τ) arg9 fullShare (k2_pay5 x0 x1 x2 xs1)) -∗ K ⟨⟩))
      ⊢ wp frame (wpE (defs₀ (F := F)) Variants.none c none) E
          (cc2__child_attn_kernel i arg1 harg1 arg2 harg2 arg3 harg3 arg4 harg4 arg5 harg5 arg6 harg6 arg7 harg7 arg8 harg8 arg9 harg9) K := by
  simp only [cc2__child_attn_kernel_eq_skeleton]; unfold cc2__child_attn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩,
    ⟨%fs0, %hfs0, HS0⟩, ⟨%fs1, %hfs1, HS1⟩, Hk⟩
  subst hf0 hf1 hf2 hf3 hf4 hfs0 hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    rw [View.read_writes_eq_canon _ _ _ (cover2 _ _), View.canon_cons_unit_zero (S := S1x2048) hz2]
    simp only [View.readAt_eq_ld, View.ld_unit_zero (S := S512x2048) hz2, View.ld_unit_zero (S := S2048x2048) hz2,
      View.ld_unit_zero (S := S1x2048) hz2, View.readCov_unit_zero (S := S1x2048) _ hz2]
  isplitl [H6]
  · iexists _; isplitr
    swap; · iexact H6
    ipureintro
    sl_unfold_run_names
    rw [View.read_writes_eq_canon _ _ _ (cover2 _ _), View.canon_cons_unit_zero (S := S1x2048) hz2]
    simp only [View.readAt_eq_ld, View.ld_unit_zero (S := S512x2048) hz2, View.ld_unit_zero (S := S2048x2048) hz2,
      View.ld_unit_zero (S := S1x2048) hz2, View.readCov_unit_zero (S := S1x2048) _ hz2]
  isplitl [HS0]
  · iexists _; isplitr
    swap; · iexact HS0
    ipureintro
    sl_unfold_run_names
    rw [View.read_writes_eq_canon _ _ _ (cover2 _ _), View.canon_cons_unit_zero (S := S1x2048) hz2]
    simp only [View.readAt_eq_ld, View.ld_unit_zero (S := S512x2048) hz2, View.ld_unit_zero (S := S2048x2048) hz2,
      View.ld_unit_zero (S := S1x2048) hz2, View.readCov_unit_zero (S := S1x2048) _ hz2]
  · iexists _; isplitr
    swap; · iexact HS1
    ipureintro
    sl_unfold_run_names
    rw [View.read_writes_eq_canon _ _ _ (cover2 _ _), View.canon_cons_unit_zero (S := S1x2048) hz2]
    simp only [View.readAt_eq_ld, View.ld_unit_zero (S := S512x2048) hz2, View.ld_unit_zero (S := S2048x2048) hz2,
      View.ld_unit_zero (S := S1x2048) hz2, View.readCov_unit_zero (S := S1x2048) _ hz2]

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether the window was fetched there or
    its block index did not move since the last fetch; for any proof data over the entry contents whose body leaves
    the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl)
      (fun t => by rw [hafter]; unfold Dat.blockOf iblk2; rw [hA]; try rfl) t d).trans
    (by unfold Dat.fetched Dat.blockOf iblk2; rw [hA]; try rfl)

/-- Input window 1's current staging buffer holds its block at every point, whether the window was fetched there or
    its block index did not move since the last fetch; for any proof data over the entry contents whose body leaves
    the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl)
      (fun t => by rw [hafter]; unfold Dat.blockOf iblk2; rw [hA]; try rfl) t d).trans
    (by unfold Dat.fetched Dat.blockOf iblk2; rw [hA]; try rfl)

/-- Input window 2's current staging buffer holds its block at every point, whether the window was fetched there or
    its block index did not move since the last fetch; for any proof data over the entry contents whose body leaves
    the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl)
      (fun t => by rw [hafter]; unfold Dat.blockOf iblk2; rw [hA]; try rfl) t d).trans
    (by unfold Dat.fetched Dat.blockOf iblk2; rw [hA]; try rfl)

/-- Input window 3's current staging buffer holds its block at every point, whether the window was fetched there or
    its block index did not move since the last fetch; for any proof data over the entry contents whose body leaves
    the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl)
      (fun t => by rw [hafter]; unfold Dat.blockOf iblk2; rw [hA]; try rfl) t d).trans
    (by unfold Dat.fetched Dat.blockOf iblk2; rw [hA]; try rfl)

/-- Input window 4's current staging buffer holds its block at every point, whether the window was fetched there or
    its block index did not move since the last fetch; for any proof data over the entry contents whose body leaves
    the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl)
      (fun t => by rw [hafter]; unfold Dat.blockOf iblk2; rw [hA]; try rfl) t d).trans
    (by unfold Dat.fetched Dat.blockOf iblk2; rw [hA]; try rfl)

/-! ## The two carried rows, point by point -/

/-- The two scratch rows as memrefs: whole scoped buffers of the kernel's own. -/
abbrev sc2_0 : Memref sig .tc .vmem S1x2048 .f32 := Memref.whole cc2_scratch0
abbrev sc2_1 : Memref sig .tc .vmem S1x2048 .f32 := Memref.whole cc2_scratch1

/-- The first scratch row after point `n`: started at the first point from window 3's block, then at every point its
    running payload over the point's tile and the row the point before left. -/
def accE (c : Dev nD) : (n : ℕ) → n < cfg2.N → Vec F S1x2048 .f32
  | 0, h => k2_pay4 (iblk2 V c 0 ⟨0, h⟩) (iblk2 V c 1 ⟨0, h⟩) (iblk2 V c 2 ⟨0, h⟩) (k2_pay1 (iblk2 V c 3 ⟨0, h⟩))
  | n + 1, h => k2_pay4 (iblk2 V c 0 ⟨n + 1, h⟩) (iblk2 V c 1 ⟨n + 1, h⟩) (iblk2 V c 2 ⟨n + 1, h⟩) (accE c n (Nat.lt_of_succ_lt h))

/-- The second scratch row after point `n`: the same from window 4's block, with the second running payload. -/
def accEC (c : Dev nD) : (n : ℕ) → n < cfg2.N → Vec F S1x2048 .f32
  | 0, h => k2_pay5 (iblk2 V c 0 ⟨0, h⟩) (iblk2 V c 1 ⟨0, h⟩) (iblk2 V c 2 ⟨0, h⟩) (k2_pay2 (iblk2 V c 4 ⟨0, h⟩))
  | n + 1, h => k2_pay5 (iblk2 V c 0 ⟨n + 1, h⟩) (iblk2 V c 1 ⟨n + 1, h⟩) (iblk2 V c 2 ⟨n + 1, h⟩) (accEC c n (Nat.lt_of_succ_lt h))

theorem accE_zero (c : Dev nD) (h0 : 0 < cfg2.N) :
    accE V c 0 h0 = k2_pay4 (iblk2 V c 0 ⟨0, h0⟩) (iblk2 V c 1 ⟨0, h0⟩) (iblk2 V c 2 ⟨0, h0⟩) (k2_pay1 (iblk2 V c 3 ⟨0, h0⟩)) := rfl
theorem accE_succ (c : Dev nD) (n : ℕ) (hn : n + 1 < cfg2.N) :
    accE V c (n + 1) hn = k2_pay4 (iblk2 V c 0 ⟨n + 1, hn⟩) (iblk2 V c 1 ⟨n + 1, hn⟩) (iblk2 V c 2 ⟨n + 1, hn⟩) (accE V c n (Nat.lt_of_succ_lt hn)) := rfl
theorem accEC_zero (c : Dev nD) (h0 : 0 < cfg2.N) :
    accEC V c 0 h0 = k2_pay5 (iblk2 V c 0 ⟨0, h0⟩) (iblk2 V c 1 ⟨0, h0⟩) (iblk2 V c 2 ⟨0, h0⟩) (k2_pay2 (iblk2 V c 4 ⟨0, h0⟩)) := rfl
theorem accEC_succ (c : Dev nD) (n : ℕ) (hn : n + 1 < cfg2.N) :
    accEC V c (n + 1) hn = k2_pay5 (iblk2 V c 0 ⟨n + 1, hn⟩) (iblk2 V c 1 ⟨n + 1, hn⟩) (iblk2 V c 2 ⟨n + 1, hn⟩) (accEC V c n (Nat.lt_of_succ_lt hn)) := rfl

/-- The same equations at a point of the grid: the first point, -/
theorem accE_first (c : Dev nD) (t : Fin cfg2.N) (h : t.val = 0) :
    accE V c t.val t.isLt = k2_pay4 (iblk2 V c 0 t) (iblk2 V c 1 t) (iblk2 V c 2 t) (k2_pay1 (iblk2 V c 3 t)) := by
  obtain ⟨n, hn⟩ := t
  cases n with
  | zero => rfl
  | succ n => exact absurd h (Nat.succ_ne_zero n)
theorem accEC_first (c : Dev nD) (t : Fin cfg2.N) (h : t.val = 0) :
    accEC V c t.val t.isLt = k2_pay5 (iblk2 V c 0 t) (iblk2 V c 1 t) (iblk2 V c 2 t) (k2_pay2 (iblk2 V c 4 t)) := by
  obtain ⟨n, hn⟩ := t
  cases n with
  | zero => rfl
  | succ n => exact absurd h (Nat.succ_ne_zero n)

/-- and a later one, over what the point before left. -/
theorem accE_later (c : Dev nD) (t : Fin cfg2.N) (h : t.val ≠ 0) :
    accE V c t.val t.isLt = k2_pay4 (iblk2 V c 0 t) (iblk2 V c 1 t) (iblk2 V c 2 t)
      (accE V c (t.val - 1) (Nat.lt_of_le_of_lt (Nat.sub_le _ _) t.isLt)) := by
  obtain ⟨n, hn⟩ := t
  cases n with
  | zero => exact absurd rfl h
  | succ n => rfl
theorem accEC_later (c : Dev nD) (t : Fin cfg2.N) (h : t.val ≠ 0) :
    accEC V c t.val t.isLt = k2_pay5 (iblk2 V c 0 t) (iblk2 V c 1 t) (iblk2 V c 2 t)
      (accEC V c (t.val - 1) (Nat.lt_of_le_of_lt (Nat.sub_le _ _) t.isLt)) := by
  obtain ⟨n, hn⟩ := t
  cases n with
  | zero => exact absurd rfl h
  | succ n => rfl

/-! ## The region's invariant -/

/-- The core's scoped buffers that are neither a staging buffer of this pipeline nor one of its two scratch rows, each
    at some contents: carried through the region unopened. -/
def others2 (c : Dev nD) : sProp 𝕄 :=
  Pipeline.scopedRestBut (Ix := Unit) (Name := ℕ) (U := UR sig nD τ) (Lvl := ℕ) (Val := Elt F) spec2 c [cc2_scratch0, cc2_scratch1]

/-- What the launch hands the region, with the two scratch rows as memrefs owned at some contents. -/
theorem PhiA2_eq (c : Dev nD) :
    (Pipeline.ΦA spec2 c : sProp 𝕄)
      = iprop((((∃ d, owns (c : Thread nD τ) sc2_0 fullShare d) ∗ (∃ d, owns (c : Thread nD τ) sc2_1 fullShare d)) ∗ others2 c)
          ∗ (∃ r, prngReg c r)) := by
  unfold Pipeline.ΦA others2
  rw [Pipeline.scopedRest_split_of_list spec2 c [cc2_scratch0, cc2_scratch1] (by decide) (by decide)]
  simp only [bigSepL_cons_cons, bigSepL_singleton, sc2_0, sc2_1, owns_whole]
  try rfl

/-- The invariant before position `n`: before the first point what the launch hands over; afterwards the two scratch
    rows at what the point before left in them, the other scoped buffers at anything, the generator register at some
    state. -/
def PhiS2 (c : Dev nD) : (n : ℕ) → n ≤ cfg2.N → sProp 𝕄
  | 0, _ => Pipeline.ΦA spec2 c
  | n + 1, hn => iprop(((owns (c : Thread nD τ) sc2_0 fullShare (accE V c n hn) ∗ owns (c : Thread nD τ) sc2_1 fullShare (accEC V c n hn))
      ∗ others2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(((owns (c : Thread nD τ) sc2_0 fullShare (accE V c n hn) ∗ owns (c : Thread nD τ) sc2_1 fullShare (accEC V c n hn))
      ∗ others2 c) ∗ (∃ r, prngReg c r)) := rfl

theorem PhiS2_pos (c : Dev nD) (n : ℕ) (h : n ≤ cfg2.N) (hz : n ≠ 0) :
    PhiS2 V c n h = iprop(((owns (c : Thread nD τ) sc2_0 fullShare (accE V c (n - 1) (by omega))
        ∗ owns (c : Thread nD τ) sc2_1 fullShare (accEC V c (n - 1) (by omega)))
      ∗ others2 c) ∗ (∃ r, prngReg c r)) := by
  cases n with
  | zero => exact absurd rfl hz
  | succ n => rfl

/-! ## The pipeline's proof data -/

/-- The proof data of the pipeline on core `c`: the arrays as the region finds them; after the body at point `t` each
    input's buffer still at its block and the two output rows' at the two carried rows (read only where the rows are
    stored: the last point); the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => accE V c t.val t.isLt
    | ⟨6, _⟩ => accEC V c t.val t.isLt
  Φ t := PhiS2 V c t.val (Nat.le_of_lt_succ t.isLt)
  q _ := fullShare
  owed _ := 0

/-- The proof data's arrays are the entry contents. -/
theorem A_eq2 (c : Dev nD) (w : Fin cfg2.W) : (dat2 V c).A w = V c (Pipeline.arrRef spec2 w) := by
  dsimp only [dat2]

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = accE V c t.val t.isLt := by dsimp only [dat2]
theorem after2_6 (c : Dev nD) (t : Fin cfg2.N) : (dat2 V c).after 6 t = accEC V c t.val t.isLt := by dsimp only [dat2]

/-- At the last point the two output rows are left at the two carried rows. -/
theorem after2_5_last (c : Dev nD) (t : Fin cfg2.N) (ht : t.val = 31) : (dat2 V c).after 5 t = accE V c t.val t.isLt :=
  after2_5 V c t
theorem after2_6_last (c : Dev nD) (t : Fin cfg2.N) (ht : t.val = 31) : (dat2 V c).after 6 t = accEC V c t.val t.isLt :=
  after2_6 V c t

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## Where the windows are idle -/

/-- The inputs are never idle. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
/-- Away from the last point each output row is idle and is not written back; at the last point it is live. -/
theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel
theorem liveAt2_5 : ∀ t : Fin cfg2.N, cond2_1 (grid2.coords t) → cfg2.idle 5 (grid2.coords t) = false := by decide +kernel
theorem idleAt2_6 : ∀ t : Fin cfg2.N, ¬cond2_1 (grid2.coords t) → cfg2.idle 6 (grid2.coords t) = true := by decide +kernel
theorem noFlush2_6 : ∀ t : Fin cfg2.N, ¬cond2_1 (grid2.coords t) → (cfg2.win 6).flush t = false := by decide +kernel
theorem liveAt2_6 : ∀ t : Fin cfg2.N, cond2_1 (grid2.coords t) → cfg2.idle 6 (grid2.coords t) = false := by decide +kernel

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4000000 in
/-- The body at any point. The inputs' memrefs hold their blocks; the closed forms say which of the three cases the
    point is in; the invariant hands the body the two scratch rows at what the point before left (at anything at the
    first point) and takes them back at this point's rows; an output row is handed back untouched where it is idle and
    left at its carried row at the last point; the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [
    show (dat2 V c).leavesExact 0 t = owns (c : Thread nD τ) (st2_0 t) fullShare ((dat2 V c).after 0 t) from by
      unfold Dat.leavesExact; rw [liveAt2_0 t],
    after2_0,
    show (dat2 V c).leavesExact 1 t = owns (c : Thread nD τ) (st2_1 t) fullShare ((dat2 V c).after 1 t) from by
      unfold Dat.leavesExact; rw [liveAt2_1 t],
    after2_1,
    show (dat2 V c).leavesExact 2 t = owns (c : Thread nD τ) (st2_2 t) fullShare ((dat2 V c).after 2 t) from by
      unfold Dat.leavesExact; rw [liveAt2_2 t],
    after2_2,
    show (dat2 V c).leavesExact 3 t = owns (c : Thread nD τ) (st2_3 t) fullShare ((dat2 V c).after 3 t) from by
      unfold Dat.leavesExact; rw [liveAt2_3 t],
    after2_3,
    show (dat2 V c).leavesExact 4 t = owns (c : Thread nD τ) (st2_4 t) fullShare ((dat2 V c).after 4 t) from by
      unfold Dat.leavesExact; rw [liveAt2_4 t],
    after2_4]
  have hN : t.val < 32 := lt_of_lt_of_eq t.isLt (show cfg2.N = 32 from N_2)
  by_cases h0 : t.val % 32 = 0
  · have hz : t.val = 0 := by omega
    have hc0 : cond2_0 (grid2.coords t) := (hcond2_0 t).mpr h0
    have hc1 : ¬cond2_1 (grid2.coords t) := fun h => by have := (hcond2_1 t).mp h; omega
    rw [Dat.leavesExact_idle (dat2 V c) 5 t (idleAt2_5 t hc1) (noFlush2_5 t hc1),
      Dat.leavesExact_idle (dat2 V c) 6 t (idleAt2_6 t hc1) (noFlush2_6 t hc1)]
    rw [accE_first V c t hz, accEC_first V c t hz, PhiS2_castSucc V c t, PhiS2_zero V c _ _ hz, PhiA2_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel2_A c Set.univ (grid2.coords t) _ _ _ _ _ _ _ _ _ _ _ _ _ _ _ _ _ _ hc0 hc1
      (iblk2 V c 0 t) (iblk2 V c 1 t) (iblk2 V c 2 t) (iblk2 V c 3 t) (iblk2 V c 4 t) ((dat2 V c).before 5 t d5) ((dat2 V c).before 6 t d6) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · have hz : t.val ≠ 0 := by omega
    have hc0 : ¬cond2_0 (grid2.coords t) := fun h => h0 ((hcond2_0 t).mp h)
    by_cases h1 : t.val % 32 = 31
    · have hc1 : cond2_1 (grid2.coords t) := (hcond2_1 t).mpr h1
      rw [show (dat2 V c).leavesExact 5 t = owns (c : Thread nD τ) (st2_5 t) fullShare ((dat2 V c).after 5 t) from by
          unfold Dat.leavesExact; rw [liveAt2_5 t hc1],
        show (dat2 V c).leavesExact 6 t = owns (c : Thread nD τ) (st2_6 t) fullShare ((dat2 V c).after 6 t) from by
          unfold Dat.leavesExact; rw [liveAt2_6 t hc1],
        after2_5, after2_6]
      rw [accE_later V c t hz, accEC_later V c t hz, PhiS2_castSucc V c t, PhiS2_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel2_C c Set.univ (grid2.coords t) _ _ _ _ _ _ _ _ _ _ _ _ _ _ _ _ _ _ hc0 hc1
        (iblk2 V c 0 t) (iblk2 V c 1 t) (iblk2 V c 2 t) (iblk2 V c 3 t) (iblk2 V c 4 t) _ _ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc1 : ¬cond2_1 (grid2.coords t) := fun h => h1 ((hcond2_1 t).mp h)
      rw [Dat.leavesExact_idle (dat2 V c) 5 t (idleAt2_5 t hc1) (noFlush2_5 t hc1),
        Dat.leavesExact_idle (dat2 V c) 6 t (idleAt2_6 t hc1) (noFlush2_6 t hc1)]
      rw [accE_later V c t hz, accEC_later V c t hz, PhiS2_castSucc V c t, PhiS2_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel2_B c Set.univ (grid2.coords t) _ _ _ _ _ _ _ _ _ _ _ _ _ _ _ _ _ _ hc0 hc1
        (iblk2 V c 0 t) (iblk2 V c 1 t) (iblk2 V c 2 t) (iblk2 V c 3 t) (iblk2 V c 4 t) ((dat2 V c).before 5 t d5) ((dat2 V c).before 6 t d6) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The body obligation, at every point. -/
theorem body_obligation2 (c : Dev nD) : BodyObligation (dat2 (F := F) V c) (defs₀ (F := F)) Variants.none () Set.univ := fun t => by
  rw [bigSep_W2, bigSep_W2]
  exact sound_body2 V c t

/-! ## The invariant's two ends -/

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives back what the launch handed over: the two rows' named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, HR⟩, Hg⟩
  isplitl [HS0 HS1 HR]
  · isplitl [HS0 HS1]
    · isplitl [HS0]; · iexists _; iexact HS0
      iexists _; iexact HS1
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 32 := N_2; omega)

end Cert.Kernel.Hand

end
-- ==== Proof.KernelFrame.Run.lean ====
/-
  The run of the whole program on one core: seven segments — four stretches of host operations around the three kernel
  regions — chained through thread states that hold EVERY unscoped buffer whole at a named valuation.

  The valuations at the segment boundaries are a fold from the launch memory: a host stretch applies its operations'
  fold; a region replaces each of its windows' arrays by what the pipeline's write-backs leave in it (an input window's
  array is left as entered, an output window's is the fold of the flushed blocks) and leaves every other buffer alone.
  The launch theorem then says: every weakly fair execution terminates, and in the final memory each unscoped buffer
  holds the last valuation's contents. The frame claim (the ten argument arrays end as launched) and the two result
  buffers' contents are both read off that one statement.
-/
import proofs.«130393_j25555055411309_1_alg».proof.Proof.KernelFrame.Region0
import proofs.«130393_j25555055411309_1_alg».proof.Proof.KernelFrame.Region1
import proofs.«130393_j25555055411309_1_alg».proof.Proof.KernelFrame.Region2
import proofs.«130393_j25555055411309_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the eight segment boundaries -/

/-- At launch. -/
abbrev Bd0 : Dev nD → Valuation τ sig (Elt F) := fun c b => (s₀ m ρ).mem ((c : Dev nD), b)
/-- After the first host stretch (the bias row reshaped): region 0's entry. -/
abbrev Bd1 : Dev nD → Valuation τ sig (Elt F) := fun c => StableHlo.after hostOps0 (Bd0 m ρ c)
abbrev En1 : (c : Dev nD) → (b : Ref sig .tc) → Buf (Elt F) ((c : Thread nD τ).loc b) := fun c b => Bd1 m ρ c b
/-- After region 0: the gates row written tile by tile. -/
def Bd2 (c : Dev nD) : Valuation τ sig (Elt F) :=
  Pipeline.withArrays spec0 c (Bd1 m ρ c) fun w => (dat0 (En1 m ρ) c).arrAt w cfg0.N
abbrev Ex2 : (c : Dev nD) → (b : Ref sig .tc) → Buf (Elt F) ((c : Thread nD τ).loc b) := fun c b => Bd2 m ρ c b
/-- After the second host stretch (the three gates split and activated, the attention bias reshaped): region 1's entry. -/
abbrev Bd3 : Dev nD → Valuation τ sig (Elt F) := fun c => StableHlo.after hostOps1 (Bd2 m ρ c)
abbrev En3 : (c : Dev nD) → (b : Ref sig .tc) → Buf (Elt F) ((c : Thread nD τ).loc b) := fun c b => Bd3 m ρ c b
/-- After region 1: the input's share of the attention pre-activation. -/
def Bd4 (c : Dev nD) : Valuation τ sig (Elt F) :=
  Pipeline.withArrays spec1 c (Bd3 m ρ c) fun w => (dat1 (En3 m ρ) c).arrAt w cfg1.N
abbrev Ex4 : (c : Dev nD) → (b : Ref sig .tc) → Buf (Elt F) ((c : Thread nD τ).loc b) := fun c b => Bd4 m ρ c b
/-- After the third host stretch (the two starting rows of the streaming sums, the weights re-typed): region 2's entry. -/
abbrev Bd5 : Dev nD → Valuation τ sig (Elt F) := fun c => StableHlo.after hostOps2 (Bd4 m ρ c)
abbrev En5 : (c : Dev nD) → (b : Ref sig .tc) → Buf (Elt F) ((c : Thread nD τ).loc b) := fun c b => Bd5 m ρ c b
/-- After region 2: the two sums over the children. -/
def Bd6 (c : Dev nD) : Valuation τ sig (Elt F) :=
  Pipeline.withArrays spec2 c (Bd5 m ρ c) fun w => (dat2 (En5 m ρ) c).arrAt w cfg2.N
abbrev Ex6 : (c : Dev nD) → (b : Ref sig .tc) → Buf (Elt F) ((c : Thread nD τ).loc b) := fun c b => Bd6 m ρ c b
/-- After the last host stretch (the quotient, its tanh, the output gate): the return. -/
abbrev Bd7 : Dev nD → Valuation τ sig (Elt F) := fun c => StableHlo.after hostOps3 (Bd6 m ρ c)

theorem Bd2_arr (c : Dev nD) (w : Fin cfg0.W) :
    Bd2 m ρ c (Proc.devRef .tc (Pipeline.arrRef spec0 w)) = (dat0 (En1 m ρ) c).arrAt w cfg0.N := by
  unfold Bd2; exact Pipeline.withArrays_arr spec0 launch0.win.arr_inj c _ _ w
theorem Bd2_off (c : Dev nD) (b : Ref sig .tc) (hb : ∀ w, Pipeline.arrRef spec0 w ≠ b) :
    Bd2 m ρ c (Proc.devRef .tc b) = Bd1 m ρ c (Proc.devRef .tc b) := by
  unfold Bd2; exact Pipeline.withArrays_of_ne spec0 c _ _ b hb
theorem Bd4_arr (c : Dev nD) (w : Fin cfg1.W) :
    Bd4 m ρ c (Proc.devRef .tc (Pipeline.arrRef spec1 w)) = (dat1 (En3 m ρ) c).arrAt w cfg1.N := by
  unfold Bd4; exact Pipeline.withArrays_arr spec1 launch1.win.arr_inj c _ _ w
theorem Bd4_off (c : Dev nD) (b : Ref sig .tc) (hb : ∀ w, Pipeline.arrRef spec1 w ≠ b) :
    Bd4 m ρ c (Proc.devRef .tc b) = Bd3 m ρ c (Proc.devRef .tc b) := by
  unfold Bd4; exact Pipeline.withArrays_of_ne spec1 c _ _ b hb
theorem Bd6_arr (c : Dev nD) (w : Fin cfg2.W) :
    Bd6 m ρ c (Proc.devRef .tc (Pipeline.arrRef spec2 w)) = (dat2 (En5 m ρ) c).arrAt w cfg2.N := by
  unfold Bd6; exact Pipeline.withArrays_arr spec2 launch2.win.arr_inj c _ _ w
theorem Bd6_off (c : Dev nD) (b : Ref sig .tc) (hb : ∀ w, Pipeline.arrRef spec2 w ≠ b) :
    Bd6 m ρ c (Proc.devRef .tc b) = Bd5 m ρ c (Proc.devRef .tc b) := by
  unfold Bd6; exact Pipeline.withArrays_of_ne spec2 c _ _ b hb

/-- An input window's array leaves its region as it entered. -/
theorem Bd2_in (c : Dev nD) (w : Fin cfg0.W) (hin : (cfg0.win w).isOut = false) :
    Bd2 m ρ c (Proc.devRef .tc (Pipeline.arrRef spec0 w)) = Bd1 m ρ c (Proc.devRef .tc (Pipeline.arrRef spec0 w)) :=
  (Bd2_arr m ρ c w).trans (((dat0 (En1 m ρ) c).arrAt_in w hin _).trans (A_eq0 (En1 m ρ) c w))
theorem Bd4_in (c : Dev nD) (w : Fin cfg1.W) (hin : (cfg1.win w).isOut = false) :
    Bd4 m ρ c (Proc.devRef .tc (Pipeline.arrRef spec1 w)) = Bd3 m ρ c (Proc.devRef .tc (Pipeline.arrRef spec1 w)) :=
  (Bd4_arr m ρ c w).trans (((dat1 (En3 m ρ) c).arrAt_in w hin _).trans (A_eq1 (En3 m ρ) c w))
theorem Bd6_in (c : Dev nD) (w : Fin cfg2.W) (hin : (cfg2.win w).isOut = false) :
    Bd6 m ρ c (Proc.devRef .tc (Pipeline.arrRef spec2 w)) = Bd5 m ρ c (Proc.devRef .tc (Pipeline.arrRef spec2 w)) :=
  (Bd6_arr m ρ c w).trans (((dat2 (En5 m ρ) c).arrAt_in w hin _).trans (A_eq2 (En5 m ρ) c w))

theorem hF0 (c : Dev nD) (w : Fin cfg0.W) : (dat0 (En1 m ρ) c).arrAt w cfg0.N = Ex2 m ρ c (Pipeline.arrRef spec0 w) := (Bd2_arr m ρ c w).symm
theorem hrest0 (c : Dev nD) : ∀ b, b ∉ Finset.univ.image (Pipeline.arrRef spec0) → Ex2 m ρ c b = En1 m ρ c b :=
  fun b hb => Bd2_off m ρ c b fun w e => hb (Finset.mem_image.mpr ⟨w, Finset.mem_univ _, e⟩)
theorem hF1 (c : Dev nD) (w : Fin cfg1.W) : (dat1 (En3 m ρ) c).arrAt w cfg1.N = Ex4 m ρ c (Pipeline.arrRef spec1 w) := (Bd4_arr m ρ c w).symm
theorem hrest1 (c : Dev nD) : ∀ b, b ∉ Finset.univ.image (Pipeline.arrRef spec1) → Ex4 m ρ c b = En3 m ρ c b :=
  fun b hb => Bd4_off m ρ c b fun w e => hb (Finset.mem_image.mpr ⟨w, Finset.mem_univ _, e⟩)
theorem hF2 (c : Dev nD) (w : Fin cfg2.W) : (dat2 (En5 m ρ) c).arrAt w cfg2.N = Ex6 m ρ c (Pipeline.arrRef spec2 w) := (Bd6_arr m ρ c w).symm
theorem hrest2 (c : Dev nD) : ∀ b, b ∉ Finset.univ.image (Pipeline.arrRef spec2) → Ex6 m ρ c b = En5 m ρ c b :=
  fun b hb => Bd6_off m ρ c b fun w e => hb (Finset.mem_image.mpr ⟨w, Finset.mem_univ _, e⟩)

/-! ## The proof data family and what rides beside the buffers -/

/-- No pipeline has a prefetched table. -/
abbrev admH : (p : Fin 3) → (pcfgs (F := F) p).Adm := fun p => (cfgs p).toPCfg_adm
/-- Each pipeline's proof data at its own region's entry contents. -/
def pdatsH : (p : Fin 3) → (c : Dev nD) → Dat τ (Elt F) Unit ℕ (UR sig nD τ) ℕ (Pipeline.pin (pcfgs (F := F)) admH p) c
  | ⟨0, _⟩ => fun c => dat0 (En1 m ρ) c
  | ⟨1, _⟩ => fun c => dat1 (En3 m ρ) c
  | ⟨2, _⟩ => fun c => dat2 (En5 m ρ) c
abbrev 𝒱H : Variants := Variants.none
abbrev LH : GSem nD τ sig → Finset Unit := fun _ => ∅
abbrev lvH : GSem nD τ sig → Unit → ℕ := fun _ _ => 0
/-- Beside the buffers a core carries its generator register at some state and owes nothing. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes term. -/
abbrev TnH (c : Dev nD) : sProp 𝕄 := iprop(StableHlo.held (c : Thread nD τ) (Pipeline.ucRefs τ sig) (Bd7 m ρ c) ∗ ∃ r, prngReg c r)

/-- The class's invariant of region 2 from its parts as the launch hands them (whatever rides in the middle is dropped). -/
theorem PhiA_join2 (c : Dev nD) (P : sProp 𝕄) :
    iprop((∃ r, prngReg c r) ∗ P ∗ Pipeline.scopedRest (Ix := Unit) (Val := Elt F) (Name := ℕ) (U := UR sig nD τ) (Lvl := ℕ) spec2 c) ⊢ (Pipeline.ΦA spec2 c : sProp 𝕄) := by
  unfold Pipeline.ΦA
  iintro ⟨Hp, -, Hr⟩
  isplitl [Hr]; · iexact Hr
  iexact Hp
/-- and back into those parts. -/
theorem PhiA_split2 (c : Dev nD) :
    (Pipeline.ΦA spec2 c : sProp 𝕄) ⊢ iprop((∃ r, prngReg c r) ∗ BI.emp ∗ Pipeline.scopedRest (Ix := Unit) (Val := Elt F) (Name := ℕ) (U := UR sig nD τ) (Lvl := ℕ) spec2 c) := by
  unfold Pipeline.ΦA
  iintro ⟨Hr, Hp⟩
  isplitl [Hp]; · iexact Hp
  isplitr; · iempintro
  iexact Hr

/-! ## The three regions as segments -/

set_option backward.isDefEq.respectTransparency.types false in
/-- Region 0 between the contents `Bd1` and `Bd2`. -/
def regH0 : Pipeline.RegionSeg (pcfgs (F := F)) admH (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (En1 m ρ) c).loose
  hwaits := Pipeline.hwaits_of_owed_zero _ _ _ _ LH lvH 0 fun _ _ => rfl
  pre c := iprop(StableHlo.held (c : Thread nD τ) (Pipeline.ucRefs τ sig) (Bd1 m ρ c) ∗ RH c)
  post c := iprop(StableHlo.held (c : Thread nD τ) (Pipeline.ucRefs τ sig) (Bd2 m ρ c) ∗ RH c)
  X c := iprop(∃ r, prngReg c r)
  Y c := iprop(∃ r, prngReg c r)
  Z c := Pipeline.unscopedRest (Ix := Unit) (Name := ℕ) (U := UR sig nD τ) (Lvl := ℕ) spec0 c (En1 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (En1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (En1 m ρ c) (Ex2 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 between the contents `Bd3` and `Bd4`. -/
def regH1 : Pipeline.RegionSeg (pcfgs (F := F)) admH (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (En3 m ρ) c).loose
  hwaits := Pipeline.hwaits_of_owed_zero _ _ _ _ LH lvH 1 fun _ _ => rfl
  pre c := iprop(StableHlo.held (c : Thread nD τ) (Pipeline.ucRefs τ sig) (Bd3 m ρ c) ∗ RH c)
  post c := iprop(StableHlo.held (c : Thread nD τ) (Pipeline.ucRefs τ sig) (Bd4 m ρ c) ∗ RH c)
  X c := iprop(∃ r, prngReg c r)
  Y c := iprop(∃ r, prngReg c r)
  Z c := Pipeline.unscopedRest (Ix := Unit) (Name := ℕ) (U := UR sig nD τ) (Lvl := ℕ) spec1 c (En3 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (En3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (En3 m ρ c) (Ex4 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 between the contents `Bd5` and `Bd6`; its invariant carries the two running sums from point to point and
    is the class's before the first point and after the last. -/
def regH2 : Pipeline.RegionSeg (pcfgs (F := F)) admH (pdatsH m ρ) () defs₀ 𝒱H LH lvH 2 where
  win := launch2.win.to₀
  block_pos := launch2.block_pos
  stage_whole := launch2.stage_whole
  K := PEmpty
  osem k := k.elim
  ho := Pipeline.OwnSemFacts.none _
  hbody c := (body_obligation2 (En5 m ρ) c).loose
  hwaits := Pipeline.hwaits_of_owed_zero _ _ _ _ LH lvH 2 fun _ _ => rfl
  pre c := iprop(StableHlo.held (c : Thread nD τ) (Pipeline.ucRefs τ sig) (Bd5 m ρ c) ∗ RH c)
  post c := iprop(StableHlo.held (c : Thread nD τ) (Pipeline.ucRefs τ sig) (Bd6 m ρ c) ∗ RH c)
  X c := iprop(∃ r, prngReg c r)
  Y c := iprop(∃ r, prngReg c r)
  Z c := Pipeline.unscopedRest (Ix := Unit) (Name := ℕ) (U := UR sig nD τ) (Lvl := ℕ) spec2 c (En5 m ρ c)
  hentry c := by
    rw [Pipeline.ownSems0_none]
    have hsplit := Pipeline.arrays_of_unscopedBufs (p := 2) (pcfgs (F := F)) admH (pdatsH m ρ) launch2.win launch2.arr_whole c
      ((pdatsH m ρ 2 c).share_full fun _ => rfl) (En5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (PhiA_join2 c _).trans (hin2 (En5 m ρ) c)
  hout c := by
    rw [Pipeline.ownSems0_none]
    exact (hout2 (En5 m ρ) c).trans (PhiA_split2 c)
  hexit c := by
    have hjoin := Pipeline.unscopedBufs_of_arrays (p := 2) (pcfgs (F := F)) admH (Ix := Unit) (Name := ℕ) (U := UR sig nD τ) (Lvl := ℕ)
      launch2.win launch2.arr_whole c (pdatsH m ρ) ((pdatsH m ρ 2 c).share_full fun _ => rfl)
      (En5 m ρ c) (Ex6 m ρ c) ((pdatsH m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its segments, and the launch -/

abbrev segsH : List (Pipeline.Seg (pcfgs (F := F)) admH (pdatsH m ρ) () defs₀ 𝒱H LH lvH) :=
  [ .host (hsegH hostOps0 hostOps0_sub hostOps0_fresh (Bd0 m ρ)),
    .region (regH0 m ρ),
    .host (hsegH hostOps1 hostOps1_sub hostOps1_fresh (Bd2 m ρ)),
    .region (regH1 m ρ),
    .host (hsegH hostOps2 hostOps2_sub hostOps2_fresh (Bd4 m ρ)),
    .region (regH2 m ρ),
    .host (hsegH hostOps3 hostOps3_sub hostOps3_fresh (Bd6 m ρ)) ]

/-- The printed program is the run of its segments. -/
theorem main_runH (c : Dev nD) : main (F := F) c = Pipeline.Seg.run (segsH m ρ) := (main_chain c).trans (by chain_rfl)

set_option backward.isDefEq.respectTransparency.types false in
/-- Every weakly fair execution terminates, nothing faulting, and in the final memory every unscoped buffer of every
    core holds the last boundary's contents `Bd7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Bd7 m ρ c b) :=
  Pipeline.θ_run_regions_kit (pcfgs (F := F)) admH (pdatsH m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bd0 m ρ c) ∗ RH c)) (Tₙ := TnH m ρ)
    (hch := ⟨fun _ => .rfl, fun _ => .rfl, fun _ => .rfl, fun _ => .rfl, fun _ => .rfl, fun _ => .rfl, fun _ => .rfl, fun c => by
        show iprop(StableHlo.held (c : Thread nD τ) (Pipeline.ucRefs τ sig) (Bd7 m ρ c) ∗ RH c)
          ⊢ iprop(TnH m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach LH lvH fun c => ?_
      rw [show unscopedBufs c (fun b => m ((c : Thread nD τ).loc b)) = StableHlo.held (c : Thread nD τ) (Pipeline.ucRefs τ sig) (Bd0 m ρ c)
        from Pipeline.unscopedBufs_held c (Bd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bd7 m ρ c b)
    (hfin := fun c s' => by
      iintro ⟨⟨Hh, -⟩, HSI⟩
      unfold StableHlo.held
      imodintro
      iapply (pointsTo_read_all (Pipeline.ucRefs τ sig) (fun b => (((c : Thread nD τ)).1, b)) (Bd7 m ρ c) s')
      isplitl [Hh] <;> iassumption)
    (hQ := fun s h => h)

end Cert.Kernel.Hand

end
-- ==== Proof.KernelFrame.Args.lean ====
/-
  The argument arrays at the end of the run. No host operation writes an argument, and a region either does not touch
  it or reads it through an input window (whose array the pipeline leaves as entered): walking back through the
  boundary valuations, an argument's contents at every boundary are its launch contents. With the launch theorem this is the frame
  claim.
-/
import proofs.«130393_j25555055411309_1_alg».proof.Proof.KernelFrame.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

variable (m : (ℓ : Loc nD τ sig) → Buf (Elt F) ℓ) (ρ : Dev nD → PrngReg)

theorem Bd1_arg0 (c : Dev nD) : Bd1 m ρ c (Proc.devRef .tc main_arg0) = m ((c : Thread nD τ).loc main_arg0) :=
  (StableHlo.after_of_writes_sub (r := main_arg0) hostOps0 _ hostOps0_writes (by decide)).trans rfl
theorem Bd2_arg0 (c : Dev nD) : Bd2 m ρ c (Proc.devRef .tc main_arg0) = m ((c : Thread nD τ).loc main_arg0) :=
  (Bd2_in m ρ c 0 rfl).trans (Bd1_arg0 m ρ c)
theorem Bd3_arg0 (c : Dev nD) : Bd3 m ρ c (Proc.devRef .tc main_arg0) = m ((c : Thread nD τ).loc main_arg0) :=
  (StableHlo.after_of_writes_sub (r := main_arg0) hostOps1 _ hostOps1_writes (by decide)).trans (Bd2_arg0 m ρ c)
theorem Bd4_arg0 (c : Dev nD) : Bd4 m ρ c (Proc.devRef .tc main_arg0) = m ((c : Thread nD τ).loc main_arg0) :=
  (Bd4_in m ρ c 0 rfl).trans (Bd3_arg0 m ρ c)
theorem Bd5_arg0 (c : Dev nD) : Bd5 m ρ c (Proc.devRef .tc main_arg0) = m ((c : Thread nD τ).loc main_arg0) :=
  (StableHlo.after_of_writes_sub (r := main_arg0) hostOps2 _ hostOps2_writes (by decide)).trans (Bd4_arg0 m ρ c)
theorem Bd6_arg0 (c : Dev nD) : Bd6 m ρ c (Proc.devRef .tc main_arg0) = m ((c : Thread nD τ).loc main_arg0) :=
  (Bd6_off m ρ c main_arg0 (by decide)).trans (Bd5_arg0 m ρ c)
theorem Bd7_arg0 (c : Dev nD) : Bd7 m ρ c (Proc.devRef .tc main_arg0) = m ((c : Thread nD τ).loc main_arg0) :=
  (StableHlo.after_of_writes_sub (r := main_arg0) hostOps3 _ hostOps3_writes (by decide)).trans (Bd6_arg0 m ρ c)
theorem Bd1_arg1 (c : Dev nD) : Bd1 m ρ c (Proc.devRef .tc main_arg1) = m ((c : Thread nD τ).loc main_arg1) :=
  (StableHlo.after_of_writes_sub (r := main_arg1) hostOps0 _ hostOps0_writes (by decide)).trans rfl
theorem Bd2_arg1 (c : Dev nD) : Bd2 m ρ c (Proc.devRef .tc main_arg1) = m ((c : Thread nD τ).loc main_arg1) :=
  (Bd2_in m ρ c 1 rfl).trans (Bd1_arg1 m ρ c)
theorem Bd3_arg1 (c : Dev nD) : Bd3 m ρ c (Proc.devRef .tc main_arg1) = m ((c : Thread nD τ).loc main_arg1) :=
  (StableHlo.after_of_writes_sub (r := main_arg1) hostOps1 _ hostOps1_writes (by decide)).trans (Bd2_arg1 m ρ c)
theorem Bd4_arg1 (c : Dev nD) : Bd4 m ρ c (Proc.devRef .tc main_arg1) = m ((c : Thread nD τ).loc main_arg1) :=
  (Bd4_off m ρ c main_arg1 (by decide)).trans (Bd3_arg1 m ρ c)
theorem Bd5_arg1 (c : Dev nD) : Bd5 m ρ c (Proc.devRef .tc main_arg1) = m ((c : Thread nD τ).loc main_arg1) :=
  (StableHlo.after_of_writes_sub (r := main_arg1) hostOps2 _ hostOps2_writes (by decide)).trans (Bd4_arg1 m ρ c)
theorem Bd6_arg1 (c : Dev nD) : Bd6 m ρ c (Proc.devRef .tc main_arg1) = m ((c : Thread nD τ).loc main_arg1) :=
  (Bd6_off m ρ c main_arg1 (by decide)).trans (Bd5_arg1 m ρ c)
theorem Bd7_arg1 (c : Dev nD) : Bd7 m ρ c (Proc.devRef .tc main_arg1) = m ((c : Thread nD τ).loc main_arg1) :=
  (StableHlo.after_of_writes_sub (r := main_arg1) hostOps3 _ hostOps3_writes (by decide)).trans (Bd6_arg1 m ρ c)
theorem Bd1_arg2 (c : Dev nD) : Bd1 m ρ c (Proc.devRef .tc main_arg2) = m ((c : Thread nD τ).loc main_arg2) :=
  (StableHlo.after_of_writes_sub (r := main_arg2) hostOps0 _ hostOps0_writes (by decide)).trans rfl
theorem Bd2_arg2 (c : Dev nD) : Bd2 m ρ c (Proc.devRef .tc main_arg2) = m ((c : Thread nD τ).loc main_arg2) :=
  (Bd2_off m ρ c main_arg2 (by decide)).trans (Bd1_arg2 m ρ c)
theorem Bd3_arg2 (c : Dev nD) : Bd3 m ρ c (Proc.devRef .tc main_arg2) = m ((c : Thread nD τ).loc main_arg2) :=
  (StableHlo.after_of_writes_sub (r := main_arg2) hostOps1 _ hostOps1_writes (by decide)).trans (Bd2_arg2 m ρ c)
theorem Bd4_arg2 (c : Dev nD) : Bd4 m ρ c (Proc.devRef .tc main_arg2) = m ((c : Thread nD τ).loc main_arg2) :=
  (Bd4_off m ρ c main_arg2 (by decide)).trans (Bd3_arg2 m ρ c)
theorem Bd5_arg2 (c : Dev nD) : Bd5 m ρ c (Proc.devRef .tc main_arg2) = m ((c : Thread nD τ).loc main_arg2) :=
  (StableHlo.after_of_writes_sub (r := main_arg2) hostOps2 _ hostOps2_writes (by decide)).trans (Bd4_arg2 m ρ c)
theorem Bd6_arg2 (c : Dev nD) : Bd6 m ρ c (Proc.devRef .tc main_arg2) = m ((c : Thread nD τ).loc main_arg2) :=
  (Bd6_off m ρ c main_arg2 (by decide)).trans (Bd5_arg2 m ρ c)
theorem Bd7_arg2 (c : Dev nD) : Bd7 m ρ c (Proc.devRef .tc main_arg2) = m ((c : Thread nD τ).loc main_arg2) :=
  (StableHlo.after_of_writes_sub (r := main_arg2) hostOps3 _ hostOps3_writes (by decide)).trans (Bd6_arg2 m ρ c)
theorem Bd1_arg3 (c : Dev nD) : Bd1 m ρ c (Proc.devRef .tc main_arg3) = m ((c : Thread nD τ).loc main_arg3) :=
  (StableHlo.after_of_writes_sub (r := main_arg3) hostOps0 _ hostOps0_writes (by decide)).trans rfl
theorem Bd2_arg3 (c : Dev nD) : Bd2 m ρ c (Proc.devRef .tc main_arg3) = m ((c : Thread nD τ).loc main_arg3) :=
  (Bd2_off m ρ c main_arg3 (by decide)).trans (Bd1_arg3 m ρ c)
theorem Bd3_arg3 (c : Dev nD) : Bd3 m ρ c (Proc.devRef .tc main_arg3) = m ((c : Thread nD τ).loc main_arg3) :=
  (StableHlo.after_of_writes_sub (r := main_arg3) hostOps1 _ hostOps1_writes (by decide)).trans (Bd2_arg3 m ρ c)
theorem Bd4_arg3 (c : Dev nD) : Bd4 m ρ c (Proc.devRef .tc main_arg3) = m ((c : Thread nD τ).loc main_arg3) :=
  (Bd4_off m ρ c main_arg3 (by decide)).trans (Bd3_arg3 m ρ c)
theorem Bd5_arg3 (c : Dev nD) : Bd5 m ρ c (Proc.devRef .tc main_arg3) = m ((c : Thread nD τ).loc main_arg3) :=
  (StableHlo.after_of_writes_sub (r := main_arg3) hostOps2 _ hostOps2_writes (by decide)).trans (Bd4_arg3 m ρ c)
theorem Bd6_arg3 (c : Dev nD) : Bd6 m ρ c (Proc.devRef .tc main_arg3) = m ((c : Thread nD τ).loc main_arg3) :=
  (Bd6_in m ρ c 0 rfl).trans (Bd5_arg3 m ρ c)
theorem Bd7_arg3 (c : Dev nD) : Bd7 m ρ c (Proc.devRef .tc main_arg3) = m ((c : Thread nD τ).loc main_arg3) :=
  (StableHlo.after_of_writes_sub (r := main_arg3) hostOps3 _ hostOps3_writes (by decide)).trans (Bd6_arg3 m ρ c)
theorem Bd1_arg4 (c : Dev nD) : Bd1 m ρ c (Proc.devRef .tc main_arg4) = m ((c : Thread nD τ).loc main_arg4) :=
  (StableHlo.after_of_writes_sub (r := main_arg4) hostOps0 _ hostOps0_writes (by decide)).trans rfl
theorem Bd2_arg4 (c : Dev nD) : Bd2 m ρ c (Proc.devRef .tc main_arg4) = m ((c : Thread nD τ).loc main_arg4) :=
  (Bd2_in m ρ c 2 rfl).trans (Bd1_arg4 m ρ c)
theorem Bd3_arg4 (c : Dev nD) : Bd3 m ρ c (Proc.devRef .tc main_arg4) = m ((c : Thread nD τ).loc main_arg4) :=
  (StableHlo.after_of_writes_sub (r := main_arg4) hostOps1 _ hostOps1_writes (by decide)).trans (Bd2_arg4 m ρ c)
theorem Bd4_arg4 (c : Dev nD) : Bd4 m ρ c (Proc.devRef .tc main_arg4) = m ((c : Thread nD τ).loc main_arg4) :=
  (Bd4_off m ρ c main_arg4 (by decide)).trans (Bd3_arg4 m ρ c)
theorem Bd5_arg4 (c : Dev nD) : Bd5 m ρ c (Proc.devRef .tc main_arg4) = m ((c : Thread nD τ).loc main_arg4) :=
  (StableHlo.after_of_writes_sub (r := main_arg4) hostOps2 _ hostOps2_writes (by decide)).trans (Bd4_arg4 m ρ c)
theorem Bd6_arg4 (c : Dev nD) : Bd6 m ρ c (Proc.devRef .tc main_arg4) = m ((c : Thread nD τ).loc main_arg4) :=
  (Bd6_off m ρ c main_arg4 (by decide)).trans (Bd5_arg4 m ρ c)
theorem Bd7_arg4 (c : Dev nD) : Bd7 m ρ c (Proc.devRef .tc main_arg4) = m ((c : Thread nD τ).loc main_arg4) :=
  (StableHlo.after_of_writes_sub (r := main_arg4) hostOps3 _ hostOps3_writes (by decide)).trans (Bd6_arg4 m ρ c)
theorem Bd1_arg5 (c : Dev nD) : Bd1 m ρ c (Proc.devRef .tc main_arg5) = m ((c : Thread nD τ).loc main_arg5) :=
  (StableHlo.after_of_writes_sub (r := main_arg5) hostOps0 _ hostOps0_writes (by decide)).trans rfl
theorem Bd2_arg5 (c : Dev nD) : Bd2 m ρ c (Proc.devRef .tc main_arg5) = m ((c : Thread nD τ).loc main_arg5) :=
  (Bd2_in m ρ c 3 rfl).trans (Bd1_arg5 m ρ c)
theorem Bd3_arg5 (c : Dev nD) : Bd3 m ρ c (Proc.devRef .tc main_arg5) = m ((c : Thread nD τ).loc main_arg5) :=
  (StableHlo.after_of_writes_sub (r := main_arg5) hostOps1 _ hostOps1_writes (by decide)).trans (Bd2_arg5 m ρ c)
theorem Bd4_arg5 (c : Dev nD) : Bd4 m ρ c (Proc.devRef .tc main_arg5) = m ((c : Thread nD τ).loc main_arg5) :=
  (Bd4_off m ρ c main_arg5 (by decide)).trans (Bd3_arg5 m ρ c)
theorem Bd5_arg5 (c : Dev nD) : Bd5 m ρ c (Proc.devRef .tc main_arg5) = m ((c : Thread nD τ).loc main_arg5) :=
  (StableHlo.after_of_writes_sub (r := main_arg5) hostOps2 _ hostOps2_writes (by decide)).trans (Bd4_arg5 m ρ c)
theorem Bd6_arg5 (c : Dev nD) : Bd6 m ρ c (Proc.devRef .tc main_arg5) = m ((c : Thread nD τ).loc main_arg5) :=
  (Bd6_off m ρ c main_arg5 (by decide)).trans (Bd5_arg5 m ρ c)
theorem Bd7_arg5 (c : Dev nD) : Bd7 m ρ c (Proc.devRef .tc main_arg5) = m ((c : Thread nD τ).loc main_arg5) :=
  (StableHlo.after_of_writes_sub (r := main_arg5) hostOps3 _ hostOps3_writes (by decide)).trans (Bd6_arg5 m ρ c)
theorem Bd1_arg6 (c : Dev nD) : Bd1 m ρ c (Proc.devRef .tc main_arg6) = m ((c : Thread nD τ).loc main_arg6) :=
  (StableHlo.after_of_writes_sub (r := main_arg6) hostOps0 _ hostOps0_writes (by decide)).trans rfl
theorem Bd2_arg6 (c : Dev nD) : Bd2 m ρ c (Proc.devRef .tc main_arg6) = m ((c : Thread nD τ).loc main_arg6) :=
  (Bd2_off m ρ c main_arg6 (by decide)).trans (Bd1_arg6 m ρ c)
theorem Bd3_arg6 (c : Dev nD) : Bd3 m ρ c (Proc.devRef .tc main_arg6) = m ((c : Thread nD τ).loc main_arg6) :=
  (StableHlo.after_of_writes_sub (r := main_arg6) hostOps1 _ hostOps1_writes (by decide)).trans (Bd2_arg6 m ρ c)
theorem Bd4_arg6 (c : Dev nD) : Bd4 m ρ c (Proc.devRef .tc main_arg6) = m ((c : Thread nD τ).loc main_arg6) :=
  (Bd4_off m ρ c main_arg6 (by decide)).trans (Bd3_arg6 m ρ c)
theorem Bd5_arg6 (c : Dev nD) : Bd5 m ρ c (Proc.devRef .tc main_arg6) = m ((c : Thread nD τ).loc main_arg6) :=
  (StableHlo.after_of_writes_sub (r := main_arg6) hostOps2 _ hostOps2_writes (by decide)).trans (Bd4_arg6 m ρ c)
theorem Bd6_arg6 (c : Dev nD) : Bd6 m ρ c (Proc.devRef .tc main_arg6) = m ((c : Thread nD τ).loc main_arg6) :=
  (Bd6_off m ρ c main_arg6 (by decide)).trans (Bd5_arg6 m ρ c)
theorem Bd7_arg6 (c : Dev nD) : Bd7 m ρ c (Proc.devRef .tc main_arg6) = m ((c : Thread nD τ).loc main_arg6) :=
  (StableHlo.after_of_writes_sub (r := main_arg6) hostOps3 _ hostOps3_writes (by decide)).trans (Bd6_arg6 m ρ c)
theorem Bd1_arg7 (c : Dev nD) : Bd1 m ρ c (Proc.devRef .tc main_arg7) = m ((c : Thread nD τ).loc main_arg7) :=
  (StableHlo.after_of_writes_sub (r := main_arg7) hostOps0 _ hostOps0_writes (by decide)).trans rfl
theorem Bd2_arg7 (c : Dev nD) : Bd2 m ρ c (Proc.devRef .tc main_arg7) = m ((c : Thread nD τ).loc main_arg7) :=
  (Bd2_off m ρ c main_arg7 (by decide)).trans (Bd1_arg7 m ρ c)
theorem Bd3_arg7 (c : Dev nD) : Bd3 m ρ c (Proc.devRef .tc main_arg7) = m ((c : Thread nD τ).loc main_arg7) :=
  (StableHlo.after_of_writes_sub (r := main_arg7) hostOps1 _ hostOps1_writes (by decide)).trans (Bd2_arg7 m ρ c)
theorem Bd4_arg7 (c : Dev nD) : Bd4 m ρ c (Proc.devRef .tc main_arg7) = m ((c : Thread nD τ).loc main_arg7) :=
  (Bd4_in m ρ c 1 rfl).trans (Bd3_arg7 m ρ c)
theorem Bd5_arg7 (c : Dev nD) : Bd5 m ρ c (Proc.devRef .tc main_arg7) = m ((c : Thread nD τ).loc main_arg7) :=
  (StableHlo.after_of_writes_sub (r := main_arg7) hostOps2 _ hostOps2_writes (by decide)).trans (Bd4_arg7 m ρ c)
theorem Bd6_arg7 (c : Dev nD) : Bd6 m ρ c (Proc.devRef .tc main_arg7) = m ((c : Thread nD τ).loc main_arg7) :=
  (Bd6_off m ρ c main_arg7 (by decide)).trans (Bd5_arg7 m ρ c)
theorem Bd7_arg7 (c : Dev nD) : Bd7 m ρ c (Proc.devRef .tc main_arg7) = m ((c : Thread nD τ).loc main_arg7) :=
  (StableHlo.after_of_writes_sub (r := main_arg7) hostOps3 _ hostOps3_writes (by decide)).trans (Bd6_arg7 m ρ c)
theorem Bd1_arg8 (c : Dev nD) : Bd1 m ρ c (Proc.devRef .tc main_arg8) = m ((c : Thread nD τ).loc main_arg8) :=
  (StableHlo.after_of_writes_sub (r := main_arg8) hostOps0 _ hostOps0_writes (by decide)).trans rfl
theorem Bd2_arg8 (c : Dev nD) : Bd2 m ρ c (Proc.devRef .tc main_arg8) = m ((c : Thread nD τ).loc main_arg8) :=
  (Bd2_off m ρ c main_arg8 (by decide)).trans (Bd1_arg8 m ρ c)
theorem Bd3_arg8 (c : Dev nD) : Bd3 m ρ c (Proc.devRef .tc main_arg8) = m ((c : Thread nD τ).loc main_arg8) :=
  (StableHlo.after_of_writes_sub (r := main_arg8) hostOps1 _ hostOps1_writes (by decide)).trans (Bd2_arg8 m ρ c)
theorem Bd4_arg8 (c : Dev nD) : Bd4 m ρ c (Proc.devRef .tc main_arg8) = m ((c : Thread nD τ).loc main_arg8) :=
  (Bd4_off m ρ c main_arg8 (by decide)).trans (Bd3_arg8 m ρ c)
theorem Bd5_arg8 (c : Dev nD) : Bd5 m ρ c (Proc.devRef .tc main_arg8) = m ((c : Thread nD τ).loc main_arg8) :=
  (StableHlo.after_of_writes_sub (r := main_arg8) hostOps2 _ hostOps2_writes (by decide)).trans (Bd4_arg8 m ρ c)
theorem Bd6_arg8 (c : Dev nD) : Bd6 m ρ c (Proc.devRef .tc main_arg8) = m ((c : Thread nD τ).loc main_arg8) :=
  (Bd6_off m ρ c main_arg8 (by decide)).trans (Bd5_arg8 m ρ c)
theorem Bd7_arg8 (c : Dev nD) : Bd7 m ρ c (Proc.devRef .tc main_arg8) = m ((c : Thread nD τ).loc main_arg8) :=
  (StableHlo.after_of_writes_sub (r := main_arg8) hostOps3 _ hostOps3_writes (by decide)).trans (Bd6_arg8 m ρ c)
theorem Bd1_arg9 (c : Dev nD) : Bd1 m ρ c (Proc.devRef .tc main_arg9) = m ((c : Thread nD τ).loc main_arg9) :=
  (StableHlo.after_of_writes_sub (r := main_arg9) hostOps0 _ hostOps0_writes (by decide)).trans rfl
theorem Bd2_arg9 (c : Dev nD) : Bd2 m ρ c (Proc.devRef .tc main_arg9) = m ((c : Thread nD τ).loc main_arg9) :=
  (Bd2_off m ρ c main_arg9 (by decide)).trans (Bd1_arg9 m ρ c)
theorem Bd3_arg9 (c : Dev nD) : Bd3 m ρ c (Proc.devRef .tc main_arg9) = m ((c : Thread nD τ).loc main_arg9) :=
  (StableHlo.after_of_writes_sub (r := main_arg9) hostOps1 _ hostOps1_writes (by decide)).trans (Bd2_arg9 m ρ c)
theorem Bd4_arg9 (c : Dev nD) : Bd4 m ρ c (Proc.devRef .tc main_arg9) = m ((c : Thread nD τ).loc main_arg9) :=
  (Bd4_off m ρ c main_arg9 (by decide)).trans (Bd3_arg9 m ρ c)
theorem Bd5_arg9 (c : Dev nD) : Bd5 m ρ c (Proc.devRef .tc main_arg9) = m ((c : Thread nD τ).loc main_arg9) :=
  (StableHlo.after_of_writes_sub (r := main_arg9) hostOps2 _ hostOps2_writes (by decide)).trans (Bd4_arg9 m ρ c)
theorem Bd6_arg9 (c : Dev nD) : Bd6 m ρ c (Proc.devRef .tc main_arg9) = m ((c : Thread nD τ).loc main_arg9) :=
  (Bd6_off m ρ c main_arg9 (by decide)).trans (Bd5_arg9 m ρ c)
theorem Bd7_arg9 (c : Dev nD) : Bd7 m ρ c (Proc.devRef .tc main_arg9) = m ((c : Thread nD τ).loc main_arg9) :=
  (StableHlo.after_of_writes_sub (r := main_arg9) hostOps3 _ hostOps3_writes (by decide)).trans (Bd6_arg9 m ρ c)

/-- The frame: every weakly fair execution terminates, nothing faulting, and the ten argument arrays end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_ucH main_arg0 (by decide))).trans (Bd7_arg0 m ρ c),
    (h c _ (mem_ucH main_arg1 (by decide))).trans (Bd7_arg1 m ρ c),
    (h c _ (mem_ucH main_arg2 (by decide))).trans (Bd7_arg2 m ρ c),
    (h c _ (mem_ucH main_arg3 (by decide))).trans (Bd7_arg3 m ρ c),
    (h c _ (mem_ucH main_arg4 (by decide))).trans (Bd7_arg4 m ρ c),
    (h c _ (mem_ucH main_arg5 (by decide))).trans (Bd7_arg5 m ρ c),
    (h c _ (mem_ucH main_arg6 (by decide))).trans (Bd7_arg6 m ρ c),
    (h c _ (mem_ucH main_arg7 (by decide))).trans (Bd7_arg7 m ρ c),
    (h c _ (mem_ucH main_arg8 (by decide))).trans (Bd7_arg8 m ρ c),
    (h c _ (mem_ucH main_arg9 (by decide))).trans (Bd7_arg9 m ρ c)⟩) (run_all m ρ)

end Cert.Kernel.Hand

end
-- ==== Proof.KernelIdealFrame.Region0.lean ====
/- Region 0 (the gates matmul, a grid of 12 column tiles): the separation-logic half, at any float instance.
   Per point the body reads five input blocks whole (the two rows x and h0, the two weight tiles, the bias tile) and
   writes one output tile whole: the payload of the five reads. Stated at the entry contents `V`: each window's
   block at a point, what the body leaves in the output buffer, the body's triple, the proof data and the
   obligation at every point. -/
import proofs.«130393_j25555055411309_1_alg».proof.Proof.Gen.KernelIdeal.Launch
import proofs.«130393_j25555055411309_1_alg».proof.Proof.Gen.KernelIdeal.Skeleton
import proofs.«130393_j25555055411309_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with an axis of 2048 entries recurses once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the buffers' contents when the region is entered: everything below is stated at this parameter
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the window was fetched there or
    its block index did not move since the last fetch; for any proof data over the entry contents whose body leaves
    the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl)
      (fun t => by rw [hafter]; unfold Dat.blockOf iblk0; rw [hA]; try rfl) t d).trans
    (by unfold Dat.fetched Dat.blockOf iblk0; rw [hA]; try rfl)

/-- Input window 1's current staging buffer holds its block at every point, whether the window was fetched there or
    its block index did not move since the last fetch; for any proof data over the entry contents whose body leaves
    the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl)
      (fun t => by rw [hafter]; unfold Dat.blockOf iblk0; rw [hA]; try rfl) t d).trans
    (by unfold Dat.fetched Dat.blockOf iblk0; rw [hA]; try rfl)

/-- Input window 2's current staging buffer holds its block at every point, whether the window was fetched there or
    its block index did not move since the last fetch; for any proof data over the entry contents whose body leaves
    the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl)
      (fun t => by rw [hafter]; unfold Dat.blockOf iblk0; rw [hA]; try rfl) t d).trans
    (by unfold Dat.fetched Dat.blockOf iblk0; rw [hA]; try rfl)

/-- Input window 3's current staging buffer holds its block at every point, whether the window was fetched there or
    its block index did not move since the last fetch; for any proof data over the entry contents whose body leaves
    the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl)
      (fun t => by rw [hafter]; unfold Dat.blockOf iblk0; rw [hA]; try rfl) t d).trans
    (by unfold Dat.fetched Dat.blockOf iblk0; rw [hA]; try rfl)

/-- Input window 4's current staging buffer holds its block at every point, whether the window was fetched there or
    its block index did not move since the last fetch; for any proof data over the entry contents whose body leaves
    the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl)
      (fun t => by rw [hafter]; unfold Dat.blockOf iblk0; rw [hA]; try rfl) t d).trans
    (by unfold Dat.fetched Dat.blockOf iblk0; rw [hA]; try rfl)

/-! ## The body's accesses: each buffer whole -/

abbrev rRow : Rect S1x2048 := Rect.unit (s := S1x2048) ![0, 0] S1x2048.size inb_S1x2048_S1x2048_0_0
abbrev rTile : Rect S2048x512 := Rect.unit (s := S2048x512) ![0, 0] S2048x512.size inb_S2048x512_S2048x512_0_0
abbrev rOut : Rect S1x512 := Rect.unit (s := S1x512) ![0, 0] S1x512.size inb_S1x512_S1x512_0_0

/-! ## What the body leaves in the output buffer -/

/-- The output buffer after the body, from the five input blocks: its one store, the payload of the five reads. -/
def out0_5 (x0 x1 : Vec F S1x2048 .f32) (x2 x3 : Vec F S2048x512 .f32) (x4 : Vec F S1x512 .f32) : Vec F S1x512 .f32 :=
  View.canon [⟨rOut, k0_pay1 (View.ld x0 rRow) (View.ld x1 rRow) (View.ld x2 rTile) (View.ld x3 rTile) (View.ld x4 rOut)⟩]

/-- The one store is through the whole buffer's rectangle, so it covers the buffer. -/
theorem cover0_5 (p0 : Vec F S1x512 .f32) (y : S1x512.Idx) :
    ∃ pc ∈ ([⟨rOut, p0⟩] : List (View.Piece (Elt F) S1x512 .f32)), y ∈ pc.1.set :=
  View.cover_of_tiled [⟨rOut, p0⟩] S1x512.size (by rfl) y

/-! ## The body's triple -/

set_option maxHeartbeats 1000000 in
/-- The body on whole staging memrefs, the inputs' reading `x0 … x4` and the output's at anything, runs to the
    continuation holding the inputs' as they were and the output's at `out0_5` of the inputs'. -/
theorem sound_kernel0 (c : Dev nD) (E : Set ℕ) (i : grid0.Coords)
    (arg1 : Memref sig .tc .vmem S1x2048 .f32) (harg1 : arg1.IsWhole) (arg2 : Memref sig .tc .vmem S1x2048 .f32) (harg2 : arg2.IsWhole)
    (arg3 : Memref sig .tc .vmem S2048x512 .f32) (harg3 : arg3.IsWhole) (arg4 : Memref sig .tc .vmem S2048x512 .f32) (harg4 : arg4.IsWhole)
    (arg5 : Memref sig .tc .vmem S1x512 .f32) (harg5 : arg5.IsWhole) (arg6 : Memref sig .tc .vmem S1x512 .f32) (harg6 : arg6.IsWhole)
    (x0 x1 : Vec F S1x2048 .f32) (x2 x3 : Vec F S2048x512 .f32) (x4 : Vec F S1x512 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E
          (cc0__gates_kernel i arg1 harg1 arg2 harg2 arg3 harg3 arg4 harg4 arg5 harg5 arg6 harg6) K := by
  simp only [cc0__gates_kernel_eq_skeleton]; unfold cc0__gates_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of the pipeline on core `c`: the arrays as the region finds them; after the body at point `t`
    each input's buffer still at its block and the output's at `out0_5` of the five input blocks; the invariant is
    the rest of the core's scoped memory and its generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by
  dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdealFrame.Region1.lean ====
/- Region 1 (the matmul x · aW_ih + ab, a grid of 4 column tiles): the separation-logic half, at any float instance.
   Per point the body reads three input blocks whole (the row x, the weight tile, the bias tile) and writes one
   output tile whole: the payload of the three reads. Stated at the entry contents `V`: each window's block at a
   point, what the body leaves in the output buffer, the body's triple, the proof data and the obligation at every
   point. -/
import proofs.«130393_j25555055411309_1_alg».proof.Proof.Gen.KernelIdeal.Launch
import proofs.«130393_j25555055411309_1_alg».proof.Proof.Gen.KernelIdeal.Skeleton
import proofs.«130393_j25555055411309_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle with an axis of 2048 entries recurses once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the buffers' contents when the region is entered: everything below is stated at this parameter
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the window was fetched there or
    its block index did not move since the last fetch; for any proof data over the entry contents whose body leaves
    the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl)
      (fun t => by rw [hafter]; unfold Dat.blockOf iblk1; rw [hA]; try rfl) t d).trans
    (by unfold Dat.fetched Dat.blockOf iblk1; rw [hA]; try rfl)

/-- Input window 1's current staging buffer holds its block at every point, whether the window was fetched there or
    its block index did not move since the last fetch; for any proof data over the entry contents whose body leaves
    the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl)
      (fun t => by rw [hafter]; unfold Dat.blockOf iblk1; rw [hA]; try rfl) t d).trans
    (by unfold Dat.fetched Dat.blockOf iblk1; rw [hA]; try rfl)

/-- Input window 2's current staging buffer holds its block at every point, whether the window was fetched there or
    its block index did not move since the last fetch; for any proof data over the entry contents whose body leaves
    the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl)
      (fun t => by rw [hafter]; unfold Dat.blockOf iblk1; rw [hA]; try rfl) t d).trans
    (by unfold Dat.fetched Dat.blockOf iblk1; rw [hA]; try rfl)

/-! ## The body's accesses: each buffer whole -/

abbrev r1Row : Rect S1x2048 := Rect.unit (s := S1x2048) ![0, 0] S1x2048.size inb_S1x2048_S1x2048_0_0
abbrev r1Tile : Rect S2048x512 := Rect.unit (s := S2048x512) ![0, 0] S2048x512.size inb_S2048x512_S2048x512_0_0
abbrev r1Out : Rect S1x512 := Rect.unit (s := S1x512) ![0, 0] S1x512.size inb_S1x512_S1x512_0_0

/-! ## What the body leaves in the output buffer -/

/-- The output buffer after the body, from the three input blocks: its one store, the payload of the three reads. -/
def out1_3 (x0 : Vec F S1x2048 .f32) (x1 : Vec F S2048x512 .f32) (x2 : Vec F S1x512 .f32) : Vec F S1x512 .f32 :=
  View.canon [⟨r1Out, k1_pay1 (View.ld x0 r1Row) (View.ld x1 r1Tile) (View.ld x2 r1Out)⟩]

/-- The one store is through the whole buffer's rectangle, so it covers the buffer. -/
theorem cover1_3 (p0 : Vec F S1x512 .f32) (y : S1x512.Idx) :
    ∃ pc ∈ ([⟨r1Out, p0⟩] : List (View.Piece (Elt F) S1x512 .f32)), y ∈ pc.1.set :=
  View.cover_of_tiled [⟨r1Out, p0⟩] S1x512.size (by rfl) y

/-! ## The body's triple -/

set_option maxHeartbeats 1000000 in
/-- The body on whole staging memrefs, the inputs' reading `x0 x1 x2` and the output's at anything, runs to the
    continuation holding the inputs' as they were and the output's at `out1_3` of the inputs'. -/
theorem sound_kernel1 (c : Dev nD) (E : Set ℕ) (i : grid1.Coords)
    (arg1 : Memref sig .tc .vmem S1x2048 .f32) (harg1 : arg1.IsWhole) (arg2 : Memref sig .tc .vmem S2048x512 .f32) (harg2 : arg2.IsWhole)
    (arg3 : Memref sig .tc .vmem S1x512 .f32) (harg3 : arg3.IsWhole) (arg4 : Memref sig .tc .vmem S1x512 .f32) (harg4 : arg4.IsWhole)
    (x0 : Vec F S1x2048 .f32) (x1 : Vec F S2048x512 .f32) (x2 : Vec F S1x512 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out1_3 x0 x1 x2)) -∗ K ⟨⟩))
      ⊢ wp frame (wpE (defs₀ (F := F)) Variants.none c none) E
          (cc1__alpha_wi_kernel i arg1 harg1 arg2 harg2 arg3 harg3 arg4 harg4) K := by
  simp only [cc1__alpha_wi_kernel_eq_skeleton]; unfold cc1__alpha_wi_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the pipeline on core `c`: the arrays as the region finds them; after the body at point `t`
    each input's buffer still at its block and the output's at `out1_3` of the three input blocks; the invariant is
    the rest of the core's scoped memory and its generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by
  dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _
    (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdealFrame.Region2.lean ====
/- Region 2 (the streaming pass over 32 row tiles of c_in): the separation-logic half, at any float instance.
   Two scratch rows are carried between the points: at the first point they are started from the blocks of windows 3
   and 4, at every point each takes its running payload over the point's tile, and at the last point they are stored
   into the two output rows, which are idle elsewhere. Stated at the entry contents `V`: the branch conditions in
   closed form, the body's triple in each of the three control cases, the two carried rows point by point, the proof
   data, the obligation at every point, and the invariant's two ends. -/
import proofs.«130393_j25555055411309_1_alg».proof.Proof.Gen.KernelIdeal.Launch
import proofs.«130393_j25555055411309_1_alg».proof.Proof.Gen.KernelIdeal.Skeleton
import proofs.«130393_j25555055411309_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

-- membership of an index in a rectangle with an axis of 2048 entries recurses once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the buffers' contents when the region is entered: everything below is stated at this parameter
variable (V : (c : Dev nD) → (b : Ref sig .tc) → Buf (Elt F) ((c : Thread nD τ).loc b))

/-! ## The body's two conditions -/

/-- The first conditional's condition, from the grid coordinates: it holds at the first point only. -/
abbrev cond2_0 (i : grid2.Coords) : Prop :=
  (Scalar.cmpi .ne (Scalar.extui (Scalar.cmpi .eq (BitVec.ofNat 32 (i 0).val) 0#32)) 0#32) = 1#1
theorem hcond2_0 : ∀ t : Fin cfg2.N, cond2_0 (grid2.coords t) ↔ t.val % 32 = 0 :=
  (by decide +kernel : ∀ t : Fin grid2.N, cond2_0 (grid2.coords t) ↔ t.val % 32 = 0)

/-- The second conditional's condition: it holds at the last point only. -/
abbrev cond2_1 (i : grid2.Coords) : Prop := k2_cond2 i = 1#1
theorem hcond2_1 : ∀ t : Fin cfg2.N, cond2_1 (grid2.coords t) ↔ t.val % 32 = 31 :=
  (by decide +kernel : ∀ t : Fin grid2.N, cond2_1 (grid2.coords t) ↔ t.val % 32 = 31)

/-! ## The body's accesses: each buffer whole -/

abbrev r2Tile : Rect S512x2048 := Rect.unit (s := S512x2048) ![0, 0] S512x2048.size inb_S512x2048_S512x2048_0_0
abbrev r2Sq : Rect S2048x2048 := Rect.unit (s := S2048x2048) ![0, 0] S2048x2048.size inb_S2048x2048_S2048x2048_0_0
abbrev r2Row : Rect S1x2048 := Rect.unit (s := S1x2048) ![0, 0] S1x2048.size inb_S1x2048_S1x2048_0_0

/-- The whole-buffer rectangles sit at offset zero on both axes. -/
theorem hz2 : (![0, 0] : Fin 2 → Nat) = fun _ => 0 := funext fun a => by fin_cases a <;> rfl

/-- A store through the whole row's rectangle, last, covers the row whatever was stored before it. -/
theorem cover2 (p0 : Vec F S1x2048 .f32) (L : List (View.Piece (Elt F) S1x2048 .f32)) (y : S1x2048.Idx) :
    ∃ pc ∈ ((⟨r2Row, p0⟩ : View.Piece (Elt F) S1x2048 .f32) :: L), y ∈ pc.1.set :=
  let ⟨pc, h, hy⟩ := View.cover_of_tiled [(⟨r2Row, p0⟩ : View.Piece (Elt F) S1x2048 .f32)] S1x2048.size (by rfl) y
  ⟨pc, List.mem_cons.mpr (Or.inl (List.mem_singleton.mp h)), hy⟩

/-! ## The body's triple, case by case -/

set_option maxHeartbeats 4000000 in
/-- THE FIRST POINT (first conditional taken, second not). On whole memrefs — the five inputs reading `x0 … x4`, the
    two output rows at `xi5 xi6`, the two scratch rows at anything — the body runs to the continuation holding the
    inputs and the output rows as they were, the first scratch row at its running payload over the row started from
    window 3's block, the second likewise from window 4's. -/
theorem sound_kernel2_A (c : Dev nD) (E : Set ℕ) (i : grid2.Coords)
    (arg1 : Memref sig .tc .vmem S512x2048 .f32) (harg1 : arg1.IsWhole) (arg2 : Memref sig .tc .vmem S2048x2048 .bf16) (harg2 : arg2.IsWhole)
    (arg3 : Memref sig .tc .vmem S1x2048 .f32) (harg3 : arg3.IsWhole) (arg4 : Memref sig .tc .vmem S1x2048 .f32) (harg4 : arg4.IsWhole)
    (arg5 : Memref sig .tc .vmem S1x2048 .f32) (harg5 : arg5.IsWhole) (arg6 : Memref sig .tc .vmem S1x2048 .f32) (harg6 : arg6.IsWhole)
    (arg7 : Memref sig .tc .vmem S1x2048 .f32) (harg7 : arg7.IsWhole) (arg8 : Memref sig .tc .vmem S1x2048 .f32) (harg8 : arg8.IsWhole)
    (arg9 : Memref sig .tc .vmem S1x2048 .f32) (harg9 : arg9.IsWhole)
    (hc0 : cond2_0 i) (hc1 : ¬cond2_1 i)
    (x0 : Vec F S512x2048 .f32) (x1 : Vec F S2048x2048 .bf16) (x2 x3 x4 xi5 xi6 : Vec F S1x2048 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare xi5
        ∗ owns (c : Thread nD τ) arg7 fullShare xi6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare xi5
            ∗ owns (c : Thread nD τ) arg7 fullShare xi6
            ∗ owns (c : Thread nD τ) arg8 fullShare (k2_pay4 x0 x1 x2 (k2_pay1 x3))
            ∗ owns (c : Thread nD τ) arg9 fullShare (k2_pay5 x0 x1 x2 (k2_pay2 x4))) -∗ K ⟨⟩))
      ⊢ wp frame (wpE (defs₀ (F := F)) Variants.none c none) E
          (cc2__child_attn_kernel i arg1 harg1 arg2 harg2 arg3 harg3 arg4 harg4 arg5 harg5 arg6 harg6 arg7 harg7 arg8 harg8 arg9 harg9) K := by
  simp only [cc2__child_attn_kernel_eq_skeleton]; unfold cc2__child_attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%ds0, %fs0, -, HS0⟩, ⟨%ds1, %fs1, -, HS1⟩, Hk⟩
  subst hf0 hf1 hf2 hf3 hf4 hf5 hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [HS0]
  · iexists _; isplitr
    swap; · iexact HS0
    ipureintro
    sl_unfold_run_names
    rw [View.read_writes_eq_canon _ _ _ (cover2 _ _), View.canon_cons_unit_zero (S := S1x2048) hz2]
    simp only [View.readAt_eq_ld, View.ld_unit_zero (S := S512x2048) hz2, View.ld_unit_zero (S := S2048x2048) hz2,
      View.ld_unit_zero (S := S1x2048) hz2, View.readCov_unit_zero (S := S1x2048) _ hz2]
  · iexists _; isplitr
    swap; · iexact HS1
    ipureintro
    sl_unfold_run_names
    rw [View.read_writes_eq_canon _ _ _ (cover2 _ _), View.canon_cons_unit_zero (S := S1x2048) hz2]
    simp only [View.readAt_eq_ld, View.ld_unit_zero (S := S512x2048) hz2, View.ld_unit_zero (S := S2048x2048) hz2,
      View.ld_unit_zero (S := S1x2048) hz2, View.readCov_unit_zero (S := S1x2048) _ hz2]

set_option maxHeartbeats 4000000 in
/-- A MIDDLE POINT (neither conditional taken). The scratch rows, at `xs0 xs1`, each take their running payload over
    the point's tile; everything else is as it was. -/
theorem sound_kernel2_B (c : Dev nD) (E : Set ℕ) (i : grid2.Coords)
    (arg1 : Memref sig .tc .vmem S512x2048 .f32) (harg1 : arg1.IsWhole) (arg2 : Memref sig .tc .vmem S2048x2048 .bf16) (harg2 : arg2.IsWhole)
    (arg3 : Memref sig .tc .vmem S1x2048 .f32) (harg3 : arg3.IsWhole) (arg4 : Memref sig .tc .vmem S1x2048 .f32) (harg4 : arg4.IsWhole)
    (arg5 : Memref sig .tc .vmem S1x2048 .f32) (harg5 : arg5.IsWhole) (arg6 : Memref sig .tc .vmem S1x2048 .f32) (harg6 : arg6.IsWhole)
    (arg7 : Memref sig .tc .vmem S1x2048 .f32) (harg7 : arg7.IsWhole) (arg8 : Memref sig .tc .vmem S1x2048 .f32) (harg8 : arg8.IsWhole)
    (arg9 : Memref sig .tc .vmem S1x2048 .f32) (harg9 : arg9.IsWhole)
    (hc0 : ¬cond2_0 i) (hc1 : ¬cond2_1 i)
    (x0 : Vec F S512x2048 .f32) (x1 : Vec F S2048x2048 .bf16) (x2 x3 x4 xi5 xi6 xs0 xs1 : Vec F S1x2048 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare xi5
        ∗ owns (c : Thread nD τ) arg7 fullShare xi6
        ∗ owns (c : Thread nD τ) arg8 fullShare xs0 ∗ owns (c : Thread nD τ) arg9 fullShare xs1
        ∗ (iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare xi5
            ∗ owns (c : Thread nD τ) arg7 fullShare xi6
            ∗ owns (c : Thread nD τ) arg8 fullShare (k2_pay4 x0 x1 x2 xs0)
            ∗ owns (c : Thread nD τ) arg9 fullShare (k2_pay5 x0 x1 x2 xs1)) -∗ K ⟨⟩))
      ⊢ wp frame (wpE (defs₀ (F := F)) Variants.none c none) E
          (cc2__child_attn_kernel i arg1 harg1 arg2 harg2 arg3 harg3 arg4 harg4 arg5 harg5 arg6 harg6 arg7 harg7 arg8 harg8 arg9 harg9) K := by
  simp only [cc2__child_attn_kernel_eq_skeleton]; unfold cc2__child_attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%fs0, %hfs0, HS0⟩, ⟨%fs1, %hfs1, HS1⟩, Hk⟩
  subst hf0 hf1 hf2 hf3 hf4 hf5 hf6 hfs0 hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [HS0]
  · iexists _; isplitr
    swap; · iexact HS0
    ipureintro
    sl_unfold_run_names
    rw [View.read_writes_eq_canon _ _ _ (cover2 _ _), View.canon_cons_unit_zero (S := S1x2048) hz2]
    simp only [View.readAt_eq_ld, View.ld_unit_zero (S := S512x2048) hz2, View.ld_unit_zero (S := S2048x2048) hz2,
      View.ld_unit_zero (S := S1x2048) hz2, View.readCov_unit_zero (S := S1x2048) _ hz2]
  · iexists _; isplitr
    swap; · iexact HS1
    ipureintro
    sl_unfold_run_names
    rw [View.read_writes_eq_canon _ _ _ (cover2 _ _), View.canon_cons_unit_zero (S := S1x2048) hz2]
    simp only [View.readAt_eq_ld, View.ld_unit_zero (S := S512x2048) hz2, View.ld_unit_zero (S := S2048x2048) hz2,
      View.ld_unit_zero (S := S1x2048) hz2, View.readCov_unit_zero (S := S1x2048) _ hz2]

set_option maxHeartbeats 4000000 in
/-- THE LAST POINT (first conditional not taken, second taken). The scratch rows take their running payloads as at a
    middle point, and the two output rows, at anything before, end holding the same two rows. -/
theorem sound_kernel2_C (c : Dev nD) (E : Set ℕ) (i : grid2.Coords)
    (arg1 : Memref sig .tc .vmem S512x2048 .f32) (harg1 : arg1.IsWhole) (arg2 : Memref sig .tc .vmem S2048x2048 .bf16) (harg2 : arg2.IsWhole)
    (arg3 : Memref sig .tc .vmem S1x2048 .f32) (harg3 : arg3.IsWhole) (arg4 : Memref sig .tc .vmem S1x2048 .f32) (harg4 : arg4.IsWhole)
    (arg5 : Memref sig .tc .vmem S1x2048 .f32) (harg5 : arg5.IsWhole) (arg6 : Memref sig .tc .vmem S1x2048 .f32) (harg6 : arg6.IsWhole)
    (arg7 : Memref sig .tc .vmem S1x2048 .f32) (harg7 : arg7.IsWhole) (arg8 : Memref sig .tc .vmem S1x2048 .f32) (harg8 : arg8.IsWhole)
    (arg9 : Memref sig .tc .vmem S1x2048 .f32) (harg9 : arg9.IsWhole)
    (hc0 : ¬cond2_0 i) (hc1 : cond2_1 i)
    (x0 : Vec F S512x2048 .f32) (x1 : Vec F S2048x2048 .bf16) (x2 x3 x4 xs0 xs1 : Vec F S1x2048 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (∃ d, owns (c : Thread nD τ) arg7 fullShare d)
        ∗ owns (c : Thread nD τ) arg8 fullShare xs0 ∗ owns (c : Thread nD τ) arg9 fullShare xs1
        ∗ (iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare (k2_pay4 x0 x1 x2 xs0)
            ∗ owns (c : Thread nD τ) arg7 fullShare (k2_pay5 x0 x1 x2 xs1)
            ∗ owns (c : Thread nD τ) arg8 fullShare (k2_pay4 x0 x1 x2 xs0)
            ∗ owns (c : Thread nD τ) arg9 fullShare (k2_pay5 x0 x1 x2 xs1)) -∗ K ⟨⟩))
      ⊢ wp frame (wpE (defs₀ (F := F)) Variants.none c none) E
          (cc2__child_attn_kernel i arg1 harg1 arg2 harg2 arg3 harg3 arg4 harg4 arg5 harg5 arg6 harg6 arg7 harg7 arg8 harg8 arg9 harg9) K := by
  simp only [cc2__child_attn_kernel_eq_skeleton]; unfold cc2__child_attn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩,
    ⟨%fs0, %hfs0, HS0⟩, ⟨%fs1, %hfs1, HS1⟩, Hk⟩
  subst hf0 hf1 hf2 hf3 hf4 hfs0 hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    rw [View.read_writes_eq_canon _ _ _ (cover2 _ _), View.canon_cons_unit_zero (S := S1x2048) hz2]
    simp only [View.readAt_eq_ld, View.ld_unit_zero (S := S512x2048) hz2, View.ld_unit_zero (S := S2048x2048) hz2,
      View.ld_unit_zero (S := S1x2048) hz2, View.readCov_unit_zero (S := S1x2048) _ hz2]
  isplitl [H6]
  · iexists _; isplitr
    swap; · iexact H6
    ipureintro
    sl_unfold_run_names
    rw [View.read_writes_eq_canon _ _ _ (cover2 _ _), View.canon_cons_unit_zero (S := S1x2048) hz2]
    simp only [View.readAt_eq_ld, View.ld_unit_zero (S := S512x2048) hz2, View.ld_unit_zero (S := S2048x2048) hz2,
      View.ld_unit_zero (S := S1x2048) hz2, View.readCov_unit_zero (S := S1x2048) _ hz2]
  isplitl [HS0]
  · iexists _; isplitr
    swap; · iexact HS0
    ipureintro
    sl_unfold_run_names
    rw [View.read_writes_eq_canon _ _ _ (cover2 _ _), View.canon_cons_unit_zero (S := S1x2048) hz2]
    simp only [View.readAt_eq_ld, View.ld_unit_zero (S := S512x2048) hz2, View.ld_unit_zero (S := S2048x2048) hz2,
      View.ld_unit_zero (S := S1x2048) hz2, View.readCov_unit_zero (S := S1x2048) _ hz2]
  · iexists _; isplitr
    swap; · iexact HS1
    ipureintro
    sl_unfold_run_names
    rw [View.read_writes_eq_canon _ _ _ (cover2 _ _), View.canon_cons_unit_zero (S := S1x2048) hz2]
    simp only [View.readAt_eq_ld, View.ld_unit_zero (S := S512x2048) hz2, View.ld_unit_zero (S := S2048x2048) hz2,
      View.ld_unit_zero (S := S1x2048) hz2, View.readCov_unit_zero (S := S1x2048) _ hz2]

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether the window was fetched there or
    its block index did not move since the last fetch; for any proof data over the entry contents whose body leaves
    the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl)
      (fun t => by rw [hafter]; unfold Dat.blockOf iblk2; rw [hA]; try rfl) t d).trans
    (by unfold Dat.fetched Dat.blockOf iblk2; rw [hA]; try rfl)

/-- Input window 1's current staging buffer holds its block at every point, whether the window was fetched there or
    its block index did not move since the last fetch; for any proof data over the entry contents whose body leaves
    the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl)
      (fun t => by rw [hafter]; unfold Dat.blockOf iblk2; rw [hA]; try rfl) t d).trans
    (by unfold Dat.fetched Dat.blockOf iblk2; rw [hA]; try rfl)

/-- Input window 2's current staging buffer holds its block at every point, whether the window was fetched there or
    its block index did not move since the last fetch; for any proof data over the entry contents whose body leaves
    the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl)
      (fun t => by rw [hafter]; unfold Dat.blockOf iblk2; rw [hA]; try rfl) t d).trans
    (by unfold Dat.fetched Dat.blockOf iblk2; rw [hA]; try rfl)

/-- Input window 3's current staging buffer holds its block at every point, whether the window was fetched there or
    its block index did not move since the last fetch; for any proof data over the entry contents whose body leaves
    the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl)
      (fun t => by rw [hafter]; unfold Dat.blockOf iblk2; rw [hA]; try rfl) t d).trans
    (by unfold Dat.fetched Dat.blockOf iblk2; rw [hA]; try rfl)

/-- Input window 4's current staging buffer holds its block at every point, whether the window was fetched there or
    its block index did not move since the last fetch; for any proof data over the entry contents whose body leaves
    the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl)
      (fun t => by rw [hafter]; unfold Dat.blockOf iblk2; rw [hA]; try rfl) t d).trans
    (by unfold Dat.fetched Dat.blockOf iblk2; rw [hA]; try rfl)

/-! ## The two carried rows, point by point -/

/-- The two scratch rows as memrefs: whole scoped buffers of the kernel's own. -/
abbrev sc2_0 : Memref sig .tc .vmem S1x2048 .f32 := Memref.whole cc2_scratch0
abbrev sc2_1 : Memref sig .tc .vmem S1x2048 .f32 := Memref.whole cc2_scratch1

/-- The first scratch row after point `n`: started at the first point from window 3's block, then at every point its
    running payload over the point's tile and the row the point before left. -/
def accE (c : Dev nD) : (n : ℕ) → n < cfg2.N → Vec F S1x2048 .f32
  | 0, h => k2_pay4 (iblk2 V c 0 ⟨0, h⟩) (iblk2 V c 1 ⟨0, h⟩) (iblk2 V c 2 ⟨0, h⟩) (k2_pay1 (iblk2 V c 3 ⟨0, h⟩))
  | n + 1, h => k2_pay4 (iblk2 V c 0 ⟨n + 1, h⟩) (iblk2 V c 1 ⟨n + 1, h⟩) (iblk2 V c 2 ⟨n + 1, h⟩) (accE c n (Nat.lt_of_succ_lt h))

/-- The second scratch row after point `n`: the same from window 4's block, with the second running payload. -/
def accEC (c : Dev nD) : (n : ℕ) → n < cfg2.N → Vec F S1x2048 .f32
  | 0, h => k2_pay5 (iblk2 V c 0 ⟨0, h⟩) (iblk2 V c 1 ⟨0, h⟩) (iblk2 V c 2 ⟨0, h⟩) (k2_pay2 (iblk2 V c 4 ⟨0, h⟩))
  | n + 1, h => k2_pay5 (iblk2 V c 0 ⟨n + 1, h⟩) (iblk2 V c 1 ⟨n + 1, h⟩) (iblk2 V c 2 ⟨n + 1, h⟩) (accEC c n (Nat.lt_of_succ_lt h))

theorem accE_zero (c : Dev nD) (h0 : 0 < cfg2.N) :
    accE V c 0 h0 = k2_pay4 (iblk2 V c 0 ⟨0, h0⟩) (iblk2 V c 1 ⟨0, h0⟩) (iblk2 V c 2 ⟨0, h0⟩) (k2_pay1 (iblk2 V c 3 ⟨0, h0⟩)) := rfl
theorem accE_succ (c : Dev nD) (n : ℕ) (hn : n + 1 < cfg2.N) :
    accE V c (n + 1) hn = k2_pay4 (iblk2 V c 0 ⟨n + 1, hn⟩) (iblk2 V c 1 ⟨n + 1, hn⟩) (iblk2 V c 2 ⟨n + 1, hn⟩) (accE V c n (Nat.lt_of_succ_lt hn)) := rfl
theorem accEC_zero (c : Dev nD) (h0 : 0 < cfg2.N) :
    accEC V c 0 h0 = k2_pay5 (iblk2 V c 0 ⟨0, h0⟩) (iblk2 V c 1 ⟨0, h0⟩) (iblk2 V c 2 ⟨0, h0⟩) (k2_pay2 (iblk2 V c 4 ⟨0, h0⟩)) := rfl
theorem accEC_succ (c : Dev nD) (n : ℕ) (hn : n + 1 < cfg2.N) :
    accEC V c (n + 1) hn = k2_pay5 (iblk2 V c 0 ⟨n + 1, hn⟩) (iblk2 V c 1 ⟨n + 1, hn⟩) (iblk2 V c 2 ⟨n + 1, hn⟩) (accEC V c n (Nat.lt_of_succ_lt hn)) := rfl

/-- The same equations at a point of the grid: the first point, -/
theorem accE_first (c : Dev nD) (t : Fin cfg2.N) (h : t.val = 0) :
    accE V c t.val t.isLt = k2_pay4 (iblk2 V c 0 t) (iblk2 V c 1 t) (iblk2 V c 2 t) (k2_pay1 (iblk2 V c 3 t)) := by
  obtain ⟨n, hn⟩ := t
  cases n with
  | zero => rfl
  | succ n => exact absurd h (Nat.succ_ne_zero n)
theorem accEC_first (c : Dev nD) (t : Fin cfg2.N) (h : t.val = 0) :
    accEC V c t.val t.isLt = k2_pay5 (iblk2 V c 0 t) (iblk2 V c 1 t) (iblk2 V c 2 t) (k2_pay2 (iblk2 V c 4 t)) := by
  obtain ⟨n, hn⟩ := t
  cases n with
  | zero => rfl
  | succ n => exact absurd h (Nat.succ_ne_zero n)

/-- and a later one, over what the point before left. -/
theorem accE_later (c : Dev nD) (t : Fin cfg2.N) (h : t.val ≠ 0) :
    accE V c t.val t.isLt = k2_pay4 (iblk2 V c 0 t) (iblk2 V c 1 t) (iblk2 V c 2 t)
      (accE V c (t.val - 1) (Nat.lt_of_le_of_lt (Nat.sub_le _ _) t.isLt)) := by
  obtain ⟨n, hn⟩ := t
  cases n with
  | zero => exact absurd rfl h
  | succ n => rfl
theorem accEC_later (c : Dev nD) (t : Fin cfg2.N) (h : t.val ≠ 0) :
    accEC V c t.val t.isLt = k2_pay5 (iblk2 V c 0 t) (iblk2 V c 1 t) (iblk2 V c 2 t)
      (accEC V c (t.val - 1) (Nat.lt_of_le_of_lt (Nat.sub_le _ _) t.isLt)) := by
  obtain ⟨n, hn⟩ := t
  cases n with
  | zero => exact absurd rfl h
  | succ n => rfl

/-! ## The region's invariant -/

/-- The core's scoped buffers that are neither a staging buffer of this pipeline nor one of its two scratch rows, each
    at some contents: carried through the region unopened. -/
def others2 (c : Dev nD) : sProp 𝕄 :=
  Pipeline.scopedRestBut (Ix := Unit) (Name := ℕ) (U := UR sig nD τ) (Lvl := ℕ) (Val := Elt F) spec2 c [cc2_scratch0, cc2_scratch1]

/-- What the launch hands the region, with the two scratch rows as memrefs owned at some contents. -/
theorem PhiA2_eq (c : Dev nD) :
    (Pipeline.ΦA spec2 c : sProp 𝕄)
      = iprop((((∃ d, owns (c : Thread nD τ) sc2_0 fullShare d) ∗ (∃ d, owns (c : Thread nD τ) sc2_1 fullShare d)) ∗ others2 c)
          ∗ (∃ r, prngReg c r)) := by
  unfold Pipeline.ΦA others2
  rw [Pipeline.scopedRest_split_of_list spec2 c [cc2_scratch0, cc2_scratch1] (by decide) (by decide)]
  simp only [bigSepL_cons_cons, bigSepL_singleton, sc2_0, sc2_1, owns_whole]
  try rfl

/-- The invariant before position `n`: before the first point what the launch hands over; afterwards the two scratch
    rows at what the point before left in them, the other scoped buffers at anything, the generator register at some
    state. -/
def PhiS2 (c : Dev nD) : (n : ℕ) → n ≤ cfg2.N → sProp 𝕄
  | 0, _ => Pipeline.ΦA spec2 c
  | n + 1, hn => iprop(((owns (c : Thread nD τ) sc2_0 fullShare (accE V c n hn) ∗ owns (c : Thread nD τ) sc2_1 fullShare (accEC V c n hn))
      ∗ others2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(((owns (c : Thread nD τ) sc2_0 fullShare (accE V c n hn) ∗ owns (c : Thread nD τ) sc2_1 fullShare (accEC V c n hn))
      ∗ others2 c) ∗ (∃ r, prngReg c r)) := rfl

theorem PhiS2_pos (c : Dev nD) (n : ℕ) (h : n ≤ cfg2.N) (hz : n ≠ 0) :
    PhiS2 V c n h = iprop(((owns (c : Thread nD τ) sc2_0 fullShare (accE V c (n - 1) (by omega))
        ∗ owns (c : Thread nD τ) sc2_1 fullShare (accEC V c (n - 1) (by omega)))
      ∗ others2 c) ∗ (∃ r, prngReg c r)) := by
  cases n with
  | zero => exact absurd rfl hz
  | succ n => rfl

/-! ## The pipeline's proof data -/

/-- The proof data of the pipeline on core `c`: the arrays as the region finds them; after the body at point `t` each
    input's buffer still at its block and the two output rows' at the two carried rows (read only where the rows are
    stored: the last point); the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => accE V c t.val t.isLt
    | ⟨6, _⟩ => accEC V c t.val t.isLt
  Φ t := PhiS2 V c t.val (Nat.le_of_lt_succ t.isLt)
  q _ := fullShare
  owed _ := 0

/-- The proof data's arrays are the entry contents. -/
theorem A_eq2 (c : Dev nD) (w : Fin cfg2.W) : (dat2 V c).A w = V c (Pipeline.arrRef spec2 w) := by
  dsimp only [dat2]

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = accE V c t.val t.isLt := by dsimp only [dat2]
theorem after2_6 (c : Dev nD) (t : Fin cfg2.N) : (dat2 V c).after 6 t = accEC V c t.val t.isLt := by dsimp only [dat2]

/-- At the last point the two output rows are left at the two carried rows. -/
theorem after2_5_last (c : Dev nD) (t : Fin cfg2.N) (ht : t.val = 31) : (dat2 V c).after 5 t = accE V c t.val t.isLt :=
  after2_5 V c t
theorem after2_6_last (c : Dev nD) (t : Fin cfg2.N) (ht : t.val = 31) : (dat2 V c).after 6 t = accEC V c t.val t.isLt :=
  after2_6 V c t

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## Where the windows are idle -/

/-- The inputs are never idle. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
/-- Away from the last point each output row is idle and is not written back; at the last point it is live. -/
theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel
theorem liveAt2_5 : ∀ t : Fin cfg2.N, cond2_1 (grid2.coords t) → cfg2.idle 5 (grid2.coords t) = false := by decide +kernel
theorem idleAt2_6 : ∀ t : Fin cfg2.N, ¬cond2_1 (grid2.coords t) → cfg2.idle 6 (grid2.coords t) = true := by decide +kernel
theorem noFlush2_6 : ∀ t : Fin cfg2.N, ¬cond2_1 (grid2.coords t) → (cfg2.win 6).flush t = false := by decide +kernel
theorem liveAt2_6 : ∀ t : Fin cfg2.N, cond2_1 (grid2.coords t) → cfg2.idle 6 (grid2.coords t) = false := by decide +kernel

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4000000 in
/-- The body at any point. The inputs' memrefs hold their blocks; the closed forms say which of the three cases the
    point is in; the invariant hands the body the two scratch rows at what the point before left (at anything at the
    first point) and takes them back at this point's rows; an output row is handed back untouched where it is idle and
    left at its carried row at the last point; the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [
    show (dat2 V c).leavesExact 0 t = owns (c : Thread nD τ) (st2_0 t) fullShare ((dat2 V c).after 0 t) from by
      unfold Dat.leavesExact; rw [liveAt2_0 t],
    after2_0,
    show (dat2 V c).leavesExact 1 t = owns (c : Thread nD τ) (st2_1 t) fullShare ((dat2 V c).after 1 t) from by
      unfold Dat.leavesExact; rw [liveAt2_1 t],
    after2_1,
    show (dat2 V c).leavesExact 2 t = owns (c : Thread nD τ) (st2_2 t) fullShare ((dat2 V c).after 2 t) from by
      unfold Dat.leavesExact; rw [liveAt2_2 t],
    after2_2,
    show (dat2 V c).leavesExact 3 t = owns (c : Thread nD τ) (st2_3 t) fullShare ((dat2 V c).after 3 t) from by
      unfold Dat.leavesExact; rw [liveAt2_3 t],
    after2_3,
    show (dat2 V c).leavesExact 4 t = owns (c : Thread nD τ) (st2_4 t) fullShare ((dat2 V c).after 4 t) from by
      unfold Dat.leavesExact; rw [liveAt2_4 t],
    after2_4]
  have hN : t.val < 32 := lt_of_lt_of_eq t.isLt (show cfg2.N = 32 from N_2)
  by_cases h0 : t.val % 32 = 0
  · have hz : t.val = 0 := by omega
    have hc0 : cond2_0 (grid2.coords t) := (hcond2_0 t).mpr h0
    have hc1 : ¬cond2_1 (grid2.coords t) := fun h => by have := (hcond2_1 t).mp h; omega
    rw [Dat.leavesExact_idle (dat2 V c) 5 t (idleAt2_5 t hc1) (noFlush2_5 t hc1),
      Dat.leavesExact_idle (dat2 V c) 6 t (idleAt2_6 t hc1) (noFlush2_6 t hc1)]
    rw [accE_first V c t hz, accEC_first V c t hz, PhiS2_castSucc V c t, PhiS2_zero V c _ _ hz, PhiA2_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel2_A c Set.univ (grid2.coords t) _ _ _ _ _ _ _ _ _ _ _ _ _ _ _ _ _ _ hc0 hc1
      (iblk2 V c 0 t) (iblk2 V c 1 t) (iblk2 V c 2 t) (iblk2 V c 3 t) (iblk2 V c 4 t) ((dat2 V c).before 5 t d5) ((dat2 V c).before 6 t d6) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · have hz : t.val ≠ 0 := by omega
    have hc0 : ¬cond2_0 (grid2.coords t) := fun h => h0 ((hcond2_0 t).mp h)
    by_cases h1 : t.val % 32 = 31
    · have hc1 : cond2_1 (grid2.coords t) := (hcond2_1 t).mpr h1
      rw [show (dat2 V c).leavesExact 5 t = owns (c : Thread nD τ) (st2_5 t) fullShare ((dat2 V c).after 5 t) from by
          unfold Dat.leavesExact; rw [liveAt2_5 t hc1],
        show (dat2 V c).leavesExact 6 t = owns (c : Thread nD τ) (st2_6 t) fullShare ((dat2 V c).after 6 t) from by
          unfold Dat.leavesExact; rw [liveAt2_6 t hc1],
        after2_5, after2_6]
      rw [accE_later V c t hz, accEC_later V c t hz, PhiS2_castSucc V c t, PhiS2_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel2_C c Set.univ (grid2.coords t) _ _ _ _ _ _ _ _ _ _ _ _ _ _ _ _ _ _ hc0 hc1
        (iblk2 V c 0 t) (iblk2 V c 1 t) (iblk2 V c 2 t) (iblk2 V c 3 t) (iblk2 V c 4 t) _ _ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc1 : ¬cond2_1 (grid2.coords t) := fun h => h1 ((hcond2_1 t).mp h)
      rw [Dat.leavesExact_idle (dat2 V c) 5 t (idleAt2_5 t hc1) (noFlush2_5 t hc1),
        Dat.leavesExact_idle (dat2 V c) 6 t (idleAt2_6 t hc1) (noFlush2_6 t hc1)]
      rw [accE_later V c t hz, accEC_later V c t hz, PhiS2_castSucc V c t, PhiS2_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel2_B c Set.univ (grid2.coords t) _ _ _ _ _ _ _ _ _ _ _ _ _ _ _ _ _ _ hc0 hc1
        (iblk2 V c 0 t) (iblk2 V c 1 t) (iblk2 V c 2 t) (iblk2 V c 3 t) (iblk2 V c 4 t) ((dat2 V c).before 5 t d5) ((dat2 V c).before 6 t d6) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The body obligation, at every point. -/
theorem body_obligation2 (c : Dev nD) : BodyObligation (dat2 (F := F) V c) (defs₀ (F := F)) Variants.none () Set.univ := fun t => by
  rw [bigSep_W2, bigSep_W2]
  exact sound_body2 V c t

/-! ## The invariant's two ends -/

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives back what the launch handed over: the two rows' named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, HR⟩, Hg⟩
  isplitl [HS0 HS1 HR]
  · isplitl [HS0 HS1]
    · isplitl [HS0]; · iexists _; iexact HS0
      iexists _; iexact HS1
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 32 := N_2; omega)

end Cert.KernelIdeal.Hand

end
-- ==== Proof.KernelIdealFrame.Run.lean ====
/-
  The run of the whole program on one core: seven segments — four stretches of host operations around the three kernel
  regions — chained through thread states that hold EVERY unscoped buffer whole at a named valuation.

  The valuations at the segment boundaries are a fold from the launch memory: a host stretch applies its operations'
  fold; a region replaces each of its windows' arrays by what the pipeline's write-backs leave in it (an input window's
  array is left as entered, an output window's is the fold of the flushed blocks) and leaves every other buffer alone.
  The launch theorem then says: every weakly fair execution terminates, and in the final memory each unscoped buffer
  holds the last valuation's contents. The frame claim (the ten argument arrays end as launched) and the two result
  buffers' contents are both read off that one statement.
-/
import proofs.«130393_j25555055411309_1_alg».proof.Proof.KernelIdealFrame.Region0
import proofs.«130393_j25555055411309_1_alg».proof.Proof.KernelIdealFrame.Region1
import proofs.«130393_j25555055411309_1_alg».proof.Proof.KernelIdealFrame.Region2
import proofs.«130393_j25555055411309_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the eight segment boundaries -/

/-- At launch. -/
abbrev Bd0 : Dev nD → Valuation τ sig (Elt F) := fun c b => (s₀ m ρ).mem ((c : Dev nD), b)
/-- After the first host stretch (the bias row reshaped): region 0's entry. -/
abbrev Bd1 : Dev nD → Valuation τ sig (Elt F) := fun c => StableHlo.after hostOps0 (Bd0 m ρ c)
abbrev En1 : (c : Dev nD) → (b : Ref sig .tc) → Buf (Elt F) ((c : Thread nD τ).loc b) := fun c b => Bd1 m ρ c b
/-- After region 0: the gates row written tile by tile. -/
def Bd2 (c : Dev nD) : Valuation τ sig (Elt F) :=
  Pipeline.withArrays spec0 c (Bd1 m ρ c) fun w => (dat0 (En1 m ρ) c).arrAt w cfg0.N
abbrev Ex2 : (c : Dev nD) → (b : Ref sig .tc) → Buf (Elt F) ((c : Thread nD τ).loc b) := fun c b => Bd2 m ρ c b
/-- After the second host stretch (the three gates split and activated, the attention bias reshaped): region 1's entry. -/
abbrev Bd3 : Dev nD → Valuation τ sig (Elt F) := fun c => StableHlo.after hostOps1 (Bd2 m ρ c)
abbrev En3 : (c : Dev nD) → (b : Ref sig .tc) → Buf (Elt F) ((c : Thread nD τ).loc b) := fun c b => Bd3 m ρ c b
/-- After region 1: the input's share of the attention pre-activation. -/
def Bd4 (c : Dev nD) : Valuation τ sig (Elt F) :=
  Pipeline.withArrays spec1 c (Bd3 m ρ c) fun w => (dat1 (En3 m ρ) c).arrAt w cfg1.N
abbrev Ex4 : (c : Dev nD) → (b : Ref sig .tc) → Buf (Elt F) ((c : Thread nD τ).loc b) := fun c b => Bd4 m ρ c b
/-- After the third host stretch (the two starting rows of the streaming sums, the weights re-typed): region 2's entry. -/
abbrev Bd5 : Dev nD → Valuation τ sig (Elt F) := fun c => StableHlo.after hostOps2 (Bd4 m ρ c)
abbrev En5 : (c : Dev nD) → (b : Ref sig .tc) → Buf (Elt F) ((c : Thread nD τ).loc b) := fun c b => Bd5 m ρ c b
/-- After region 2: the two sums over the children. -/
def Bd6 (c : Dev nD) : Valuation τ sig (Elt F) :=
  Pipeline.withArrays spec2 c (Bd5 m ρ c) fun w => (dat2 (En5 m ρ) c).arrAt w cfg2.N
abbrev Ex6 : (c : Dev nD) → (b : Ref sig .tc) → Buf (Elt F) ((c : Thread nD τ).loc b) := fun c b => Bd6 m ρ c b
/-- After the last host stretch (the quotient, its tanh, the output gate): the return. -/
abbrev Bd7 : Dev nD → Valuation τ sig (Elt F) := fun c => StableHlo.after hostOps3 (Bd6 m ρ c)

theorem Bd2_arr (c : Dev nD) (w : Fin cfg0.W) :
    Bd2 m ρ c (Proc.devRef .tc (Pipeline.arrRef spec0 w)) = (dat0 (En1 m ρ) c).arrAt w cfg0.N := by
  unfold Bd2; exact Pipeline.withArrays_arr spec0 launch0.win.arr_inj c _ _ w
theorem Bd2_off (c : Dev nD) (b : Ref sig .tc) (hb : ∀ w, Pipeline.arrRef spec0 w ≠ b) :
    Bd2 m ρ c (Proc.devRef .tc b) = Bd1 m ρ c (Proc.devRef .tc b) := by
  unfold Bd2; exact Pipeline.withArrays_of_ne spec0 c _ _ b hb
theorem Bd4_arr (c : Dev nD) (w : Fin cfg1.W) :
    Bd4 m ρ c (Proc.devRef .tc (Pipeline.arrRef spec1 w)) = (dat1 (En3 m ρ) c).arrAt w cfg1.N := by
  unfold Bd4; exact Pipeline.withArrays_arr spec1 launch1.win.arr_inj c _ _ w
theorem Bd4_off (c : Dev nD) (b : Ref sig .tc) (hb : ∀ w, Pipeline.arrRef spec1 w ≠ b) :
    Bd4 m ρ c (Proc.devRef .tc b) = Bd3 m ρ c (Proc.devRef .tc b) := by
  unfold Bd4; exact Pipeline.withArrays_of_ne spec1 c _ _ b hb
theorem Bd6_arr (c : Dev nD) (w : Fin cfg2.W) :
    Bd6 m ρ c (Proc.devRef .tc (Pipeline.arrRef spec2 w)) = (dat2 (En5 m ρ) c).arrAt w cfg2.N := by
  unfold Bd6; exact Pipeline.withArrays_arr spec2 launch2.win.arr_inj c _ _ w
theorem Bd6_off (c : Dev nD) (b : Ref sig .tc) (hb : ∀ w, Pipeline.arrRef spec2 w ≠ b) :
    Bd6 m ρ c (Proc.devRef .tc b) = Bd5 m ρ c (Proc.devRef .tc b) := by
  unfold Bd6; exact Pipeline.withArrays_of_ne spec2 c _ _ b hb

/-- An input window's array leaves its region as it entered. -/
theorem Bd2_in (c : Dev nD) (w : Fin cfg0.W) (hin : (cfg0.win w).isOut = false) :
    Bd2 m ρ c (Proc.devRef .tc (Pipeline.arrRef spec0 w)) = Bd1 m ρ c (Proc.devRef .tc (Pipeline.arrRef spec0 w)) :=
  (Bd2_arr m ρ c w).trans (((dat0 (En1 m ρ) c).arrAt_in w hin _).trans (A_eq0 (En1 m ρ) c w))
theorem Bd4_in (c : Dev nD) (w : Fin cfg1.W) (hin : (cfg1.win w).isOut = false) :
    Bd4 m ρ c (Proc.devRef .tc (Pipeline.arrRef spec1 w)) = Bd3 m ρ c (Proc.devRef .tc (Pipeline.arrRef spec1 w)) :=
  (Bd4_arr m ρ c w).trans (((dat1 (En3 m ρ) c).arrAt_in w hin _).trans (A_eq1 (En3 m ρ) c w))
theorem Bd6_in (c : Dev nD) (w : Fin cfg2.W) (hin : (cfg2.win w).isOut = false) :
    Bd6 m ρ c (Proc.devRef .tc (Pipeline.arrRef spec2 w)) = Bd5 m ρ c (Proc.devRef .tc (Pipeline.arrRef spec2 w)) :=
  (Bd6_arr m ρ c w).trans (((dat2 (En5 m ρ) c).arrAt_in w hin _).trans (A_eq2 (En5 m ρ) c w))

theorem hF0 (c : Dev nD) (w : Fin cfg0.W) : (dat0 (En1 m ρ) c).arrAt w cfg0.N = Ex2 m ρ c (Pipeline.arrRef spec0 w) := (Bd2_arr m ρ c w).symm
theorem hrest0 (c : Dev nD) : ∀ b, b ∉ Finset.univ.image (Pipeline.arrRef spec0) → Ex2 m ρ c b = En1 m ρ c b :=
  fun b hb => Bd2_off m ρ c b fun w e => hb (Finset.mem_image.mpr ⟨w, Finset.mem_univ _, e⟩)
theorem hF1 (c : Dev nD) (w : Fin cfg1.W) : (dat1 (En3 m ρ) c).arrAt w cfg1.N = Ex4 m ρ c (Pipeline.arrRef spec1 w) := (Bd4_arr m ρ c w).symm
theorem hrest1 (c : Dev nD) : ∀ b, b ∉ Finset.univ.image (Pipeline.arrRef spec1) → Ex4 m ρ c b = En3 m ρ c b :=
  fun b hb => Bd4_off m ρ c b fun w e => hb (Finset.mem_image.mpr ⟨w, Finset.mem_univ _, e⟩)
theorem hF2 (c : Dev nD) (w : Fin cfg2.W) : (dat2 (En5 m ρ) c).arrAt w cfg2.N = Ex6 m ρ c (Pipeline.arrRef spec2 w) := (Bd6_arr m ρ c w).symm
theorem hrest2 (c : Dev nD) : ∀ b, b ∉ Finset.univ.image (Pipeline.arrRef spec2) → Ex6 m ρ c b = En5 m ρ c b :=
  fun b hb => Bd6_off m ρ c b fun w e => hb (Finset.mem_image.mpr ⟨w, Finset.mem_univ _, e⟩)

/-! ## The proof data family and what rides beside the buffers -/

/-- No pipeline has a prefetched table. -/
abbrev admH : (p : Fin 3) → (pcfgs (F := F) p).Adm := fun p => (cfgs p).toPCfg_adm
/-- Each pipeline's proof data at its own region's entry contents. -/
def pdatsH : (p : Fin 3) → (c : Dev nD) → Dat τ (Elt F) Unit ℕ (UR sig nD τ) ℕ (Pipeline.pin (pcfgs (F := F)) admH p) c
  | ⟨0, _⟩ => fun c => dat0 (En1 m ρ) c
  | ⟨1, _⟩ => fun c => dat1 (En3 m ρ) c
  | ⟨2, _⟩ => fun c => dat2 (En5 m ρ) c
abbrev 𝒱H : Variants := Variants.none
abbrev LH : GSem nD τ sig → Finset Unit := fun _ => ∅
abbrev lvH : GSem nD τ sig → Unit → ℕ := fun _ _ => 0
/-- Beside the buffers a core carries its generator register at some state and owes nothing. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes term. -/
abbrev TnH (c : Dev nD) : sProp 𝕄 := iprop(StableHlo.held (c : Thread nD τ) (Pipeline.ucRefs τ sig) (Bd7 m ρ c) ∗ ∃ r, prngReg c r)

/-- The class's invariant of region 2 from its parts as the launch hands them (whatever rides in the middle is dropped). -/
theorem PhiA_join2 (c : Dev nD) (P : sProp 𝕄) :
    iprop((∃ r, prngReg c r) ∗ P ∗ Pipeline.scopedRest (Ix := Unit) (Val := Elt F) (Name := ℕ) (U := UR sig nD τ) (Lvl := ℕ) spec2 c) ⊢ (Pipeline.ΦA spec2 c : sProp 𝕄) := by
  unfold Pipeline.ΦA
  iintro ⟨Hp, -, Hr⟩
  isplitl [Hr]; · iexact Hr
  iexact Hp
/-- and back into those parts. -/
theorem PhiA_split2 (c : Dev nD) :
    (Pipeline.ΦA spec2 c : sProp 𝕄) ⊢ iprop((∃ r, prngReg c r) ∗ BI.emp ∗ Pipeline.scopedRest (Ix := Unit) (Val := Elt F) (Name := ℕ) (U := UR sig nD τ) (Lvl := ℕ) spec2 c) := by
  unfold Pipeline.ΦA
  iintro ⟨Hr, Hp⟩
  isplitl [Hp]; · iexact Hp
  isplitr; · iempintro
  iexact Hr

/-! ## The three regions as segments -/

set_option backward.isDefEq.respectTransparency.types false in
/-- Region 0 between the contents `Bd1` and `Bd2`. -/
def regH0 : Pipeline.RegionSeg (pcfgs (F := F)) admH (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (En1 m ρ) c).loose
  hwaits := Pipeline.hwaits_of_owed_zero _ _ _ _ LH lvH 0 fun _ _ => rfl
  pre c := iprop(StableHlo.held (c : Thread nD τ) (Pipeline.ucRefs τ sig) (Bd1 m ρ c) ∗ RH c)
  post c := iprop(StableHlo.held (c : Thread nD τ) (Pipeline.ucRefs τ sig) (Bd2 m ρ c) ∗ RH c)
  X c := iprop(∃ r, prngReg c r)
  Y c := iprop(∃ r, prngReg c r)
  Z c := Pipeline.unscopedRest (Ix := Unit) (Name := ℕ) (U := UR sig nD τ) (Lvl := ℕ) spec0 c (En1 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (En1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (En1 m ρ c) (Ex2 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 between the contents `Bd3` and `Bd4`. -/
def regH1 : Pipeline.RegionSeg (pcfgs (F := F)) admH (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (En3 m ρ) c).loose
  hwaits := Pipeline.hwaits_of_owed_zero _ _ _ _ LH lvH 1 fun _ _ => rfl
  pre c := iprop(StableHlo.held (c : Thread nD τ) (Pipeline.ucRefs τ sig) (Bd3 m ρ c) ∗ RH c)
  post c := iprop(StableHlo.held (c : Thread nD τ) (Pipeline.ucRefs τ sig) (Bd4 m ρ c) ∗ RH c)
  X c := iprop(∃ r, prngReg c r)
  Y c := iprop(∃ r, prngReg c r)
  Z c := Pipeline.unscopedRest (Ix := Unit) (Name := ℕ) (U := UR sig nD τ) (Lvl := ℕ) spec1 c (En3 m ρ c)
  hentry c := by
    rw [Pipeline.ownSems0_none]
    have hsplit := Pipeline.arrays_of_unscopedBufs (p := 1) (pcfgs (F := F)) admH (pdatsH m ρ) launch1.win launch1.arr_whole c
      ((pdatsH m ρ 1 c).share_full fun _ => rfl) (En3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m ρ) ((pdatsH m ρ 1 c).share_full fun _ => rfl)
      (En3 m ρ c) (Ex4 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 between the contents `Bd5` and `Bd6`; its invariant carries the two running sums from point to point and
    is the class's before the first point and after the last. -/
def regH2 : Pipeline.RegionSeg (pcfgs (F := F)) admH (pdatsH m ρ) () defs₀ 𝒱H LH lvH 2 where
  win := launch2.win.to₀
  block_pos := launch2.block_pos
  stage_whole := launch2.stage_whole
  K := PEmpty
  osem k := k.elim
  ho := Pipeline.OwnSemFacts.none _
  hbody c := (body_obligation2 (En5 m ρ) c).loose
  hwaits := Pipeline.hwaits_of_owed_zero _ _ _ _ LH lvH 2 fun _ _ => rfl
  pre c := iprop(StableHlo.held (c : Thread nD τ) (Pipeline.ucRefs τ sig) (Bd5 m ρ c) ∗ RH c)
  post c := iprop(StableHlo.held (c : Thread nD τ) (Pipeline.ucRefs τ sig) (Bd6 m ρ c) ∗ RH c)
  X c := iprop(∃ r, prngReg c r)
  Y c := iprop(∃ r, prngReg c r)
  Z c := Pipeline.unscopedRest (Ix := Unit) (Name := ℕ) (U := UR sig nD τ) (Lvl := ℕ) spec2 c (En5 m ρ c)
  hentry c := by
    rw [Pipeline.ownSems0_none]
    have hsplit := Pipeline.arrays_of_unscopedBufs (p := 2) (pcfgs (F := F)) admH (pdatsH m ρ) launch2.win launch2.arr_whole c
      ((pdatsH m ρ 2 c).share_full fun _ => rfl) (En5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (PhiA_join2 c _).trans (hin2 (En5 m ρ) c)
  hout c := by
    rw [Pipeline.ownSems0_none]
    exact (hout2 (En5 m ρ) c).trans (PhiA_split2 c)
  hexit c := by
    have hjoin := Pipeline.unscopedBufs_of_arrays (p := 2) (pcfgs (F := F)) admH (Ix := Unit) (Name := ℕ) (U := UR sig nD τ) (Lvl := ℕ)
      launch2.win launch2.arr_whole c (pdatsH m ρ) ((pdatsH m ρ 2 c).share_full fun _ => rfl)
      (En5 m ρ c) (Ex6 m ρ c) ((pdatsH m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its segments, and the launch -/

abbrev segsH : List (Pipeline.Seg (pcfgs (F := F)) admH (pdatsH m ρ) () defs₀ 𝒱H LH lvH) :=
  [ .host (hsegH hostOps0 hostOps0_sub hostOps0_fresh (Bd0 m ρ)),
    .region (regH0 m ρ),
    .host (hsegH hostOps1 hostOps1_sub hostOps1_fresh (Bd2 m ρ)),
    .region (regH1 m ρ),
    .host (hsegH hostOps2 hostOps2_sub hostOps2_fresh (Bd4 m ρ)),
    .region (regH2 m ρ),
    .host (hsegH hostOps3 hostOps3_sub hostOps3_fresh (Bd6 m ρ)) ]

/-- The printed program is the run of its segments. -/
theorem main_runH (c : Dev nD) : main (F := F) c = Pipeline.Seg.run (segsH m ρ) := (main_chain c).trans (by chain_rfl)

set_option backward.isDefEq.respectTransparency.types false in
/-- Every weakly fair execution terminates, nothing faulting, and in the final memory every unscoped buffer of every
    core holds the last boundary's contents `Bd7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Bd7 m ρ c b) :=
  Pipeline.θ_run_regions_kit (pcfgs (F := F)) admH (pdatsH m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bd0 m ρ c) ∗ RH c)) (Tₙ := TnH m ρ)
    (hch := ⟨fun _ => .rfl, fun _ => .rfl, fun _ => .rfl, fun _ => .rfl, fun _ => .rfl, fun _ => .rfl, fun _ => .rfl, fun c => by
        show iprop(StableHlo.held (c : Thread nD τ) (Pipeline.ucRefs τ sig) (Bd7 m ρ c) ∗ RH c)
          ⊢ iprop(TnH m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach LH lvH fun c => ?_
      rw [show unscopedBufs c (fun b => m ((c : Thread nD τ).loc b)) = StableHlo.held (c : Thread nD τ) (Pipeline.ucRefs τ sig) (Bd0 m ρ c)
        from Pipeline.unscopedBufs_held c (Bd0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bd7 m ρ c b)
    (hfin := fun c s' => by
      iintro ⟨⟨Hh, -⟩, HSI⟩
      unfold StableHlo.held
      imodintro
      iapply (pointsTo_read_all (Pipeline.ucRefs τ sig) (fun b => (((c : Thread nD τ)).1, b)) (Bd7 m ρ c) s')
      isplitl [Hh] <;> iassumption)
    (hQ := fun s h => h)

end Cert.KernelIdeal.Hand

end
-- ==== Proof.KernelIdealFrame.Args.lean ====
/-
  The argument arrays at the end of the run. No host operation writes an argument, and a region either does not touch
  it or reads it through an input window (whose array the pipeline leaves as entered): walking back through the
  boundary valuations, an argument's contents at every boundary are its launch contents. With the launch theorem this is the frame
  claim.
-/
import proofs.«130393_j25555055411309_1_alg».proof.Proof.KernelIdealFrame.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

variable (m : (ℓ : Loc nD τ sig) → Buf (Elt F) ℓ) (ρ : Dev nD → PrngReg)

theorem Bd1_arg0 (c : Dev nD) : Bd1 m ρ c (Proc.devRef .tc main_arg0) = m ((c : Thread nD τ).loc main_arg0) :=
  (StableHlo.after_of_writes_sub (r := main_arg0) hostOps0 _ hostOps0_writes (by decide)).trans rfl
theorem Bd2_arg0 (c : Dev nD) : Bd2 m ρ c (Proc.devRef .tc main_arg0) = m ((c : Thread nD τ).loc main_arg0) :=
  (Bd2_in m ρ c 0 rfl).trans (Bd1_arg0 m ρ c)
theorem Bd3_arg0 (c : Dev nD) : Bd3 m ρ c (Proc.devRef .tc main_arg0) = m ((c : Thread nD τ).loc main_arg0) :=
  (StableHlo.after_of_writes_sub (r := main_arg0) hostOps1 _ hostOps1_writes (by decide)).trans (Bd2_arg0 m ρ c)
theorem Bd4_arg0 (c : Dev nD) : Bd4 m ρ c (Proc.devRef .tc main_arg0) = m ((c : Thread nD τ).loc main_arg0) :=
  (Bd4_in m ρ c 0 rfl).trans (Bd3_arg0 m ρ c)
theorem Bd5_arg0 (c : Dev nD) : Bd5 m ρ c (Proc.devRef .tc main_arg0) = m ((c : Thread nD τ).loc main_arg0) :=
  (StableHlo.after_of_writes_sub (r := main_arg0) hostOps2 _ hostOps2_writes (by decide)).trans (Bd4_arg0 m ρ c)
theorem Bd6_arg0 (c : Dev nD) : Bd6 m ρ c (Proc.devRef .tc main_arg0) = m ((c : Thread nD τ).loc main_arg0) :=
  (Bd6_off m ρ c main_arg0 (by decide)).trans (Bd5_arg0 m ρ c)
theorem Bd7_arg0 (c : Dev nD) : Bd7 m ρ c (Proc.devRef .tc main_arg0) = m ((c : Thread nD τ).loc main_arg0) :=
  (StableHlo.after_of_writes_sub (r := main_arg0) hostOps3 _ hostOps3_writes (by decide)).trans (Bd6_arg0 m ρ c)
theorem Bd1_arg1 (c : Dev nD) : Bd1 m ρ c (Proc.devRef .tc main_arg1) = m ((c : Thread nD τ).loc main_arg1) :=
  (StableHlo.after_of_writes_sub (r := main_arg1) hostOps0 _ hostOps0_writes (by decide)).trans rfl
theorem Bd2_arg1 (c : Dev nD) : Bd2 m ρ c (Proc.devRef .tc main_arg1) = m ((c : Thread nD τ).loc main_arg1) :=
  (Bd2_in m ρ c 1 rfl).trans (Bd1_arg1 m ρ c)
theorem Bd3_arg1 (c : Dev nD) : Bd3 m ρ c (Proc.devRef .tc main_arg1) = m ((c : Thread nD τ).loc main_arg1) :=
  (StableHlo.after_of_writes_sub (r := main_arg1) hostOps1 _ hostOps1_writes (by decide)).trans (Bd2_arg1 m ρ c)
theorem Bd4_arg1 (c : Dev nD) : Bd4 m ρ c (Proc.devRef .tc main_arg1) = m ((c : Thread nD τ).loc main_arg1) :=
  (Bd4_off m ρ c main_arg1 (by decide)).trans (Bd3_arg1 m ρ c)
theorem Bd5_arg1 (c : Dev nD) : Bd5 m ρ c (Proc.devRef .tc main_arg1) = m ((c : Thread nD τ).loc main_arg1) :=
  (StableHlo.after_of_writes_sub (r := main_arg1) hostOps2 _ hostOps2_writes (by decide)).trans (Bd4_arg1 m ρ c)
theorem Bd6_arg1 (c : Dev nD) : Bd6 m ρ c (Proc.devRef .tc main_arg1) = m ((c : Thread nD τ).loc main_arg1) :=
  (Bd6_off m ρ c main_arg1 (by decide)).trans (Bd5_arg1 m ρ c)
theorem Bd7_arg1 (c : Dev nD) : Bd7 m ρ c (Proc.devRef .tc main_arg1) = m ((c : Thread nD τ).loc main_arg1) :=
  (StableHlo.after_of_writes_sub (r := main_arg1) hostOps3 _ hostOps3_writes (by decide)).trans (Bd6_arg1 m ρ c)
theorem Bd1_arg2 (c : Dev nD) : Bd1 m ρ c (Proc.devRef .tc main_arg2) = m ((c : Thread nD τ).loc main_arg2) :=
  (StableHlo.after_of_writes_sub (r := main_arg2) hostOps0 _ hostOps0_writes (by decide)).trans rfl
theorem Bd2_arg2 (c : Dev nD) : Bd2 m ρ c (Proc.devRef .tc main_arg2) = m ((c : Thread nD τ).loc main_arg2) :=
  (Bd2_off m ρ c main_arg2 (by decide)).trans (Bd1_arg2 m ρ c)
theorem Bd3_arg2 (c : Dev nD) : Bd3 m ρ c (Proc.devRef .tc main_arg2) = m ((c : Thread nD τ).loc main_arg2) :=
  (StableHlo.after_of_writes_sub (r := main_arg2) hostOps1 _ hostOps1_writes (by decide)).trans (Bd2_arg2 m ρ c)
theorem Bd4_arg2 (c : Dev nD) : Bd4 m ρ c (Proc.devRef .tc main_arg2) = m ((c : Thread nD τ).loc main_arg2) :=
  (Bd4_off m ρ c main_arg2 (by decide)).trans (Bd3_arg2 m ρ c)
theorem Bd5_arg2 (c : Dev nD) : Bd5 m ρ c (Proc.devRef .tc main_arg2) = m ((c : Thread nD τ).loc main_arg2) :=
  (StableHlo.after_of_writes_sub (r := main_arg2) hostOps2 _ hostOps2_writes (by decide)).trans (Bd4_arg2 m ρ c)
theorem Bd6_arg2 (c : Dev nD) : Bd6 m ρ c (Proc.devRef .tc main_arg2) = m ((c : Thread nD τ).loc main_arg2) :=
  (Bd6_off m ρ c main_arg2 (by decide)).trans (Bd5_arg2 m ρ c)
theorem Bd7_arg2 (c : Dev nD) : Bd7 m ρ c (Proc.devRef .tc main_arg2) = m ((c : Thread nD τ).loc main_arg2) :=
  (StableHlo.after_of_writes_sub (r := main_arg2) hostOps3 _ hostOps3_writes (by decide)).trans (Bd6_arg2 m ρ c)
theorem Bd1_arg3 (c : Dev nD) : Bd1 m ρ c (Proc.devRef .tc main_arg3) = m ((c : Thread nD τ).loc main_arg3) :=
  (StableHlo.after_of_writes_sub (r := main_arg3) hostOps0 _ hostOps0_writes (by decide)).trans rfl
theorem Bd2_arg3 (c : Dev nD) : Bd2 m ρ c (Proc.devRef .tc main_arg3) = m ((c : Thread nD τ).loc main_arg3) :=
  (Bd2_off m ρ c main_arg3 (by decide)).trans (Bd1_arg3 m ρ c)
theorem Bd3_arg3 (c : Dev nD) : Bd3 m ρ c (Proc.devRef .tc main_arg3) = m ((c : Thread nD τ).loc main_arg3) :=
  (StableHlo.after_of_writes_sub (r := main_arg3) hostOps1 _ hostOps1_writes (by decide)).trans (Bd2_arg3 m ρ c)
theorem Bd4_arg3 (c : Dev nD) : Bd4 m ρ c (Proc.devRef .tc main_arg3) = m ((c : Thread nD τ).loc main_arg3) :=
  (Bd4_off m ρ c main_arg3 (by decide)).trans (Bd3_arg3 m ρ c)
theorem Bd5_arg3 (c : Dev nD) : Bd5 m ρ c (Proc.devRef .tc main_arg3) = m ((c : Thread nD τ).loc main_arg3) :=
  (StableHlo.after_of_writes_sub (r := main_arg3) hostOps2 _ hostOps2_writes (by decide)).trans (Bd4_arg3 m ρ c)
theorem Bd6_arg3 (c : Dev nD) : Bd6 m ρ c (Proc.devRef .tc main_arg3) = m ((c : Thread nD τ).loc main_arg3) :=
  (Bd6_in m ρ c 0 rfl).trans (Bd5_arg3 m ρ c)
theorem Bd7_arg3 (c : Dev nD) : Bd7 m ρ c (Proc.devRef .tc main_arg3) = m ((c : Thread nD τ).loc main_arg3) :=
  (StableHlo.after_of_writes_sub (r := main_arg3) hostOps3 _ hostOps3_writes (by decide)).trans (Bd6_arg3 m ρ c)
theorem Bd1_arg4 (c : Dev nD) : Bd1 m ρ c (Proc.devRef .tc main_arg4) = m ((c : Thread nD τ).loc main_arg4) :=
  (StableHlo.after_of_writes_sub (r := main_arg4) hostOps0 _ hostOps0_writes (by decide)).trans rfl
theorem Bd2_arg4 (c : Dev nD) : Bd2 m ρ c (Proc.devRef .tc main_arg4) = m ((c : Thread nD τ).loc main_arg4) :=
  (Bd2_in m ρ c 2 rfl).trans (Bd1_arg4 m ρ c)
theorem Bd3_arg4 (c : Dev nD) : Bd3 m ρ c (Proc.devRef .tc main_arg4) = m ((c : Thread nD τ).loc main_arg4) :=
  (StableHlo.after_of_writes_sub (r := main_arg4) hostOps1 _ hostOps1_writes (by decide)).trans (Bd2_arg4 m ρ c)
theorem Bd4_arg4 (c : Dev nD) : Bd4 m ρ c (Proc.devRef .tc main_arg4) = m ((c : Thread nD τ).loc main_arg4) :=
  (Bd4_off m ρ c main_arg4 (by decide)).trans (Bd3_arg4 m ρ c)
theorem Bd5_arg4 (c : Dev nD) : Bd5 m ρ c (Proc.devRef .tc main_arg4) = m ((c : Thread nD τ).loc main_arg4) :=
  (StableHlo.after_of_writes_sub (r := main_arg4) hostOps2 _ hostOps2_writes (by decide)).trans (Bd4_arg4 m ρ c)
theorem Bd6_arg4 (c : Dev nD) : Bd6 m ρ c (Proc.devRef .tc main_arg4) = m ((c : Thread nD τ).loc main_arg4) :=
  (Bd6_off m ρ c main_arg4 (by decide)).trans (Bd5_arg4 m ρ c)
theorem Bd7_arg4 (c : Dev nD) : Bd7 m ρ c (Proc.devRef .tc main_arg4) = m ((c : Thread nD τ).loc main_arg4) :=
  (StableHlo.after_of_writes_sub (r := main_arg4) hostOps3 _ hostOps3_writes (by decide)).trans (Bd6_arg4 m ρ c)
theorem Bd1_arg5 (c : Dev nD) : Bd1 m ρ c (Proc.devRef .tc main_arg5) = m ((c : Thread nD τ).loc main_arg5) :=
  (StableHlo.after_of_writes_sub (r := main_arg5) hostOps0 _ hostOps0_writes (by decide)).trans rfl
theorem Bd2_arg5 (c : Dev nD) : Bd2 m ρ c (Proc.devRef .tc main_arg5) = m ((c : Thread nD τ).loc main_arg5) :=
  (Bd2_in m ρ c 3 rfl).trans (Bd1_arg5 m ρ c)
theorem Bd3_arg5 (c : Dev nD) : Bd3 m ρ c (Proc.devRef .tc main_arg5) = m ((c : Thread nD τ).loc main_arg5) :=
  (StableHlo.after_of_writes_sub (r := main_arg5) hostOps1 _ hostOps1_writes (by decide)).trans (Bd2_arg5 m ρ c)
theorem Bd4_arg5 (c : Dev nD) : Bd4 m ρ c (Proc.devRef .tc main_arg5) = m ((c : Thread nD τ).loc main_arg5) :=
  (Bd4_off m ρ c main_arg5 (by decide)).trans (Bd3_arg5 m ρ c)
theorem Bd5_arg5 (c : Dev nD) : Bd5 m ρ c (Proc.devRef .tc main_arg5) = m ((c : Thread nD τ).loc main_arg5) :=
  (StableHlo.after_of_writes_sub (r := main_arg5) hostOps2 _ hostOps2_writes (by decide)).trans (Bd4_arg5 m ρ c)
theorem Bd6_arg5 (c : Dev nD) : Bd6 m ρ c (Proc.devRef .tc main_arg5) = m ((c : Thread nD τ).loc main_arg5) :=
  (Bd6_off m ρ c main_arg5 (by decide)).trans (Bd5_arg5 m ρ c)
theorem Bd7_arg5 (c : Dev nD) : Bd7 m ρ c (Proc.devRef .tc main_arg5) = m ((c : Thread nD τ).loc main_arg5) :=
  (StableHlo.after_of_writes_sub (r := main_arg5) hostOps3 _ hostOps3_writes (by decide)).trans (Bd6_arg5 m ρ c)
theorem Bd1_arg6 (c : Dev nD) : Bd1 m ρ c (Proc.devRef .tc main_arg6) = m ((c : Thread nD τ).loc main_arg6) :=
  (StableHlo.after_of_writes_sub (r := main_arg6) hostOps0 _ hostOps0_writes (by decide)).trans rfl
theorem Bd2_arg6 (c : Dev nD) : Bd2 m ρ c (Proc.devRef .tc main_arg6) = m ((c : Thread nD τ).loc main_arg6) :=
  (Bd2_off m ρ c main_arg6 (by decide)).trans (Bd1_arg6 m ρ c)
theorem Bd3_arg6 (c : Dev nD) : Bd3 m ρ c (Proc.devRef .tc main_arg6) = m ((c : Thread nD τ).loc main_arg6) :=
  (StableHlo.after_of_writes_sub (r := main_arg6) hostOps1 _ hostOps1_writes (by decide)).trans (Bd2_arg6 m ρ c)
theorem Bd4_arg6 (c : Dev nD) : Bd4 m ρ c (Proc.devRef .tc main_arg6) = m ((c : Thread nD τ).loc main_arg6) :=
  (Bd4_off m ρ c main_arg6 (by decide)).trans (Bd3_arg6 m ρ c)
theorem Bd5_arg6 (c : Dev nD) : Bd5 m ρ c (Proc.devRef .tc main_arg6) = m ((c : Thread nD τ).loc main_arg6) :=
  (StableHlo.after_of_writes_sub (r := main_arg6) hostOps2 _ hostOps2_writes (by decide)).trans (Bd4_arg6 m ρ c)
theorem Bd6_arg6 (c : Dev nD) : Bd6 m ρ c (Proc.devRef .tc main_arg6) = m ((c : Thread nD τ).loc main_arg6) :=
  (Bd6_off m ρ c main_arg6 (by decide)).trans (Bd5_arg6 m ρ c)
theorem Bd7_arg6 (c : Dev nD) : Bd7 m ρ c (Proc.devRef .tc main_arg6) = m ((c : Thread nD τ).loc main_arg6) :=
  (StableHlo.after_of_writes_sub (r := main_arg6) hostOps3 _ hostOps3_writes (by decide)).trans (Bd6_arg6 m ρ c)
theorem Bd1_arg7 (c : Dev nD) : Bd1 m ρ c (Proc.devRef .tc main_arg7) = m ((c : Thread nD τ).loc main_arg7) :=
  (StableHlo.after_of_writes_sub (r := main_arg7) hostOps0 _ hostOps0_writes (by decide)).trans rfl
theorem Bd2_arg7 (c : Dev nD) : Bd2 m ρ c (Proc.devRef .tc main_arg7) = m ((c : Thread nD τ).loc main_arg7) :=
  (Bd2_off m ρ c main_arg7 (by decide)).trans (Bd1_arg7 m ρ c)
theorem Bd3_arg7 (c : Dev nD) : Bd3 m ρ c (Proc.devRef .tc main_arg7) = m ((c : Thread nD τ).loc main_arg7) :=
  (StableHlo.after_of_writes_sub (r := main_arg7) hostOps1 _ hostOps1_writes (by decide)).trans (Bd2_arg7 m ρ c)
theorem Bd4_arg7 (c : Dev nD) : Bd4 m ρ c (Proc.devRef .tc main_arg7) = m ((c : Thread nD τ).loc main_arg7) :=
  (Bd4_in m ρ c 1 rfl).trans (Bd3_arg7 m ρ c)
theorem Bd5_arg7 (c : Dev nD) : Bd5 m ρ c (Proc.devRef .tc main_arg7) = m ((c : Thread nD τ).loc main_arg7) :=
  (StableHlo.after_of_writes_sub (r := main_arg7) hostOps2 _ hostOps2_writes (by decide)).trans (Bd4_arg7 m ρ c)
theorem Bd6_arg7 (c : Dev nD) : Bd6 m ρ c (Proc.devRef .tc main_arg7) = m ((c : Thread nD τ).loc main_arg7) :=
  (Bd6_off m ρ c main_arg7 (by decide)).trans (Bd5_arg7 m ρ c)
theorem Bd7_arg7 (c : Dev nD) : Bd7 m ρ c (Proc.devRef .tc main_arg7) = m ((c : Thread nD τ).loc main_arg7) :=
  (StableHlo.after_of_writes_sub (r := main_arg7) hostOps3 _ hostOps3_writes (by decide)).trans (Bd6_arg7 m ρ c)
theorem Bd1_arg8 (c : Dev nD) : Bd1 m ρ c (Proc.devRef .tc main_arg8) = m ((c : Thread nD τ).loc main_arg8) :=
  (StableHlo.after_of_writes_sub (r := main_arg8) hostOps0 _ hostOps0_writes (by decide)).trans rfl
theorem Bd2_arg8 (c : Dev nD) : Bd2 m ρ c (Proc.devRef .tc main_arg8) = m ((c : Thread nD τ).loc main_arg8) :=
  (Bd2_off m ρ c main_arg8 (by decide)).trans (Bd1_arg8 m ρ c)
theorem Bd3_arg8 (c : Dev nD) : Bd3 m ρ c (Proc.devRef .tc main_arg8) = m ((c : Thread nD τ).loc main_arg8) :=
  (StableHlo.after_of_writes_sub (r := main_arg8) hostOps1 _ hostOps1_writes (by decide)).trans (Bd2_arg8 m ρ c)
theorem Bd4_arg8 (c : Dev nD) : Bd4 m ρ c (Proc.devRef .tc main_arg8) = m ((c : Thread nD τ).loc main_arg8) :=
  (Bd4_off m ρ c main_arg8 (by decide)).trans (Bd3_arg8 m ρ c)
theorem Bd5_arg8 (c : Dev nD) : Bd5 m ρ c (Proc.devRef .tc main_arg8) = m ((c : Thread nD τ).loc main_arg8) :=
  (StableHlo.after_of_writes_sub (r := main_arg8) hostOps2 _ hostOps2_writes (by decide)).trans (Bd4_arg8 m ρ c)
theorem Bd6_arg8 (c : Dev nD) : Bd6 m ρ c (Proc.devRef .tc main_arg8) = m ((c : Thread nD τ).loc main_arg8) :=
  (Bd6_off m ρ c main_arg8 (by decide)).trans (Bd5_arg8 m ρ c)
theorem Bd7_arg8 (c : Dev nD) : Bd7 m ρ c (Proc.devRef .tc main_arg8) = m ((c : Thread nD τ).loc main_arg8) :=
  (StableHlo.after_of_writes_sub (r := main_arg8) hostOps3 _ hostOps3_writes (by decide)).trans (Bd6_arg8 m ρ c)
theorem Bd1_arg9 (c : Dev nD) : Bd1 m ρ c (Proc.devRef .tc main_arg9) = m ((c : Thread nD τ).loc main_arg9) :=
  (StableHlo.after_of_writes_sub (r := main_arg9) hostOps0 _ hostOps0_writes (by decide)).trans rfl
theorem Bd2_arg9 (c : Dev nD) : Bd2 m ρ c (Proc.devRef .tc main_arg9) = m ((c : Thread nD τ).loc main_arg9) :=
  (Bd2_off m ρ c main_arg9 (by decide)).trans (Bd1_arg9 m ρ c)
theorem Bd3_arg9 (c : Dev nD) : Bd3 m ρ c (Proc.devRef .tc main_arg9) = m ((c : Thread nD τ).loc main_arg9) :=
  (StableHlo.after_of_writes_sub (r := main_arg9) hostOps1 _ hostOps1_writes (by decide)).trans (Bd2_arg9 m ρ c)
theorem Bd4_arg9 (c : Dev nD) : Bd4 m ρ c (Proc.devRef .tc main_arg9) = m ((c : Thread nD τ).loc main_arg9) :=
  (Bd4_off m ρ c main_arg9 (by decide)).trans (Bd3_arg9 m ρ c)
theorem Bd5_arg9 (c : Dev nD) : Bd5 m ρ c (Proc.devRef .tc main_arg9) = m ((c : Thread nD τ).loc main_arg9) :=
  (StableHlo.after_of_writes_sub (r := main_arg9) hostOps2 _ hostOps2_writes (by decide)).trans (Bd4_arg9 m ρ c)
theorem Bd6_arg9 (c : Dev nD) : Bd6 m ρ c (Proc.devRef .tc main_arg9) = m ((c : Thread nD τ).loc main_arg9) :=
  (Bd6_off m ρ c main_arg9 (by decide)).trans (Bd5_arg9 m ρ c)
theorem Bd7_arg9 (c : Dev nD) : Bd7 m ρ c (Proc.devRef .tc main_arg9) = m ((c : Thread nD τ).loc main_arg9) :=
  (StableHlo.after_of_writes_sub (r := main_arg9) hostOps3 _ hostOps3_writes (by decide)).trans (Bd6_arg9 m ρ c)

/-- The frame: every weakly fair execution terminates, nothing faulting, and the ten argument arrays end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_ucH main_arg0 (by decide))).trans (Bd7_arg0 m ρ c),
    (h c _ (mem_ucH main_arg1 (by decide))).trans (Bd7_arg1 m ρ c),
    (h c _ (mem_ucH main_arg2 (by decide))).trans (Bd7_arg2 m ρ c),
    (h c _ (mem_ucH main_arg3 (by decide))).trans (Bd7_arg3 m ρ c),
    (h c _ (mem_ucH main_arg4 (by decide))).trans (Bd7_arg4 m ρ c),
    (h c _ (mem_ucH main_arg5 (by decide))).trans (Bd7_arg5 m ρ c),
    (h c _ (mem_ucH main_arg6 (by decide))).trans (Bd7_arg6 m ρ c),
    (h c _ (mem_ucH main_arg7 (by decide))).trans (Bd7_arg7 m ρ c),
    (h c _ (mem_ucH main_arg8 (by decide))).trans (Bd7_arg8 m ρ c),
    (h c _ (mem_ucH main_arg9 (by decide))).trans (Bd7_arg9 m ρ c)⟩) (run_all m ρ)

end Cert.KernelIdeal.Hand

end
-- ==== Proof.KHost.lean ====
/-
  The host operations between the kernel's three regions, read at an index over arbitrary buffer contents W:
  a reshape of a vector [n] to a row [1, n] keeps the lane; the three slices of the gate row are its blocks at columns
  n, 2048 + n and 4096 + n; the host's 1 / (1 + e^{-z}) is σ z; a format change is the identity on the extended reals.
-/
import proofs.«130393_j25555055411309_1_alg».proof.Proof.Gen.KernelIdeal.Launch
import Idealize.ShloMosaic.Lib.StableHlo.Run
import Idealize.ShloMosaic.Lib.Pipeline.Value
import Idealize.ShloMosaic.Lib.ValueIdx
import Idealize.ShloMosaic.Lib.IdealHost

noncomputable section

namespace Cert.KSide

open Cert.KernelIdeal Cert.KernelIdeal.Gen Idealize.ShloMosaic Idealize.ShloMosaic.TcCoe Idealize.ShloMosaic.StableHlo
  Idealize.ShloMosaic.ValueIdx

/-- A vector [6144] reshaped to a row [1, 6144], at column n. -/
theorem cast6144_apply (y : S6144.Idx → EReal) (n : Fin 6144) :
    shapeCast S1x6144 y shapeCasts_S6144_S1x6144 (ix2 0 n) = y (ix1 n) :=
  shapeCast_apply y shapeCasts_S6144_S1x6144 (ix2 0 n) (ix1 n) (by
    rw [Shape.rowMajor_val_one, Shape.rowMajor_val_two]
    show n.val = 0 * 6144 + n.val
    omega)

/-- A vector [2048] reshaped to a row [1, 2048], at column n. -/
theorem cast2048_apply (y : S2048.Idx → EReal) (n : Fin 2048) :
    shapeCast S1x2048 y shapeCasts_S2048_S1x2048 (ix2 0 n) = y (ix1 n) :=
  shapeCast_apply y shapeCasts_S2048_S1x2048 (ix2 0 n) (ix1 n) (by
    rw [Shape.rowMajor_val_one, Shape.rowMajor_val_two]
    show n.val = 0 * 2048 + n.val
    omega)

/-- The first block of the gate row. -/
theorem slice0_apply (y : S1x6144.Idx → EReal) (n : Fin 2048) :
    extractStridedSlice S1x2048 ![0, 0] y slices_S1x6144_S1x2048_0_0 (ix2 0 n) = y (ix2 0 (⟨n.val, by omega⟩ : Fin 6144)) :=
  extractStridedSlice_apply ![0, 0] y slices_S1x6144_S1x2048_0_0 (ix2 0 n) (ix2 0 (⟨n.val, by omega⟩ : Fin 6144)) (fun a => by
    match a with
    | ⟨0, _⟩ => rfl
    | ⟨1, _⟩ => show n.val = 0 + n.val; omega)

/-- The second block of the gate row. -/
theorem slice2048_apply (y : S1x6144.Idx → EReal) (n : Fin 2048) :
    extractStridedSlice S1x2048 ![0, 2048] y slices_S1x6144_S1x2048_0_2048 (ix2 0 n)
      = y (ix2 0 (⟨2048 + n.val, by omega⟩ : Fin 6144)) :=
  extractStridedSlice_apply ![0, 2048] y slices_S1x6144_S1x2048_0_2048 (ix2 0 n) (ix2 0 (⟨2048 + n.val, by omega⟩ : Fin 6144))
    (fun a => by
      match a with
      | ⟨0, _⟩ => rfl
      | ⟨1, _⟩ => rfl)

/-- The third block of the gate row. -/
theorem slice4096_apply (y : S1x6144.Idx → EReal) (n : Fin 2048) :
    extractStridedSlice S1x2048 ![0, 4096] y slices_S1x6144_S1x2048_0_4096 (ix2 0 n)
      = y (ix2 0 (⟨4096 + n.val, by omega⟩ : Fin 6144)) :=
  extractStridedSlice_apply ![0, 4096] y slices_S1x6144_S1x2048_0_4096 (ix2 0 n) (ix2 0 (⟨4096 + n.val, by omega⟩ : Fin 6144))
    (fun a => by
      match a with
      | ⟨0, _⟩ => rfl
      | ⟨1, _⟩ => rfl)

/-- The host's 1 / (1 + e^{-z}) over a row, at an index: σ of the element. -/
theorem sigma_apply (y : FVec Ideal S1x2048 .f32) (j : S1x2048.Idx) :
    (Host.divf (F := Ideal) (broadcastInDim S1x2048 ![] bcast_S_S1x2048 (constant S_ .f32 0x3F800000#32)) (addf (broadcastInDim S1x2048 ![] bcast_S_S1x2048 (constant S_ .f32 0x3F800000#32)) (Host.exp (Host.negf y)))) j = Ideal.logistic (y j) := by
  show FloatOps.hostDivf (F := Ideal) ((broadcastInDim S1x2048 ![] bcast_S_S1x2048 (constant S_ .f32 0x3F800000#32)) j) (FloatOps.addf ((broadcastInDim S1x2048 ![] bcast_S_S1x2048 (constant S_ .f32 0x3F800000#32)) j) (FloatOps.hostUnary .exp (FloatOps.hostNegf (y j)))) = _
  rw [broadcastInDim_apply _ bcast_S_S1x2048 (constant (F := Ideal) S_ .f32 0x3F800000#32) j ix0 (fun a => a.elim0)]
  simp only [constant_apply, Ideal.hostDivf_def, Ideal.addf_def, Ideal.hostUnary_exp_def, Ideal.hostNegf_def, Ideal.negf_def,
    Ideal.ofBits_one_f32]
  rfl

variable (W : Valuation τ sig (Elt Ideal))

/-- The bias row entering region 0. -/
theorem host0_v0 (n : Fin 6144) :
    StableHlo.after (hostOps0 (F := Ideal)) W (Proc.devRef .tc main_v0) (ix2 0 n) = (W (Proc.devRef .tc main_arg6) : S6144.Idx → EReal) (ix1 n) := by
  have h : StableHlo.after (hostOps0 (F := Ideal)) W (Proc.devRef .tc main_v0)
      = fun i => shapeCast S1x6144 (W (Proc.devRef .tc main_arg6)) shapeCasts_S6144_S1x6144 i := by
    after_results
    rfl
  rw [h]
  exact cast6144_apply _ n

/-- σ of the first gate block, entering region 1 and the third stretch. -/
theorem host1_v10 (n : Fin 2048) :
    StableHlo.after (hostOps1 (F := Ideal)) W (Proc.devRef .tc main_v10) (ix2 0 n)
      = Ideal.logistic ((W (Proc.devRef .tc main_v1) : S1x6144.Idx → EReal) (ix2 0 (⟨n.val, by omega⟩ : Fin 6144))) := by
  have h : StableHlo.after (hostOps1 (F := Ideal)) W (Proc.devRef .tc main_v10) = Host.divf (F := Ideal) (broadcastInDim S1x2048 ![] bcast_S_S1x2048 (constant S_ .f32 0x3F800000#32)) (addf (broadcastInDim S1x2048 ![] bcast_S_S1x2048 (constant S_ .f32 0x3F800000#32)) (Host.exp (Host.negf (extractStridedSlice S1x2048 ![0, 0] (W (Proc.devRef .tc main_v1) : S1x6144.Idx → EReal) slices_S1x6144_S1x2048_0_0)))) := by
    after_results_simp <;> rfl
  rw [h, sigma_apply, slice0_apply]

/-- σ of the second gate block: the output gate. -/
theorem host1_v16 (n : Fin 2048) :
    StableHlo.after (hostOps1 (F := Ideal)) W (Proc.devRef .tc main_v16) (ix2 0 n)
      = Ideal.logistic ((W (Proc.devRef .tc main_v1) : S1x6144.Idx → EReal) (ix2 0 (⟨2048 + n.val, by omega⟩ : Fin 6144))) := by
  have h : StableHlo.after (hostOps1 (F := Ideal)) W (Proc.devRef .tc main_v16) = Host.divf (F := Ideal) (broadcastInDim S1x2048 ![] bcast_S_S1x2048 (constant S_ .f32 0x3F800000#32)) (addf (broadcastInDim S1x2048 ![] bcast_S_S1x2048 (constant S_ .f32 0x3F800000#32)) (Host.exp (Host.negf (extractStridedSlice S1x2048 ![0, 2048] (W (Proc.devRef .tc main_v1) : S1x6144.Idx → EReal) slices_S1x6144_S1x2048_0_2048)))) := by
    after_results_simp <;> rfl
  rw [h, sigma_apply, slice2048_apply]

/-- tanh of the third gate block: the candidate. -/
theorem host1_v17 (n : Fin 2048) :
    StableHlo.after (hostOps1 (F := Ideal)) W (Proc.devRef .tc main_v17) (ix2 0 n)
      = Ideal.tanh ((W (Proc.devRef .tc main_v1) : S1x6144.Idx → EReal) (ix2 0 (⟨4096 + n.val, by omega⟩ : Fin 6144))) := by
  have h : StableHlo.after (hostOps1 (F := Ideal)) W (Proc.devRef .tc main_v17) = Host.tanh (F := Ideal) (φ := .f32) (extractStridedSlice S1x2048 ![0, 4096] (W (Proc.devRef .tc main_v1) : S1x6144.Idx → EReal) slices_S1x6144_S1x2048_0_4096) := by
    after_results_simp <;> rfl
  rw [h]
  show FloatOps.hostUnary (F := Ideal) (φ := .f32) .tanh ((extractStridedSlice S1x2048 ![0, 4096] (W (Proc.devRef .tc main_v1) : S1x6144.Idx → EReal) slices_S1x6144_S1x2048_0_4096) (ix2 0 n)) = _
  rw [slice4096_apply, Ideal.hostUnary_tanh_def]

/-- The attention bias row entering region 1. -/
theorem host1_v18 (n : Fin 2048) :
    StableHlo.after (hostOps1 (F := Ideal)) W (Proc.devRef .tc main_v18) (ix2 0 n) = (W (Proc.devRef .tc main_arg9) : S2048.Idx → EReal) (ix1 n) := by
  have h : StableHlo.after (hostOps1 (F := Ideal)) W (Proc.devRef .tc main_v18)
      = fun i => shapeCast S1x2048 (W (Proc.devRef .tc main_arg9) : S2048.Idx → EReal) shapeCasts_S2048_S1x2048 i := by
    after_results_simp <;> rfl
  rw [h]
  exact cast2048_apply _ n

/-- The input gate's weight: the streaming sum of weights starts from it. -/
theorem host2_v20 (n : Fin 2048) :
    StableHlo.after (hostOps2 (F := Ideal)) W (Proc.devRef .tc main_v20) (ix2 0 n) = Ideal.exp ((W (Proc.devRef .tc main_v10) : S1x2048.Idx → EReal) (ix2 0 n)) := by
  have h : StableHlo.after (hostOps2 (F := Ideal)) W (Proc.devRef .tc main_v20) = Host.exp (F := Ideal) (φ := .f32) (W (Proc.devRef .tc main_v10) : S1x2048.Idx → EReal) := by
    after_results <;> rfl
  rw [h]
  rfl

/-- The candidate times the input gate's weight: the streaming sum of products starts from it. -/
theorem host2_v21 (n : Fin 2048) :
    StableHlo.after (hostOps2 (F := Ideal)) W (Proc.devRef .tc main_v21) (ix2 0 n)
      = @HMul.hMul EReal EReal EReal _ ((W (Proc.devRef .tc main_v17) : S1x2048.Idx → EReal) (ix2 0 n)) (Ideal.exp ((W (Proc.devRef .tc main_v10) : S1x2048.Idx → EReal) (ix2 0 n))) := by
  have h : StableHlo.after (hostOps2 (F := Ideal)) W (Proc.devRef .tc main_v21)
      = mulf (F := Ideal) (φ := .f32) (W (Proc.devRef .tc main_v17) : S1x2048.Idx → EReal) (Host.exp (W (Proc.devRef .tc main_v10) : S1x2048.Idx → EReal)) := by
    after_results <;> rfl
  rw [h]
  rfl

/-- The attention weights re-typed: the same extended reals. -/
theorem host2_v22 (k n : Fin 2048) :
    StableHlo.after (hostOps2 (F := Ideal)) W (Proc.devRef .tc main_v22) (ix2 k n) = (W (Proc.devRef .tc main_arg8) : S2048x2048.Idx → EReal) (ix2 k n) := by
  have h : StableHlo.after (hostOps2 (F := Ideal)) W (Proc.devRef .tc main_v22)
      = truncf (F := Ideal) (φ := .f32) .bf16 (W (Proc.devRef .tc main_arg8) : S2048x2048.Idx → EReal) bitsLt_bf16_f32 := by
    after_results <;> rfl
  rw [h]
  rfl

/-- The cell state: the sum of products divided once by the sum of weights. -/
theorem host3_v24 (n : Fin 2048) :
    StableHlo.after (hostOps3 (F := Ideal)) W (Proc.devRef .tc main_v24) (ix2 0 n)
      = Ideal.div ((W (Proc.devRef .tc main_v23_1) : S1x2048.Idx → EReal) (ix2 0 n)) ((W (Proc.devRef .tc main_v23_0) : S1x2048.Idx → EReal) (ix2 0 n)) := by
  have h : StableHlo.after (hostOps3 (F := Ideal)) W (Proc.devRef .tc main_v24)
      = Host.divf (F := Ideal) (φ := .f32) (W (Proc.devRef .tc main_v23_1) : S1x2048.Idx → EReal) (W (Proc.devRef .tc main_v23_0) : S1x2048.Idx → EReal) := by
    after_results <;> rfl
  rw [h]
  rfl

/-- The hidden state: the output gate times tanh of the cell state. -/
theorem host3_v26 (n : Fin 2048) :
    StableHlo.after (hostOps3 (F := Ideal)) W (Proc.devRef .tc main_v26) (ix2 0 n)
      = @HMul.hMul EReal EReal EReal _ ((W (Proc.devRef .tc main_v16) : S1x2048.Idx → EReal) (ix2 0 n))
          (Ideal.tanh (Ideal.div ((W (Proc.devRef .tc main_v23_1) : S1x2048.Idx → EReal) (ix2 0 n)) ((W (Proc.devRef .tc main_v23_0) : S1x2048.Idx → EReal) (ix2 0 n)))) := by
  have h : StableHlo.after (hostOps3 (F := Ideal)) W (Proc.devRef .tc main_v26)
      = mulf (F := Ideal) (φ := .f32) (W (Proc.devRef .tc main_v16) : S1x2048.Idx → EReal) (Host.tanh (Host.divf (W (Proc.devRef .tc main_v23_1) : S1x2048.Idx → EReal) (W (Proc.devRef .tc main_v23_0) : S1x2048.Idx → EReal))) := by
    after_results <;> rfl
  rw [h]
  rfl

end Cert.KSide

end
-- ==== Proof.KPay0.lean ====
/-
  The two matrix-product tiles at an index.

  A [1,2048] × [2048,512] product accumulated into the zero row reads, at column q, the sum over the
  contracted axis k of (row at k) · (matrix at (k, q)); the format change before it is the identity over
  the extended reals, and the bias row is added at the same column.
-/
import proofs.«130393_j25555055411309_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KSide

open Cert.KernelIdeal Cert.KernelIdeal.Gen Idealize.ShloMosaic Idealize.ShloMosaic.ValueIdx

/-! ## The operand indices of the row product: output (r, c), contraction coordinate k ↦ (r, k) and (k, c) -/

theorem rowDot_lhs0 (i : S1x512.Idx) (c : dot_S1x2048_S2048x512_S1x512_1_0_0_1_n_n.contr.Idx) :
    (dot_S1x2048_S2048x512_S1x512_1_0_0_1_n_n.lhsIdx i c 0).val = (i 0).val := by
  unfold DotDims.lhsIdx
  rw [dif_neg (show ¬(0 : Fin S1x2048.rank) ∈ dot_S1x2048_S2048x512_S1x512_1_0_0_1_n_n.lhsBatch by decide), dif_pos (show (0 : Fin S1x2048.rank) ∈ dot_S1x2048_S2048x512_S1x512_1_0_0_1_n_n.lhsNonContracting by decide)]
  rfl
theorem rowDot_lhs1 (i : S1x512.Idx) (c : dot_S1x2048_S2048x512_S1x512_1_0_0_1_n_n.contr.Idx) :
    (dot_S1x2048_S2048x512_S1x512_1_0_0_1_n_n.lhsIdx i c 1).val = (c ⟨0, by decide⟩).val :=
  dot_S1x2048_S2048x512_S1x512_1_0_0_1_n_n.lhsIdx_val_of_single rfl i c
theorem rowDot_rhs0 (i : S1x512.Idx) (c : dot_S1x2048_S2048x512_S1x512_1_0_0_1_n_n.contr.Idx) :
    (dot_S1x2048_S2048x512_S1x512_1_0_0_1_n_n.rhsIdx i c 0).val = (c ⟨0, by decide⟩).val :=
  dot_S1x2048_S2048x512_S1x512_1_0_0_1_n_n.rhsIdx_val_of_single rfl i c
theorem rowDot_rhs1 (i : S1x512.Idx) (c : dot_S1x2048_S2048x512_S1x512_1_0_0_1_n_n.contr.Idx) :
    (dot_S1x2048_S2048x512_S1x512_1_0_0_1_n_n.rhsIdx i c 1).val = (i 1).val := by
  unfold DotDims.rhsIdx
  rw [dif_neg (show ¬(1 : Fin S2048x512.rank) ∈ dot_S1x2048_S2048x512_S1x512_1_0_0_1_n_n.rhsBatch by decide), dif_pos (show (1 : Fin S2048x512.rank) ∈ dot_S1x2048_S2048x512_S1x512_1_0_0_1_n_n.rhsNonContracting by decide)]
  rfl

/-- A row times a matrix into the zero row, at column q: the sum over the contracted axis. -/
theorem rowDot_apply {φ₁ φ₂ : FTy} (l : FVec Ideal S1x2048 φ₁) (r : FVec Ideal S2048x512 φ₂) (q : Fin 512) :
    FloatOps.matmul dot_S1x2048_S2048x512_S1x512_1_0_0_1_n_n none l r (constant S1x512 .f32 0x00000000#32) (ix2 0 q)
      = ∑ k : Fin 2048, l (ix2 0 k) * r (ix2 k q) := by
  rw [Ideal.matmul_constant_zero_apply,
    ← Equiv.sum_comp (contrEquiv1 dot_S1x2048_S2048x512_S1x512_1_0_0_1_n_n 2048 rfl rfl).symm]
  refine Finset.sum_congr rfl fun k _ => ?_
  have hk := contrEquiv1_symm_val dot_S1x2048_S2048x512_S1x512_1_0_0_1_n_n 2048 rfl rfl k
  have el : dot_S1x2048_S2048x512_S1x512_1_0_0_1_n_n.lhsIdx (ix2 0 q) ((contrEquiv1 dot_S1x2048_S2048x512_S1x512_1_0_0_1_n_n 2048 rfl rfl).symm k) = ix2 0 k :=
    funext fun a => Fin.ext (by
      match a with
      | ⟨0, _⟩ => exact rowDot_lhs0 _ _
      | ⟨1, _⟩ => exact (rowDot_lhs1 _ _).trans hk)
  have er : dot_S1x2048_S2048x512_S1x512_1_0_0_1_n_n.rhsIdx (ix2 0 q) ((contrEquiv1 dot_S1x2048_S2048x512_S1x512_1_0_0_1_n_n 2048 rfl rfl).symm k) = ix2 k q :=
    funext fun a => Fin.ext (by
      match a with
      | ⟨0, _⟩ => exact (rowDot_rhs0 _ _).trans hk
      | ⟨1, _⟩ => exact rowDot_rhs1 _ _)
  rw [el, er]

/-- The gates tile at column q. -/
theorem pay0_apply (x0 x1 : Vec Ideal S1x2048 .f32) (w h : Vec Ideal S2048x512 .f32) (bb : Vec Ideal S1x512 .f32)
    (q : Fin 512) :
    k0_pay1 (F := Ideal) x0 x1 w h bb (ix2 0 q)
      = (∑ k : Fin 2048, x0 (ix2 0 k) * w (ix2 k q) + ∑ k : Fin 2048, x1 (ix2 0 k) * h (ix2 k q)) + bb (ix2 0 q) := by
  unfold k0_pay1
  rw [shapeCast_self]
  refine Eq.trans (b := (FloatOps.matmul dot_S1x2048_S2048x512_S1x512_1_0_0_1_n_n none (φ₁ := .bf16) (φ₂ := .bf16) x0 w (constant (F := Ideal) S1x512 .f32 0x00000000#32) (ix2 0 q)
      + FloatOps.matmul dot_S1x2048_S2048x512_S1x512_1_0_0_1_n_n none (φ₁ := .bf16) (φ₂ := .bf16) x1 h (constant (F := Ideal) S1x512 .f32 0x00000000#32) (ix2 0 q))
      + bb (ix2 0 q)) rfl ?_
  rw [rowDot_apply, rowDot_apply]

/-- The attention input tile at column q. -/
theorem pay1_apply (x0 : Vec Ideal S1x2048 .f32) (w : Vec Ideal S2048x512 .f32) (bb : Vec Ideal S1x512 .f32)
    (q : Fin 512) :
    k1_pay1 (F := Ideal) x0 w bb (ix2 0 q) = ∑ k : Fin 2048, x0 (ix2 0 k) * w (ix2 k q) + bb (ix2 0 q) := by
  unfold k1_pay1
  rw [shapeCast_self]
  refine Eq.trans (b := FloatOps.matmul dot_S1x2048_S2048x512_S1x512_1_0_0_1_n_n none (φ₁ := .bf16) (φ₂ := .bf16) x0 w (constant (F := Ideal) S1x512 .f32 0x00000000#32) (ix2 0 q)
      + bb (ix2 0 q)) rfl ?_
  rw [rowDot_apply]

end Cert.KSide

end
-- ==== Proof.KFinal0.lean ====
/-
  The gates row as one function of the arrays: every one of the 12 points writes back its tile of 512 columns,
  the tiles cover the 6144 columns, and the tile at point t holds at column q the gate pre-activation at
  column 512·t + q.
-/
import proofs.«130393_j25555055411309_1_alg».proof.Proof.KernelIdealFrame.Region0
import proofs.«130393_j25555055411309_1_alg».proof.Proof.KPay0
import Idealize.ShloMosaic.Lib.Pipeline.Value

noncomputable section

namespace Cert.KSide

open Idealize.ShloMosaic Idealize.ShloMosaic.TcCoe Idealize.SL.Sem
open Cert.KernelIdeal Cert.KernelIdeal.Gen Cert.KernelIdeal.Hand Idealize.ShloMosaic.ValueIdx

variable (V : (c : Dev nD) → (b : Ref sig .tc) → Buf (Elt Ideal) ((c : Thread nD τ).loc b))

theorem zeroOff : (![0, 0] : Fin 2 → Nat) = fun _ => 0 := funext fun a => by fin_cases a <;> rfl

/-- The gate pre-activations of two rows, two weight matrices and a bias row, as a row [1, 6144]. -/
def gatesOf (X H : S1x2048.Idx → EReal) (Wi Wh : S2048x6144.Idx → EReal) (B : S1x6144.Idx → EReal) : S1x6144.Idx → EReal :=
  fun j =>
    (∑ k : Fin 2048, X (ix2 0 k) * Wi (ix2 k ⟨(j 1).val, (j 1).isLt⟩)
      + ∑ k : Fin 2048, H (ix2 0 k) * Wh (ix2 k ⟨(j 1).val, (j 1).isLt⟩))
      + B (ix2 0 ⟨(j 1).val, (j 1).isLt⟩)

/-- The gate pre-activations as a row [1, 6144] of the arrays the region finds. -/
def gatesRow (c : Dev nD) : S1x6144.Idx → EReal :=
  gatesOf (V c main_arg0) (V c main_arg1) (V c main_arg4) (V c main_arg5) (V c main_v0)

/-- The printed index maps, decided over the grid: the two rows stay, the tiles move with the point along the columns. -/
theorem gateTile_idx : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 2) = 0 ∧ win0_5.index t (1 : Fin 2) = t.val :=
  (by decide +kernel : ∀ t : Fin grid0.N, _)

/-! ## Each input block as entries of its array -/

/-- The row x's block at any point is the row. -/
theorem rowX_apply (c : Dev nD) (t : Fin cfg0.N) (k : Fin 2048) :
    (iblk0 V c 0 t : Vec Ideal S1x2048 .f32) (ix2 0 k) = (V c main_arg0 : S1x2048.Idx → EReal) (ix2 0 k) := by
  obtain ⟨e00, e01, -⟩ := gateTile_idx t
  unfold iblk0
  rw [View.read_apply]
  show (V c main_arg0 : S1x2048.Idx → EReal) _ = _
  congr 1
  funext a
  apply Fin.ext
  match a with
  | ⟨0, _⟩ => show win0_0.index t (0 : Fin 2) * 1 + 1 * 0 = 0; omega
  | ⟨1, _⟩ => show win0_0.index t (1 : Fin 2) * 2048 + 1 * k.val = k.val; omega

/-- The row h0's block at any point is the row. -/
theorem rowH_apply (c : Dev nD) (t : Fin cfg0.N) (k : Fin 2048) :
    (iblk0 V c 1 t : Vec Ideal S1x2048 .f32) (ix2 0 k) = (V c main_arg1 : S1x2048.Idx → EReal) (ix2 0 k) := by
  obtain ⟨-, -, e10, e11, -⟩ := gateTile_idx t
  unfold iblk0
  rw [View.read_apply]
  show (V c main_arg1 : S1x2048.Idx → EReal) _ = _
  congr 1
  funext a
  apply Fin.ext
  match a with
  | ⟨0, _⟩ => show win0_1.index t (0 : Fin 2) * 1 + 1 * 0 = 0; omega
  | ⟨1, _⟩ => show win0_1.index t (1 : Fin 2) * 2048 + 1 * k.val = k.val; omega

/-- The first weight matrix's tile at point t: columns 512·t … 512·t + 511. -/
theorem tileWi_apply (c : Dev nD) (t : Fin cfg0.N) (k : Fin 2048) (q : Fin 512) (n : Fin 6144) (hn : n.val = t.val * 512 + q.val) :
    (iblk0 V c 2 t : Vec Ideal S2048x512 .f32) (ix2 k q) = (V c main_arg4 : S2048x6144.Idx → EReal) (ix2 k n) := by
  obtain ⟨-, -, -, -, e20, e21, -⟩ := gateTile_idx t
  unfold iblk0
  rw [View.read_apply]
  show (V c main_arg4 : S2048x6144.Idx → EReal) _ = _
  congr 1
  funext a
  apply Fin.ext
  match a with
  | ⟨0, _⟩ => show win0_2.index t (0 : Fin 2) * 2048 + 1 * k.val = k.val; omega
  | ⟨1, _⟩ => show win0_2.index t (1 : Fin 2) * 512 + 1 * q.val = n.val; omega

/-- The second weight matrix's tile at point t. -/
theorem tileWh_apply (c : Dev nD) (t : Fin cfg0.N) (k : Fin 2048) (q : Fin 512) (n : Fin 6144) (hn : n.val = t.val * 512 + q.val) :
    (iblk0 V c 3 t : Vec Ideal S2048x512 .f32) (ix2 k q) = (V c main_arg5 : S2048x6144.Idx → EReal) (ix2 k n) := by
  obtain ⟨-, -, -, -, -, -, e30, e31, -⟩ := gateTile_idx t
  unfold iblk0
  rw [View.read_apply]
  show (V c main_arg5 : S2048x6144.Idx → EReal) _ = _
  congr 1
  funext a
  apply Fin.ext
  match a with
  | ⟨0, _⟩ => show win0_3.index t (0 : Fin 2) * 2048 + 1 * k.val = k.val; omega
  | ⟨1, _⟩ => show win0_3.index t (1 : Fin 2) * 512 + 1 * q.val = n.val; omega

/-- The bias row's tile at point t. -/
theorem tileB_apply (c : Dev nD) (t : Fin cfg0.N) (q : Fin 512) (n : Fin 6144) (hn : n.val = t.val * 512 + q.val) :
    (iblk0 V c 4 t : Vec Ideal S1x512 .f32) (ix2 0 q) = (V c main_v0 : S1x6144.Idx → EReal) (ix2 0 n) := by
  obtain ⟨-, -, -, -, -, -, -, -, e40, e41, -⟩ := gateTile_idx t
  unfold iblk0
  rw [View.read_apply]
  show (V c main_v0 : S1x6144.Idx → EReal) _ = _
  congr 1
  funext a
  apply Fin.ext
  match a with
  | ⟨0, _⟩ => show win0_4.index t (0 : Fin 2) * 1 + 1 * 0 = 0; omega
  | ⟨1, _⟩ => show win0_4.index t (1 : Fin 2) * 512 + 1 * q.val = n.val; omega

/-! ## What a point writes back -/

/-- The output tile at point t, at column q, is the gates row at column 512·t + q. -/
theorem gates_point (c : Dev nD) (t : Fin cfg0.N) (j : S1x512.Idx) :
    k0_pay1 (F := Ideal) (iblk0 V c 0 t) (iblk0 V c 1 t) (iblk0 V c 2 t) (iblk0 V c 3 t) (iblk0 V c 4 t) j
      = gatesRow V c (((cfg0.win 5).blk t).view.emb j) := by
  obtain ⟨q, rfl⟩ : ∃ q : Fin 512, j = ix2 0 q :=
    ⟨j 1, (eq_ix2 j).trans (congrArg (fun a => ix2 a (j 1)) (@Subsingleton.elim (Fin 1) inferInstance (j 0) 0))⟩
  obtain ⟨-, -, -, -, -, -, -, -, -, -, e50, e51⟩ := gateTile_idx t
  have hn : ((((cfg0.win 5).blk t).view.emb (ix2 0 q) : S1x6144.Idx) 1).val = t.val * 512 + q.val := by
    show win0_5.index t (1 : Fin 2) * 512 + 1 * q.val = _
    omega
  refine (pay0_apply (iblk0 V c 0 t) (iblk0 V c 1 t) (iblk0 V c 2 t) (iblk0 V c 3 t) (iblk0 V c 4 t) q).trans ?_
  unfold gatesRow gatesOf
  refine congrArg₂ (· + ·) (congrArg₂ (· + ·) ?_ ?_) ?_
  · exact Finset.sum_congr rfl fun k _ => congrArg₂ (· * ·) (rowX_apply V c t k) (tileWi_apply V c t k q _ hn)
  · exact Finset.sum_congr rfl fun k _ => congrArg₂ (· * ·) (rowH_apply V c t k) (tileWh_apply V c t k q _ hn)
  · exact tileB_apply V c t q _ hn

/-- WHAT POINT t WRITES BACK is block t of the gates row. -/
theorem gates_flushed (c : Dev nD) (t : Fin cfg0.N) :
    (dat0 (F := Ideal) V c).flushed 5 t = ((cfg0.win 5).blk t).view.read (Elt Ideal) (gatesRow V c) := by
  show (cfg0.win 5).cut (grid0.coords t) ((dat0 V c).after 5 t) = _
  rw [after0_5]
  unfold out0_5
  rw [View.canon_unit_zero zeroOff]
  simp only [View.ld_unit_zero (S := S1x2048) zeroOff, View.ld_unit_zero (S := S2048x512) zeroOff,
    View.ld_unit_zero (S := S1x512) zeroOff]
  funext j
  exact gates_point V c t j

/-! ## The tiles cover the row -/

/-- An index of the row is in point t's block iff each coordinate is in the block's range on its axis. -/
theorem gates_mem_blk (t : Fin cfg0.N) (i : S1x6144.Idx) :
    i ∈ ((cfg0.win 5).blk t).view.set ↔ ∀ a : Fin 2, win0_5.index t a * S1x512.size a ≤ (i a).val ∧ (i a).val < win0_5.index t a * S1x512.size a + S1x512.size a := by
  show i ∈ ((View.whole main_v1).slice (win0_5.rect t)).set ↔ _
  rw [View.set_slice_whole, Rect.mem_set_unit]
  exact Iff.rfl

/-- Column n of the row is in the block of point n / 512. -/
theorem gates_cover (i : S1x6144.Idx) :
    ∃ t : Fin cfg0.N, (cfg0.win 5).flush t = true ∧ i ∈ ((cfg0.win 5).blk t).view.set := by
  have hi0 : (i 0).val < 1 := (i 0).isLt
  have hi1 : (i 1).val < 6144 := (i 1).isLt
  have hN : cfg0.N = 12 := N_0
  refine ⟨⟨(i 1).val / 512, by rw [hN]; omega⟩, flush0_5 _, ?_⟩
  rw [gates_mem_blk]
  obtain ⟨-, -, -, -, -, -, -, -, -, -, e50, e51⟩ := gateTile_idx ⟨(i 1).val / 512, by rw [hN]; omega⟩
  intro a
  match a with
  | ⟨0, _⟩ => show win0_5.index _ (0 : Fin 2) * 1 ≤ (i 0).val ∧ (i 0).val < win0_5.index _ (0 : Fin 2) * 1 + 1; omega
  | ⟨1, _⟩ =>
    show win0_5.index _ (1 : Fin 2) * 512 ≤ (i 1).val ∧ (i 1).val < win0_5.index _ (1 : Fin 2) * 512 + 512
    rw [e51]
    show (i 1).val / 512 * 512 ≤ (i 1).val ∧ (i 1).val < (i 1).val / 512 * 512 + 512
    omega

/-- THE ARRAY after the region: the gates row. -/
theorem final0 (c : Dev nD) : (dat0 (F := Ideal) V c).arrAt 5 cfg0.N = gatesRow V c :=
  (dat0 (F := Ideal) V c).arrAt_eq_of_cover 5 (gatesRow V c) (fun t _ => gates_flushed V c t) gates_cover

end Cert.KSide

end
-- ==== Proof.KFinal1.lean ====
/-
  The attention input row as one function of the arrays: every one of the 4 points writes back its tile of
  512 columns, the tiles cover the 2048 columns, and the tile at point t holds at column q the row's entry at
  column 512·t + q.
-/
import proofs.«130393_j25555055411309_1_alg».proof.Proof.KernelIdealFrame.Region1
import proofs.«130393_j25555055411309_1_alg».proof.Proof.KPay0
import Idealize.ShloMosaic.Lib.Pipeline.Value

noncomputable section

namespace Cert.KSide

open Idealize.ShloMosaic Idealize.ShloMosaic.TcCoe Idealize.SL.Sem
open Cert.KernelIdeal Cert.KernelIdeal.Gen Cert.KernelIdeal.Hand Idealize.ShloMosaic.ValueIdx

variable (V : (c : Dev nD) → (b : Ref sig .tc) → Buf (Elt Ideal) ((c : Thread nD τ).loc b))

theorem zeroOff1 : (![0, 0] : Fin 2 → Nat) = fun _ => 0 := funext fun a => by fin_cases a <;> rfl

/-- A row times a square matrix plus a bias row, as a row [1, 2048]. -/
def awiOf (X : S1x2048.Idx → EReal) (W : S2048x2048.Idx → EReal) (B : S1x2048.Idx → EReal) : S1x2048.Idx → EReal :=
  fun j =>
    ∑ k : Fin 2048, X (ix2 0 k) * W (ix2 k ⟨(j 1).val, (j 1).isLt⟩) + B (ix2 0 ⟨(j 1).val, (j 1).isLt⟩)

/-- The input's share of the attention pre-activation, as a row [1, 2048] of the arrays the region finds. -/
def awiRow (c : Dev nD) : S1x2048.Idx → EReal :=
  awiOf (V c main_arg0) (V c main_arg7) (V c main_v18)

/-- The printed index maps, decided over the grid: the row stays, the tiles move with the point along the columns. -/
theorem awiTile_idx : ∀ t : Fin cfg1.N,
    win1_0.index t (0 : Fin 2) = 0 ∧ win1_0.index t (1 : Fin 2) = 0
    ∧ win1_1.index t (0 : Fin 2) = 0 ∧ win1_1.index t (1 : Fin 2) = t.val
    ∧ win1_2.index t (0 : Fin 2) = 0 ∧ win1_2.index t (1 : Fin 2) = t.val
    ∧ win1_3.index t (0 : Fin 2) = 0 ∧ win1_3.index t (1 : Fin 2) = t.val :=
  (by decide +kernel : ∀ t : Fin grid1.N, _)

/-! ## Each input block as entries of its array -/

/-- The row x's block at any point is the row. -/
theorem awiX_apply (c : Dev nD) (t : Fin cfg1.N) (k : Fin 2048) :
    (iblk1 V c 0 t : Vec Ideal S1x2048 .f32) (ix2 0 k) = (V c main_arg0 : S1x2048.Idx → EReal) (ix2 0 k) := by
  obtain ⟨e00, e01, -⟩ := awiTile_idx t
  unfold iblk1
  rw [View.read_apply]
  show (V c main_arg0 : S1x2048.Idx → EReal) _ = _
  congr 1
  funext a
  apply Fin.ext
  match a with
  | ⟨0, _⟩ => show win1_0.index t (0 : Fin 2) * 1 + 1 * 0 = 0; omega
  | ⟨1, _⟩ => show win1_0.index t (1 : Fin 2) * 2048 + 1 * k.val = k.val; omega

/-- The matrix's tile at point t: columns 512·t … 512·t + 511. -/
theorem awiW_apply (c : Dev nD) (t : Fin cfg1.N) (k : Fin 2048) (q : Fin 512) (n : Fin 2048) (hn : n.val = t.val * 512 + q.val) :
    (iblk1 V c 1 t : Vec Ideal S2048x512 .f32) (ix2 k q) = (V c main_arg7 : S2048x2048.Idx → EReal) (ix2 k n) := by
  obtain ⟨-, -, e10, e11, -⟩ := awiTile_idx t
  unfold iblk1
  rw [View.read_apply]
  show (V c main_arg7 : S2048x2048.Idx → EReal) _ = _
  congr 1
  funext a
  apply Fin.ext
  match a with
  | ⟨0, _⟩ => show win1_1.index t (0 : Fin 2) * 2048 + 1 * k.val = k.val; omega
  | ⟨1, _⟩ => show win1_1.index t (1 : Fin 2) * 512 + 1 * q.val = n.val; omega

/-- The bias row's tile at point t. -/
theorem awiB_apply (c : Dev nD) (t : Fin cfg1.N) (q : Fin 512) (n : Fin 2048) (hn : n.val = t.val * 512 + q.val) :
    (iblk1 V c 2 t : Vec Ideal S1x512 .f32) (ix2 0 q) = (V c main_v18 : S1x2048.Idx → EReal) (ix2 0 n) := by
  obtain ⟨-, -, -, -, e20, e21, -⟩ := awiTile_idx t
  unfold iblk1
  rw [View.read_apply]
  show (V c main_v18 : S1x2048.Idx → EReal) _ = _
  congr 1
  funext a
  apply Fin.ext
  match a with
  | ⟨0, _⟩ => show win1_2.index t (0 : Fin 2) * 1 + 1 * 0 = 0; omega
  | ⟨1, _⟩ => show win1_2.index t (1 : Fin 2) * 512 + 1 * q.val = n.val; omega

/-! ## What a point writes back -/

/-- The output tile at point t, at column q, is the row at column 512·t + q. -/
theorem awi_point (c : Dev nD) (t : Fin cfg1.N) (j : S1x512.Idx) :
    k1_pay1 (F := Ideal) (iblk1 V c 0 t) (iblk1 V c 1 t) (iblk1 V c 2 t) j
      = awiRow V c (((cfg1.win 3).blk t).view.emb j) := by
  obtain ⟨q, rfl⟩ : ∃ q : Fin 512, j = ix2 0 q :=
    ⟨j 1, (eq_ix2 j).trans (congrArg (fun a => ix2 a (j 1)) (@Subsingleton.elim (Fin 1) inferInstance (j 0) 0))⟩
  obtain ⟨-, -, -, -, -, -, e30, e31⟩ := awiTile_idx t
  have hn : ((((cfg1.win 3).blk t).view.emb (ix2 0 q) : S1x2048.Idx) 1).val = t.val * 512 + q.val := by
    show win1_3.index t (1 : Fin 2) * 512 + 1 * q.val = _
    omega
  refine (pay1_apply (iblk1 V c 0 t) (iblk1 V c 1 t) (iblk1 V c 2 t) q).trans ?_
  unfold awiRow awiOf
  refine congrArg₂ (· + ·) ?_ ?_
  · exact Finset.sum_congr rfl fun k _ => congrArg₂ (· * ·) (awiX_apply V c t k) (awiW_apply V c t k q _ hn)
  · exact awiB_apply V c t q _ hn

/-- WHAT POINT t WRITES BACK is block t of the row. -/
theorem awi_flushed (c : Dev nD) (t : Fin cfg1.N) :
    (dat1 (F := Ideal) V c).flushed 3 t = ((cfg1.win 3).blk t).view.read (Elt Ideal) (awiRow V c) := by
  show (cfg1.win 3).cut (grid1.coords t) ((dat1 V c).after 3 t) = _
  rw [after1_3]
  unfold out1_3
  rw [View.canon_unit_zero zeroOff1]
  simp only [View.ld_unit_zero (S := S1x2048) zeroOff1, View.ld_unit_zero (S := S2048x512) zeroOff1,
    View.ld_unit_zero (S := S1x512) zeroOff1]
  funext j
  exact awi_point V c t j

/-! ## The tiles cover the row -/

/-- An index of the row is in point t's block iff each coordinate is in the block's range on its axis. -/
theorem awi_mem_blk (t : Fin cfg1.N) (i : S1x2048.Idx) :
    i ∈ ((cfg1.win 3).blk t).view.set ↔ ∀ a : Fin 2, win1_3.index t a * S1x512.size a ≤ (i a).val ∧ (i a).val < win1_3.index t a * S1x512.size a + S1x512.size a := by
  show i ∈ ((View.whole main_v19).slice (win1_3.rect t)).set ↔ _
  rw [View.set_slice_whole, Rect.mem_set_unit]
  exact Iff.rfl

/-- Column n of the row is in the block of point n / 512. -/
theorem awi_cover (i : S1x2048.Idx) :
    ∃ t : Fin cfg1.N, (cfg1.win 3).flush t = true ∧ i ∈ ((cfg1.win 3).blk t).view.set := by
  have hi0 : (i 0).val < 1 := (i 0).isLt
  have hi1 : (i 1).val < 2048 := (i 1).isLt
  have hN : cfg1.N = 4 := N_1
  refine ⟨⟨(i 1).val / 512, by rw [hN]; omega⟩, flush1_3 _, ?_⟩
  rw [awi_mem_blk]
  obtain ⟨-, -, -, -, -, -, e30, e31⟩ := awiTile_idx ⟨(i 1).val / 512, by rw [hN]; omega⟩
  intro a
  match a with
  | ⟨0, _⟩ => show win1_3.index _ (0 : Fin 2) * 1 ≤ (i 0).val ∧ (i 0).val < win1_3.index _ (0 : Fin 2) * 1 + 1; omega
  | ⟨1, _⟩ =>
    show win1_3.index _ (1 : Fin 2) * 512 ≤ (i 1).val ∧ (i 1).val < win1_3.index _ (1 : Fin 2) * 512 + 512
    rw [e31]
    show (i 1).val / 512 * 512 ≤ (i 1).val ∧ (i 1).val < (i 1).val / 512 * 512 + 512
    omega

/-- THE ARRAY after the region: the attention input row. -/
theorem final1 (c : Dev nD) : (dat1 (F := Ideal) V c).arrAt 3 cfg1.N = awiRow V c :=
  (dat1 (F := Ideal) V c).arrAt_eq_of_cover 3 (awiRow V c) (fun t _ => awi_flushed V c t) awi_cover

end Cert.KSide

end
-- ==== Proof.KPay2.lean ====
/-
  The streaming pass's arithmetic at an index.

  For one tile of 512 rows: the weight of row r at lane n is exp (σ (Σ_k tile[r,k] · M[k,n] + a[0,n])) — a
  [512,2048] × [2048,2048] product into the zero tile, the row a broadcast over the tile's rows, then the
  logistic and the exponential elementwise. The two running rows add, at lane n, the sum over the tile's rows
  of the weights, and of the weights times the tile. A shape cast to the same shape is the identity.
-/
import proofs.«130393_j25555055411309_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KSide

open Cert.KernelIdeal Cert.KernelIdeal.Gen Idealize.ShloMosaic Idealize.ShloMosaic.ValueIdx

/-! ## The two rows copied at the first step -/

theorem pay2_1 (v : Vec Ideal S1x2048 .f32) : k2_pay1 (F := Ideal) v = v := by
  unfold k2_pay1
  exact (shapeCast_self _ _).trans (shapeCast_self _ _)

theorem pay2_2 (v : Vec Ideal S1x2048 .f32) : k2_pay2 (F := Ideal) v = v := by
  unfold k2_pay2
  exact (shapeCast_self _ _).trans (shapeCast_self _ _)

/-! ## The operand indices of the tile product: output (r, c), contraction coordinate k ↦ (r, k) and (k, c) -/

theorem tileDot_lhs0 (i : S512x2048.Idx) (c : dot_S512x2048_S2048x2048_S512x2048_1_0_0_1_n_n.contr.Idx) :
    (dot_S512x2048_S2048x2048_S512x2048_1_0_0_1_n_n.lhsIdx i c 0).val = (i 0).val := by
  unfold DotDims.lhsIdx
  rw [dif_neg (show ¬(0 : Fin S512x2048.rank) ∈ dot_S512x2048_S2048x2048_S512x2048_1_0_0_1_n_n.lhsBatch by decide), dif_pos (show (0 : Fin S512x2048.rank) ∈ dot_S512x2048_S2048x2048_S512x2048_1_0_0_1_n_n.lhsNonContracting by decide)]
  rfl
theorem tileDot_lhs1 (i : S512x2048.Idx) (c : dot_S512x2048_S2048x2048_S512x2048_1_0_0_1_n_n.contr.Idx) :
    (dot_S512x2048_S2048x2048_S512x2048_1_0_0_1_n_n.lhsIdx i c 1).val = (c ⟨0, by decide⟩).val :=
  dot_S512x2048_S2048x2048_S512x2048_1_0_0_1_n_n.lhsIdx_val_of_single rfl i c
theorem tileDot_rhs0 (i : S512x2048.Idx) (c : dot_S512x2048_S2048x2048_S512x2048_1_0_0_1_n_n.contr.Idx) :
    (dot_S512x2048_S2048x2048_S512x2048_1_0_0_1_n_n.rhsIdx i c 0).val = (c ⟨0, by decide⟩).val :=
  dot_S512x2048_S2048x2048_S512x2048_1_0_0_1_n_n.rhsIdx_val_of_single rfl i c
theorem tileDot_rhs1 (i : S512x2048.Idx) (c : dot_S512x2048_S2048x2048_S512x2048_1_0_0_1_n_n.contr.Idx) :
    (dot_S512x2048_S2048x2048_S512x2048_1_0_0_1_n_n.rhsIdx i c 1).val = (i 1).val := by
  unfold DotDims.rhsIdx
  rw [dif_neg (show ¬(1 : Fin S2048x2048.rank) ∈ dot_S512x2048_S2048x2048_S512x2048_1_0_0_1_n_n.rhsBatch by decide), dif_pos (show (1 : Fin S2048x2048.rank) ∈ dot_S512x2048_S2048x2048_S512x2048_1_0_0_1_n_n.rhsNonContracting by decide)]
  rfl

/-- A tile times a square matrix into the zero tile, at (r, n): the sum over the contracted axis. -/
theorem tileDot_apply {φ₁ φ₂ : FTy} (l : FVec Ideal S512x2048 φ₁) (m : FVec Ideal S2048x2048 φ₂) (r : Fin 512) (n : Fin 2048) :
    FloatOps.matmul dot_S512x2048_S2048x2048_S512x2048_1_0_0_1_n_n none l m (constant S512x2048 .f32 0x00000000#32) (ix2 r n)
      = ∑ k : Fin 2048, l (ix2 r k) * m (ix2 k n) := by
  rw [Ideal.matmul_constant_zero_apply,
    ← Equiv.sum_comp (contrEquiv1 dot_S512x2048_S2048x2048_S512x2048_1_0_0_1_n_n 2048 rfl rfl).symm]
  refine Finset.sum_congr rfl fun k _ => ?_
  have hk := contrEquiv1_symm_val dot_S512x2048_S2048x2048_S512x2048_1_0_0_1_n_n 2048 rfl rfl k
  have el : dot_S512x2048_S2048x2048_S512x2048_1_0_0_1_n_n.lhsIdx (ix2 r n) ((contrEquiv1 dot_S512x2048_S2048x2048_S512x2048_1_0_0_1_n_n 2048 rfl rfl).symm k) = ix2 r k :=
    funext fun a => Fin.ext (by
      match a with
      | ⟨0, _⟩ => exact tileDot_lhs0 _ _
      | ⟨1, _⟩ => exact (tileDot_lhs1 _ _).trans hk)
  have er : dot_S512x2048_S2048x2048_S512x2048_1_0_0_1_n_n.rhsIdx (ix2 r n) ((contrEquiv1 dot_S512x2048_S2048x2048_S512x2048_1_0_0_1_n_n 2048 rfl rfl).symm k) = ix2 k n :=
    funext fun a => Fin.ext (by
      match a with
      | ⟨0, _⟩ => exact (tileDot_rhs0 _ _).trans hk
      | ⟨1, _⟩ => exact tileDot_rhs1 _ _)
  rw [el, er]

/-- The weight of the tile's row r at lane n. -/
theorem pay2_3_apply (cb : Vec Ideal S512x2048 .f32) (aw : Vec Ideal S2048x2048 .bf16) (a : Vec Ideal S1x2048 .f32)
    (r : Fin 512) (n : Fin 2048) :
    k2_pay3 (F := Ideal) cb aw a (ix2 r n)
      = Ideal.exp (Ideal.logistic (∑ k : Fin 2048, cb (ix2 r k) * aw (ix2 k n) + a (ix2 0 n))) := by
  unfold k2_pay3
  rw [shapeCast_self, shapeCast_self]
  refine Eq.trans (b := Ideal.exp (Ideal.logistic
    (FloatOps.matmul dot_S512x2048_S2048x2048_S512x2048_1_0_0_1_n_n none (φ₁ := .bf16) (φ₂ := .bf16) cb aw (constant (F := Ideal) S512x2048 .f32 0x00000000#32) (ix2 r n)
      + broadcastTo S512x2048 a broadcasts_S1x2048_S512x2048 (ix2 r n)))) rfl ?_
  rw [tileDot_apply, broadcastTo_1b_ab_apply]

/-! ## The sum over the tile's rows -/

/-- The index put back under the reduced axis: row r over lane n is (r, n). -/
theorem lift_rows (n : Fin 2048) (r : Fin 512) : reduces_S512x2048_S2048.lift (ix1 n) r = ix2 r n := by
  funext a
  refine Fin.ext ?_
  match a with
  | ⟨0, _⟩ => rfl
  | ⟨1, _⟩ => rfl

/-- The add-reduction over the rows, at lane n: the sum over the 512 rows. -/
theorem laneSum_apply (src : FVec Ideal S512x2048 .f32) (hφ : FKind.Formats .f32)
    (hacc : (0x00000000#32 : BitVec 32) = FKind.add.neutral .f32 hφ) (n : Fin 2048) :
    multiReduction (F := Ideal) .add [0] S2048 src 0x00000000#32 reduces_S512x2048_S2048 hφ hacc (ix1 n)
      = ∑ r : Fin 512, src (ix2 r n) := by
  refine (Ideal.multiReduction_add_single src _ reduces_S512x2048_S2048 hφ hacc (ix1 n)).trans ?_
  exact Finset.sum_congr rfl fun r _ => congrArg src (lift_rows n r)

/-- The running sum of the weights after this tile, at lane n. -/
theorem pay2_4_apply (cb : Vec Ideal S512x2048 .f32) (aw : Vec Ideal S2048x2048 .bf16) (a : Vec Ideal S1x2048 .f32)
    (acc : Vec Ideal S1x2048 .f32) (n : Fin 2048) :
    k2_pay4 (F := Ideal) cb aw a acc (ix2 0 n)
      = acc (ix2 0 n) + ∑ r : Fin 512, k2_pay3 (F := Ideal) cb aw a (ix2 r n) := by
  unfold k2_pay4
  rw [shapeCast_self]
  refine Eq.trans (b := acc (ix2 0 n) + shapeCast S1x2048
    (multiReduction (F := Ideal) .add [0] S2048 (k2_pay3 (F := Ideal) cb aw a) 0x00000000#32 reduces_S512x2048_S2048 (.inl rfl) rfl)
    shapeCasts_S2048_S1x2048 (ix2 0 n)) rfl ?_
  exact congrArg (acc (ix2 0 n) + ·) ((shapeCast_a_1a_apply _ _ _ _).trans (laneSum_apply _ _ _ n))

/-- The running sum of the weighted rows after this tile, at lane n. -/
theorem pay2_5_apply (cb : Vec Ideal S512x2048 .f32) (aw : Vec Ideal S2048x2048 .bf16) (a : Vec Ideal S1x2048 .f32)
    (acc : Vec Ideal S1x2048 .f32) (n : Fin 2048) :
    k2_pay5 (F := Ideal) cb aw a acc (ix2 0 n)
      = acc (ix2 0 n) + ∑ r : Fin 512, k2_pay3 (F := Ideal) cb aw a (ix2 r n) * cb (ix2 r n) := by
  unfold k2_pay5
  rw [shapeCast_self]
  refine Eq.trans (b := acc (ix2 0 n) + shapeCast S1x2048
    (multiReduction (F := Ideal) .add [0] S2048 (mulf (k2_pay3 (F := Ideal) cb aw a) cb) 0x00000000#32 reduces_S512x2048_S2048 (.inl rfl) rfl)
    shapeCasts_S2048_S1x2048 (ix2 0 n)) rfl ?_
  exact congrArg (acc (ix2 0 n) + ·) ((shapeCast_a_1a_apply _ _ _ _).trans (laneSum_apply _ _ _ n))

end Cert.KSide

end
-- ==== Proof.LibTiles.lean ====
/-
  Sums over an index set cut into equal tiles.
-/
import Mathlib.Algebra.BigOperators.Fin
import Mathlib.Logic.Equiv.Fin.Basic

namespace Cert.LibTiles

/-- Entry `q` of tile `k`, among `K` tiles of `T` entries each, counted from the start: `k · T + q`. -/
def tileIdx {K T : Nat} (k : Fin K) (q : Fin T) : Fin (K * T) :=
  ⟨k.val * T + q.val, by
    have h1 : k.val * T + T ≤ K * T := by
      have := Nat.mul_le_mul_right T (Nat.succ_le_of_lt k.isLt)
      rwa [Nat.succ_mul] at this
    have := q.isLt
    omega⟩

/-- A sum over `K · T` entries is the sum over the tiles of the sums inside each tile. -/
theorem sum_tiles {M : Type*} [AddCommMonoid M] {K T : Nat} (f : Fin (K * T) → M) :
    ∑ k : Fin K, ∑ q : Fin T, f (tileIdx k q) = ∑ n : Fin (K * T), f n := by
  rw [← Equiv.sum_comp finProdFinEquiv f, Fintype.sum_prod_type]
  refine Finset.sum_congr rfl fun k _ => Finset.sum_congr rfl fun q _ => congrArg f (Fin.ext ?_)
  show k.val * T + q.val = q.val + T * k.val
  rw [Nat.add_comm, Nat.mul_comm]

/-- The same for 262144 entries cut into 8 tiles of 32768. -/
theorem sum_tiles_grid {M : Type*} [AddCommMonoid M] (f : Fin 262144 → M) :
    ∑ k : Fin 8, ∑ q : Fin 32768, f ⟨k.val * 32768 + q.val, by have := k.isLt; have := q.isLt; omega⟩
      = ∑ n : Fin 262144, f n := by
  have h : 8 * 32768 = 262144 := by decide
  rw [← Equiv.sum_comp (finCongr h) f, ← sum_tiles (K := 8) (T := 32768) fun n => f (finCongr h n)]
  exact Finset.sum_congr rfl fun k _ => Finset.sum_congr rfl fun q _ => congrArg f (Fin.ext rfl)

end Cert.LibTiles
-- ==== Proof.KAlg.lean ====
/-
  The streaming accumulation as one sum.

  A running value started from a₀ plus the first tile's sum, to which each later step adds its tile's sum,
  is after the last step a₀ plus the sum over every row: addition on the extended reals is a commutative
  monoid, so this is regrouping only.
-/
import proofs.«130393_j25555055411309_1_alg».proof.Proof.LibTiles
import Mathlib.Data.EReal.Basic

namespace Cert.KSide

/-- A sum over 16384 rows is the sum over 32 tiles of the sums over each tile's 512 rows. -/
theorem sum_tiles_rows {M : Type*} [AddCommMonoid M] (f : Fin 16384 → M) :
    ∑ k : Fin 32, ∑ q : Fin 512, f ⟨k.val * 512 + q.val, by have := k.isLt; have := q.isLt; omega⟩
      = ∑ n : Fin 16384, f n := by
  have h : 32 * 512 = 16384 := by decide
  rw [← Equiv.sum_comp (finCongr h) f, ← Cert.LibTiles.sum_tiles (K := 32) (T := 512) fun n => f (finCongr h n)]
  exact Finset.sum_congr rfl fun k _ => Finset.sum_congr rfl fun q _ => congrArg f (Fin.ext rfl)

/-- Thirty-two steps, each adding one tile of 512 rows, add up every row. -/
theorem acc_tiles (f : Fin 16384 → EReal) (a0 : EReal) (acc : ℕ → EReal)
    (h0 : acc 0 = a0 + ∑ r : Fin 512, f ⟨0 * 512 + r.val, by omega⟩)
    (hs : ∀ t : ℕ, (ht : t + 1 < 32) → acc (t + 1) = acc t + ∑ r : Fin 512, f ⟨(t + 1) * 512 + r.val, by omega⟩) :
    acc 31 = a0 + ∑ c : Fin 16384, f c := by
  -- f continued by zero past the last row, so that a tile's entry needs no bound
  let g : ℕ → EReal := fun n => if h : n < 16384 then f ⟨n, h⟩ else 0
  have hg : ∀ (n : ℕ) (h : n < 16384), f ⟨n, h⟩ = g n := fun n h => by simp only [g, dif_pos h]
  -- after step t the running value is a₀ plus the first t + 1 tiles
  have key : ∀ t : ℕ, t < 32 →
      acc t = a0 + ∑ s ∈ Finset.range (t + 1), ∑ r : Fin 512, g (s * 512 + r.val) := by
    intro t
    induction t with
    | zero =>
      intro _
      rw [h0, Finset.sum_range_one]
      exact congrArg (a0 + ·) (Finset.sum_congr rfl fun r _ => hg _ _)
    | succ t ih =>
      intro ht
      rw [hs t ht, ih (by omega), Finset.sum_range_succ _ (t + 1), add_assoc]
      exact congrArg (fun z => a0 + (_ + z)) (Finset.sum_congr rfl fun r _ => hg _ _)
  have h31 := key 31 (by omega)
  rw [show (31 : ℕ) + 1 = 32 from rfl, Finset.sum_range] at h31
  rw [h31, ← sum_tiles_rows f]
  exact congrArg (a0 + ·) (Finset.sum_congr rfl fun k _ => Finset.sum_congr rfl fun r _ => (hg _ _).symm)

end Cert.KSide
-- ==== Proof.KFinal2.lean ====
/-
  The two streamed sums as functions of the arrays. The output rows are written back once, whole, after the
  last of the 32 points; what is written is the two running rows, which started from the rows E₀ and G₀ and
  at point t added, lane by lane, the sum over the 512 rows of tile t of the weights, and of the weights times
  the tile. Thirty-two tiles of 512 rows are the 16384 rows, so the rows end at
      E₀[n] + Σ_c w(c, n)        and        G₀[n] + Σ_c w(c, n) · C[c, n],
  with w(c, n) = exp (σ (Σ_k C[c, k] · M[k, n] + a[n])).
-/
import proofs.«130393_j25555055411309_1_alg».proof.Proof.KernelIdealFrame.Region2
import proofs.«130393_j25555055411309_1_alg».proof.Proof.KPay2
import proofs.«130393_j25555055411309_1_alg».proof.Proof.KAlg
import Idealize.ShloMosaic.Lib.Pipeline.Value

noncomputable section

namespace Cert.KSide

open Idealize.ShloMosaic Idealize.ShloMosaic.TcCoe Idealize.SL.Sem
open Cert.KernelIdeal Cert.KernelIdeal.Gen Cert.KernelIdeal.Hand Idealize.ShloMosaic.ValueIdx

variable (V : (c : Dev nD) → (b : Ref sig .tc) → Buf (Elt Ideal) ((c : Thread nD τ).loc b))

/-- The weight of row c at lane n. -/
def expAOf (C : S16384x2048.Idx → EReal) (M : S2048x2048.Idx → EReal) (A : S1x2048.Idx → EReal)
    (cc : Fin 16384) (n : Fin 2048) : EReal :=
  Ideal.exp (Ideal.logistic (∑ k : Fin 2048, C (ix2 cc k) * M (ix2 k n) + A (ix2 0 n)))

/-- The sum of the weights over every row, from E₀, at lane n. -/
def sumELane (C : S16384x2048.Idx → EReal) (M : S2048x2048.Idx → EReal) (A E0 : S1x2048.Idx → EReal) (n : Fin 2048) : EReal :=
  E0 (ix2 0 n) + ∑ cc : Fin 16384, expAOf C M A cc n

/-- The sum of the weighted rows, from G₀, at lane n. -/
def sumECLane (C : S16384x2048.Idx → EReal) (M : S2048x2048.Idx → EReal) (A G0 : S1x2048.Idx → EReal) (n : Fin 2048) : EReal :=
  G0 (ix2 0 n) + ∑ cc : Fin 16384, expAOf C M A cc n * C (ix2 cc n)

/-- The two as rows [1, 2048]. -/
def sumEOf (C : S16384x2048.Idx → EReal) (M : S2048x2048.Idx → EReal) (A E0 : S1x2048.Idx → EReal) : S1x2048.Idx → EReal :=
  fun j => sumELane C M A E0 ⟨(j 1).val, (j 1).isLt⟩
def sumECOf (C : S16384x2048.Idx → EReal) (M : S2048x2048.Idx → EReal) (A G0 : S1x2048.Idx → EReal) : S1x2048.Idx → EReal :=
  fun j => sumECLane C M A G0 ⟨(j 1).val, (j 1).isLt⟩

/-- The two rows of the arrays the region finds. -/
def sumE (c : Dev nD) : S1x2048.Idx → EReal :=
  sumEOf (V c main_arg3) (V c main_v22) (V c main_v19) (V c main_v20)
def sumEC (c : Dev nD) : S1x2048.Idx → EReal :=
  sumECOf (V c main_arg3) (V c main_v22) (V c main_v19) (V c main_v21)

/-- The printed index maps, decided over the grid: the row tile moves with the point down the rows, everything
    else stays. -/
theorem attn_idx : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

/-! ## Each input block as entries of its array -/

/-- The row tile at point t: rows 512·t … 512·t + 511. -/
theorem tileC_apply (c : Dev nD) (t : Fin cfg2.N) (r : Fin 512) (k : Fin 2048) (cc : Fin 16384) (hcc : cc.val = t.val * 512 + r.val) :
    (iblk2 V c 0 t : Vec Ideal S512x2048 .f32) (ix2 r k) = (V c main_arg3 : S16384x2048.Idx → EReal) (ix2 cc k) := by
  obtain ⟨e00, e01, -⟩ := attn_idx t
  unfold iblk2
  rw [View.read_apply]
  show (V c main_arg3 : S16384x2048.Idx → EReal) _ = _
  congr 1
  funext a
  apply Fin.ext
  match a with
  | ⟨0, _⟩ => show win2_0.index t (0 : Fin 2) * 512 + 1 * r.val = cc.val; omega
  | ⟨1, _⟩ => show win2_0.index t (1 : Fin 2) * 2048 + 1 * k.val = k.val; omega

/-- The square matrix's block at any point is the matrix. -/
theorem sqM_apply (c : Dev nD) (t : Fin cfg2.N) (k n : Fin 2048) :
    (iblk2 V c 1 t : Vec Ideal S2048x2048 .bf16) (ix2 k n) = (V c main_v22 : S2048x2048.Idx → EReal) (ix2 k n) := by
  obtain ⟨-, -, e10, e11, -⟩ := attn_idx t
  unfold iblk2
  rw [View.read_apply]
  show (V c main_v22 : S2048x2048.Idx → EReal) _ = _
  congr 1
  funext a
  apply Fin.ext
  match a with
  | ⟨0, _⟩ => show win2_1.index t (0 : Fin 2) * 2048 + 1 * k.val = k.val; omega
  | ⟨1, _⟩ => show win2_1.index t (1 : Fin 2) * 2048 + 1 * n.val = n.val; omega

/-- The row a's block at any point is the row. -/
theorem rowA_apply (c : Dev nD) (t : Fin cfg2.N) (n : Fin 2048) :
    (iblk2 V c 2 t : Vec Ideal S1x2048 .f32) (ix2 0 n) = (V c main_v19 : S1x2048.Idx → EReal) (ix2 0 n) := by
  obtain ⟨-, -, -, -, e20, e21, -⟩ := attn_idx t
  unfold iblk2
  rw [View.read_apply]
  show (V c main_v19 : S1x2048.Idx → EReal) _ = _
  congr 1
  funext a
  apply Fin.ext
  match a with
  | ⟨0, _⟩ => show win2_2.index t (0 : Fin 2) * 1 + 1 * 0 = 0; omega
  | ⟨1, _⟩ => show win2_2.index t (1 : Fin 2) * 2048 + 1 * n.val = n.val; omega

/-- The row E₀'s block at any point is the row. -/
theorem rowE_apply (c : Dev nD) (t : Fin cfg2.N) (n : Fin 2048) :
    (iblk2 V c 3 t : Vec Ideal S1x2048 .f32) (ix2 0 n) = (V c main_v20 : S1x2048.Idx → EReal) (ix2 0 n) := by
  obtain ⟨-, -, -, -, -, -, e30, e31, -⟩ := attn_idx t
  unfold iblk2
  rw [View.read_apply]
  show (V c main_v20 : S1x2048.Idx → EReal) _ = _
  congr 1
  funext a
  apply Fin.ext
  match a with
  | ⟨0, _⟩ => show win2_3.index t (0 : Fin 2) * 1 + 1 * 0 = 0; omega
  | ⟨1, _⟩ => show win2_3.index t (1 : Fin 2) * 2048 + 1 * n.val = n.val; omega

/-- The row G₀'s block at any point is the row. -/
theorem rowG_apply (c : Dev nD) (t : Fin cfg2.N) (n : Fin 2048) :
    (iblk2 V c 4 t : Vec Ideal S1x2048 .f32) (ix2 0 n) = (V c main_v21 : S1x2048.Idx → EReal) (ix2 0 n) := by
  obtain ⟨-, -, -, -, -, -, -, -, e40, e41, -⟩ := attn_idx t
  unfold iblk2
  rw [View.read_apply]
  show (V c main_v21 : S1x2048.Idx → EReal) _ = _
  congr 1
  funext a
  apply Fin.ext
  match a with
  | ⟨0, _⟩ => show win2_4.index t (0 : Fin 2) * 1 + 1 * 0 = 0; omega
  | ⟨1, _⟩ => show win2_4.index t (1 : Fin 2) * 2048 + 1 * n.val = n.val; omega

/-! ## One step of the two running rows -/

/-- Row r of tile t is row 512·t + r of the array, below 16384. -/
theorem tileRow_lt (t : Fin cfg2.N) (r : Fin 512) : t.val * 512 + r.val < 16384 := by
  have hN : cfg2.N = 32 := N_2
  have := t.isLt
  have := r.isLt
  omega

/-- The weight of tile t's row r at lane n is the weight of row 512·t + r. -/
theorem weight_apply (c : Dev nD) (t : Fin cfg2.N) (r : Fin 512) (n : Fin 2048) (cc : Fin 16384) (hcc : cc.val = t.val * 512 + r.val) :
    k2_pay3 (F := Ideal) (iblk2 V c 0 t) (iblk2 V c 1 t) (iblk2 V c 2 t) (ix2 r n)
      = expAOf (V c main_arg3) (V c main_v22) (V c main_v19) cc n := by
  refine (pay2_3_apply (iblk2 V c 0 t) (iblk2 V c 1 t) (iblk2 V c 2 t) r n).trans ?_
  unfold expAOf
  refine congrArg (fun z => Ideal.exp (Ideal.logistic z)) (congrArg₂ (· + ·) ?_ ?_)
  · exact Finset.sum_congr rfl fun k _ => congrArg₂ (· * ·) (tileC_apply V c t r k cc hcc) (sqM_apply V c t k n)
  · exact rowA_apply V c t n

/-- Point t adds to the first running row, at lane n, the weights of its 512 rows. -/
theorem stepE (c : Dev nD) (t : Fin cfg2.N) (prev : Vec Ideal S1x2048 .f32) (n : Fin 2048) :
    k2_pay4 (F := Ideal) (iblk2 V c 0 t) (iblk2 V c 1 t) (iblk2 V c 2 t) prev (ix2 0 n)
      = prev (ix2 0 n) + ∑ r : Fin 512, expAOf (V c main_arg3) (V c main_v22) (V c main_v19) ⟨t.val * 512 + r.val, tileRow_lt t r⟩ n := by
  refine (pay2_4_apply (iblk2 V c 0 t) (iblk2 V c 1 t) (iblk2 V c 2 t) prev n).trans ?_
  exact congrArg (prev (ix2 0 n) + ·) (Finset.sum_congr rfl fun r _ => weight_apply V c t r n _ rfl)

/-- Point t adds to the second running row, at lane n, its 512 rows weighted. -/
theorem stepEC (c : Dev nD) (t : Fin cfg2.N) (prev : Vec Ideal S1x2048 .f32) (n : Fin 2048) :
    k2_pay5 (F := Ideal) (iblk2 V c 0 t) (iblk2 V c 1 t) (iblk2 V c 2 t) prev (ix2 0 n)
      = prev (ix2 0 n) + ∑ r : Fin 512, expAOf (V c main_arg3) (V c main_v22) (V c main_v19) ⟨t.val * 512 + r.val, tileRow_lt t r⟩ n
          * (V c main_arg3 : S16384x2048.Idx → EReal) (ix2 ⟨t.val * 512 + r.val, tileRow_lt t r⟩ n) := by
  refine (pay2_5_apply (iblk2 V c 0 t) (iblk2 V c 1 t) (iblk2 V c 2 t) prev n).trans ?_
  exact congrArg (prev (ix2 0 n) + ·) (Finset.sum_congr rfl fun r _ =>
    congrArg₂ (· * ·) (weight_apply V c t r n _ rfl) (tileC_apply V c t r n _ rfl))

/-! ## The running rows after the last point -/

/-- The first running row after point 31, at lane n. -/
theorem accE_lane (c : Dev nD) (n : Fin 2048) (h31 : 31 < cfg2.N) :
    accE (F := Ideal) V c 31 h31 (ix2 0 n) = sumELane (V c main_arg3) (V c main_v22) (V c main_v19) (V c main_v20) n := by
  have hN : cfg2.N = 32 := N_2
  have hacc : ∀ (t : ℕ) (h : t < cfg2.N),
      (if h' : t < cfg2.N then accE (F := Ideal) V c t h' (ix2 0 n) else (0 : EReal)) = accE (F := Ideal) V c t h (ix2 0 n) :=
    fun t h => dif_pos h
  refine (hacc 31 h31).symm.trans ?_
  refine acc_tiles (fun cc => expAOf (V c main_arg3) (V c main_v22) (V c main_v19) cc n)
    ((V c main_v20 : S1x2048.Idx → EReal) (ix2 0 n))
    (fun t => if h' : t < cfg2.N then accE (F := Ideal) V c t h' (ix2 0 n) else (0 : EReal)) ?_ ?_
  · refine (hacc 0 (by omega)).trans ?_
    refine (congrFun (accE_zero V c (by omega)) (ix2 0 n)).trans ?_
    refine (stepE V c ⟨0, by omega⟩ _ n).trans ?_
    exact congrArg₂ (· + ·) ((congrFun (pay2_1 _) (ix2 0 n)).trans (rowE_apply V c ⟨0, by omega⟩ n)) rfl
  · intro t ht
    refine (hacc (t + 1) (by omega)).trans ?_
    refine (congrFun (accE_succ V c t (by omega)) (ix2 0 n)).trans ?_
    refine (stepE V c ⟨t + 1, by omega⟩ _ n).trans ?_
    exact congrArg₂ (· + ·) (hacc t (by omega)).symm rfl

/-- The second running row after point 31, at lane n. -/
theorem accEC_lane (c : Dev nD) (n : Fin 2048) (h31 : 31 < cfg2.N) :
    accEC (F := Ideal) V c 31 h31 (ix2 0 n) = sumECLane (V c main_arg3) (V c main_v22) (V c main_v19) (V c main_v21) n := by
  have hN : cfg2.N = 32 := N_2
  have hacc : ∀ (t : ℕ) (h : t < cfg2.N),
      (if h' : t < cfg2.N then accEC (F := Ideal) V c t h' (ix2 0 n) else (0 : EReal)) = accEC (F := Ideal) V c t h (ix2 0 n) :=
    fun t h => dif_pos h
  refine (hacc 31 h31).symm.trans ?_
  refine acc_tiles (fun cc => expAOf (V c main_arg3) (V c main_v22) (V c main_v19) cc n * (V c main_arg3 : S16384x2048.Idx → EReal) (ix2 cc n))
    ((V c main_v21 : S1x2048.Idx → EReal) (ix2 0 n))
    (fun t => if h' : t < cfg2.N then accEC (F := Ideal) V c t h' (ix2 0 n) else (0 : EReal)) ?_ ?_
  · refine (hacc 0 (by omega)).trans ?_
    refine (congrFun (accEC_zero V c (by omega)) (ix2 0 n)).trans ?_
    refine (stepEC V c ⟨0, by omega⟩ _ n).trans ?_
    exact congrArg₂ (· + ·) ((congrFun (pay2_2 _) (ix2 0 n)).trans (rowG_apply V c ⟨0, by omega⟩ n)) rfl
  · intro t ht
    refine (hacc (t + 1) (by omega)).trans ?_
    refine (congrFun (accEC_succ V c t (by omega)) (ix2 0 n)).trans ?_
    refine (stepEC V c ⟨t + 1, by omega⟩ _ n).trans ?_
    exact congrArg₂ (· + ·) (hacc t (by omega)).symm rfl

/-! ## The one write-back -/

/-- A row's index is (0, its lane). -/
theorem row_ix (j : S1x2048.Idx) : j = ix2 0 (⟨(j 1).val, (j 1).isLt⟩ : Fin 2048) :=
  (eq_ix2 j).trans (congrArg (fun a => ix2 a (j 1)) (@Subsingleton.elim (Fin 1) inferInstance (j 0) 0))

/-- What the last point leaves in the first output row's buffer is the first sum, read through the row's one block. -/
theorem sumE_point (c : Dev nD) (t : Fin cfg2.N) (h31 : t.val = 31) (j : S1x2048.Idx) :
    accE (F := Ideal) V c t.val t.isLt j = sumE V c (((cfg2.win 5).blk t).view.emb j) := by
  obtain ⟨-, -, -, -, -, -, -, -, -, -, e50, e51, -⟩ := attn_idx t
  obtain ⟨tv, htv⟩ := t
  obtain rfl : tv = 31 := h31
  have hj : ((((cfg2.win 5).blk ⟨31, htv⟩).view.emb j : S1x2048.Idx) 1).val = (j 1).val := by
    show win2_5.index ⟨31, htv⟩ (1 : Fin 2) * 2048 + 1 * (j 1).val = _
    omega
  refine (congrArg (accE (F := Ideal) V c 31 htv) (row_ix j)).trans ?_
  refine (accE_lane V c _ htv).trans ?_
  unfold sumE sumEOf
  exact congrArg (sumELane _ _ _ _) (Fin.ext hj.symm)

/-- The same for the second output row. -/
theorem sumEC_point (c : Dev nD) (t : Fin cfg2.N) (h31 : t.val = 31) (j : S1x2048.Idx) :
    accEC (F := Ideal) V c t.val t.isLt j = sumEC V c (((cfg2.win 6).blk t).view.emb j) := by
  obtain ⟨-, -, -, -, -, -, -, -, -, -, -, -, e60, e61⟩ := attn_idx t
  obtain ⟨tv, htv⟩ := t
  obtain rfl : tv = 31 := h31
  have hj : ((((cfg2.win 6).blk ⟨31, htv⟩).view.emb j : S1x2048.Idx) 1).val = (j 1).val := by
    show win2_6.index ⟨31, htv⟩ (1 : Fin 2) * 2048 + 1 * (j 1).val = _
    omega
  refine (congrArg (accEC (F := Ideal) V c 31 htv) (row_ix j)).trans ?_
  refine (accEC_lane V c _ htv).trans ?_
  unfold sumEC sumECOf
  exact congrArg (sumECLane _ _ _ _) (Fin.ext hj.symm)

/-- A point that writes back is the last. -/
theorem last_of_flush5 (t : Fin cfg2.N) (hf : (cfg2.win 5).flush t = true) : t.val = 31 := by
  have hN : cfg2.N = 32 := N_2
  have := (flush2_5 t).mp hf
  have := t.isLt
  omega
theorem last_of_flush6 (t : Fin cfg2.N) (hf : (cfg2.win 6).flush t = true) : t.val = 31 := by
  have hN : cfg2.N = 32 := N_2
  have := (flush2_6 t).mp hf
  have := t.isLt
  omega

/-- WHAT THE LAST POINT WRITES BACK to the first output row is the row's one block of the first sum. -/
theorem sumE_flushed (c : Dev nD) (t : Fin cfg2.N) (hf : (cfg2.win 5).flush t = true) :
    (dat2 (F := Ideal) V c).flushed 5 t = ((cfg2.win 5).blk t).view.read (Elt Ideal) (sumE V c) := by
  show (cfg2.win 5).cut (grid2.coords t) ((dat2 V c).after 5 t) = _
  rw [after2_5]
  funext j
  exact sumE_point V c t (last_of_flush5 t hf) j

theorem sumEC_flushed (c : Dev nD) (t : Fin cfg2.N) (hf : (cfg2.win 6).flush t = true) :
    (dat2 (F := Ideal) V c).flushed 6 t = ((cfg2.win 6).blk t).view.read (Elt Ideal) (sumEC V c) := by
  show (cfg2.win 6).cut (grid2.coords t) ((dat2 V c).after 6 t) = _
  rw [after2_6]
  funext j
  exact sumEC_point V c t (last_of_flush6 t hf) j

/-! ## The last point's block is the whole row -/

theorem sumE_mem_blk (t : Fin cfg2.N) (i : S1x2048.Idx) :
    i ∈ ((cfg2.win 5).blk t).view.set ↔ ∀ a : Fin 2, win2_5.index t a * S1x2048.size a ≤ (i a).val ∧ (i a).val < win2_5.index t a * S1x2048.size a + S1x2048.size a := by
  show i ∈ ((View.whole main_v23_0).slice (win2_5.rect t)).set ↔ _
  rw [View.set_slice_whole, Rect.mem_set_unit]
  exact Iff.rfl

theorem sumEC_mem_blk (t : Fin cfg2.N) (i : S1x2048.Idx) :
    i ∈ ((cfg2.win 6).blk t).view.set ↔ ∀ a : Fin 2, win2_6.index t a * S1x2048.size a ≤ (i a).val ∧ (i a).val < win2_6.index t a * S1x2048.size a + S1x2048.size a := by
  show i ∈ ((View.whole main_v23_1).slice (win2_6.rect t)).set ↔ _
  rw [View.set_slice_whole, Rect.mem_set_unit]
  exact Iff.rfl

theorem sumE_cover (i : S1x2048.Idx) :
    ∃ t : Fin cfg2.N, (cfg2.win 5).flush t = true ∧ i ∈ ((cfg2.win 5).blk t).view.set := by
  have hi0 : (i 0).val < 1 := (i 0).isLt
  have hi1 : (i 1).val < 2048 := (i 1).isLt
  have hN : cfg2.N = 32 := N_2
  refine ⟨⟨31, by rw [hN]; omega⟩, (flush2_5 _).mpr rfl, ?_⟩
  rw [sumE_mem_blk]
  obtain ⟨-, -, -, -, -, -, -, -, -, -, e50, e51, -⟩ := attn_idx ⟨31, by rw [hN]; omega⟩
  intro a
  match a with
  | ⟨0, _⟩ => show win2_5.index _ (0 : Fin 2) * 1 ≤ (i 0).val ∧ (i 0).val < win2_5.index _ (0 : Fin 2) * 1 + 1; omega
  | ⟨1, _⟩ => show win2_5.index _ (1 : Fin 2) * 2048 ≤ (i 1).val ∧ (i 1).val < win2_5.index _ (1 : Fin 2) * 2048 + 2048; omega

theorem sumEC_cover (i : S1x2048.Idx) :
    ∃ t : Fin cfg2.N, (cfg2.win 6).flush t = true ∧ i ∈ ((cfg2.win 6).blk t).view.set := by
  have hi0 : (i 0).val < 1 := (i 0).isLt
  have hi1 : (i 1).val < 2048 := (i 1).isLt
  have hN : cfg2.N = 32 := N_2
  refine ⟨⟨31, by rw [hN]; omega⟩, (flush2_6 _).mpr rfl, ?_⟩
  rw [sumEC_mem_blk]
  obtain ⟨-, -, -, -, -, -, -, -, -, -, -, -, e60, e61⟩ := attn_idx ⟨31, by rw [hN]; omega⟩
  intro a
  match a with
  | ⟨0, _⟩ => show win2_6.index _ (0 : Fin 2) * 1 ≤ (i 0).val ∧ (i 0).val < win2_6.index _ (0 : Fin 2) * 1 + 1; omega
  | ⟨1, _⟩ => show win2_6.index _ (1 : Fin 2) * 2048 ≤ (i 1).val ∧ (i 1).val < win2_6.index _ (1 : Fin 2) * 2048 + 2048; omega

/-- THE TWO ARRAYS after the region. -/
theorem final2_5 (c : Dev nD) : (dat2 (F := Ideal) V c).arrAt 5 cfg2.N = sumE V c :=
  (dat2 (F := Ideal) V c).arrAt_eq_of_cover 5 (sumE V c) (fun t hf => sumE_flushed V c t hf) sumE_cover

theorem final2_6 (c : Dev nD) : (dat2 (F := Ideal) V c).arrAt 6 cfg2.N = sumEC V c :=
  (dat2 (F := Ideal) V c).arrAt_eq_of_cover 6 (sumEC V c) (fun t hf => sumEC_flushed V c t hf) sumEC_cover

end Cert.KSide

end
-- ==== Proof.Spec.lean ====
/-
  The value both programs compute, as one function of the argument arrays over the extended reals.

  With  gates n  = (Σ_k x₀ₖ·W_ih[k,n] + Σ_k h₀ₖ·W_hh[k,n]) + b[n]      (n < 6144: the three gate blocks i | o | g),
        σ z      = 1 / (1 + e^{-z}),
        a n      = Σ_k x₀ₖ·aW_ih[k,n] + ab[n],
        E c n    = exp (σ (Σ_k c_in[c,k]·aW_hh[k,n] + a n))              (one weight per child c < 16384),
        I n      = exp (σ (gates n)),   g n = tanh (gates (4096+n)),   o n = σ (gates (2048+n)),
  the new cell state is the weighted mean
        c₁ n = (g n · I n + Σ_c E c n · c_in[c,n]) / (I n + Σ_c E c n)
  and the new hidden state  h₁ n = o n · tanh (c₁ n).
-/
import Idealize.ShloMosaic.PureOps.Ideal
import Idealize.ShloMosaic.Lib.ValueIdx

noncomputable section

namespace Cert.Spec

open Idealize.ShloMosaic Idealize.ShloMosaic.ValueIdx

abbrev Row : Type := (⟨2, ![1, 2048]⟩ : Shape).Idx → EReal
abbrev Kids : Type := (⟨2, ![16384, 2048]⟩ : Shape).Idx → EReal
abbrev GateW : Type := (⟨2, ![2048, 6144]⟩ : Shape).Idx → EReal
abbrev GateB : Type := (⟨1, ![6144]⟩ : Shape).Idx → EReal
abbrev Sq : Type := (⟨2, ![2048, 2048]⟩ : Shape).Idx → EReal
abbrev Bias : Type := (⟨1, ![2048]⟩ : Shape).Idx → EReal

variable (x h0 : Row) (cin : Kids) (Wih Whh : GateW) (b : GateB) (aWih aWhh : Sq) (ab : Bias)

/-- The gate pre-activations, one row of 3·2048 entries. -/
def gates (n : Fin 6144) : EReal :=
  (∑ k : Fin 2048, x (ix2 0 k) * Wih (ix2 k n) + ∑ k : Fin 2048, h0 (ix2 0 k) * Whh (ix2 k n)) + b (ix1 n)

/-- The input's share of the attention pre-activation. -/
def awi (n : Fin 2048) : EReal := ∑ k : Fin 2048, x (ix2 0 k) * aWih (ix2 k n) + ab (ix1 n)

/-- The input gate's weight exp (σ i). -/
def expI (n : Fin 2048) : EReal := Ideal.exp (Ideal.logistic (gates x h0 Wih Whh b ⟨n.val, by omega⟩))
/-- The output gate σ o. -/
def outG (n : Fin 2048) : EReal := Ideal.logistic (gates x h0 Wih Whh b ⟨2048 + n.val, by omega⟩)
/-- The candidate tanh g. -/
def cand (n : Fin 2048) : EReal := Ideal.tanh (gates x h0 Wih Whh b ⟨4096 + n.val, by omega⟩)
/-- Child c's weight exp (σ (c_in[c,:]·aW_hh + a)). -/
def expA (c : Fin 16384) (n : Fin 2048) : EReal :=
  Ideal.exp (Ideal.logistic (∑ k : Fin 2048, cin (ix2 c k) * aWhh (ix2 k n) + awi x aWih ab n))

/-- The new cell state at lane n. -/
def c1 (n : Fin 2048) : EReal :=
  Ideal.div (cand x h0 Wih Whh b n * expI x h0 Wih Whh b n + ∑ c : Fin 16384, expA x cin aWih aWhh ab c n * cin (ix2 c n))
    (expI x h0 Wih Whh b n + ∑ c : Fin 16384, expA x cin aWih aWhh ab c n)

/-- The new hidden state at lane n. -/
def h1 (n : Fin 2048) : EReal := outG x h0 Wih Whh b n * Ideal.tanh (c1 x h0 cin Wih Whh b aWih aWhh ab n)

/-- The two results as rows [1, 2048]. -/
def C1 : Row := fun j => c1 x h0 cin Wih Whh b aWih aWhh ab ⟨(j 1).val, (j 1).isLt⟩
def H1 : Row := fun j => h1 x h0 cin Wih Whh b aWih aWhh ab ⟨(j 1).val, (j 1).isLt⟩

end Cert.Spec

end
-- ==== Proof.KSide.lean ====
/-
  The kernel's two results are the specification's rows.

  Walking the program's eight boundaries: the bias row reshaped and the four launched arrays enter region 0, which
  leaves the gates row; the host splits it into σ of the first and second blocks and tanh of the third, and reshapes the
  attention bias; region 1 leaves the input's share a of the attention pre-activation; the host forms the two starting
  rows exp (σ i) and tanh g · exp (σ i); region 2 adds to them, over all the children, the weights and the weighted cell
  states; the host divides once, takes tanh and multiplies by the output gate. Every buffer a stage reads is either a
  launched array, carried unchanged to that stage, or an earlier stage's row.
-/
import proofs.«130393_j25555055411309_1_alg».proof.Proof.KernelIdealFrame.Args
import proofs.«130393_j25555055411309_1_alg».proof.Proof.KHost
import proofs.«130393_j25555055411309_1_alg».proof.Proof.KFinal0
import proofs.«130393_j25555055411309_1_alg».proof.Proof.KFinal1
import proofs.«130393_j25555055411309_1_alg».proof.Proof.KFinal2
import proofs.«130393_j25555055411309_1_alg».proof.Proof.Spec

set_option maxRecDepth 16384

noncomputable section

namespace Cert.KSide

open Idealize.ShloMosaic Idealize.ShloMosaic.TcCoe Idealize.SL.Sem
open Cert.KernelIdeal Cert.KernelIdeal.Gen Cert.KernelIdeal.Hand Idealize.ShloMosaic.ValueIdx

variable (m : (ℓ : Loc nD τ sig) → Buf (Elt Ideal) ℓ) (ρ : Dev nD → PrngReg) (c : Dev nD)

/-! ## Region 0: the gates row -/

/-- The bias row entering region 0 is the launched bias. -/
theorem Bd1_v0_apply (n : Fin 6144) :
    (Bd1 m ρ c (Proc.devRef .tc main_v0) : S1x6144.Idx → EReal) (ix2 0 n) = ((m ((c : Thread nD τ).loc main_arg6)) : S6144.Idx → EReal) (ix1 n) :=
  host0_v0 (Bd0 m ρ c) n

/-- The gates row region 0 leaves is the specification's gate pre-activations of the launched arrays. -/
theorem Bd2_v1_apply (n : Fin 6144) :
    (Bd2 m ρ c (Proc.devRef .tc main_v1) : S1x6144.Idx → EReal) (ix2 0 n) = Cert.Spec.gates (m ((c : Thread nD τ).loc main_arg0)) (m ((c : Thread nD τ).loc main_arg1)) (m ((c : Thread nD τ).loc main_arg4)) (m ((c : Thread nD τ).loc main_arg5)) (m ((c : Thread nD τ).loc main_arg6)) n := by
  have h : Bd2 m ρ c (Proc.devRef .tc main_v1) = gatesRow (En1 m ρ) c := (Bd2_arr m ρ c 5).trans (final0 (En1 m ρ) c)
  rw [h]
  unfold gatesRow gatesOf Cert.Spec.gates
  refine congrArg₂ (· + ·) (congrArg₂ (· + ·) ?_ ?_) ?_
  · exact Finset.sum_congr rfl fun k _ => congrArg₂ (· * ·) (congrFun (Bd1_arg0 m ρ c) _) (congrFun (Bd1_arg4 m ρ c) _)
  · exact Finset.sum_congr rfl fun k _ => congrArg₂ (· * ·) (congrFun (Bd1_arg1 m ρ c) _) (congrFun (Bd1_arg5 m ρ c) _)
  · exact Bd1_v0_apply m ρ c n

/-! ## The second host stretch: the three gates and the attention bias -/

/-- σ of the input gate's pre-activation. -/
theorem Bd3_v10_apply (n : Fin 2048) :
    (Bd3 m ρ c (Proc.devRef .tc main_v10) : S1x2048.Idx → EReal) (ix2 0 n) = Ideal.logistic (Cert.Spec.gates (m ((c : Thread nD τ).loc main_arg0)) (m ((c : Thread nD τ).loc main_arg1)) (m ((c : Thread nD τ).loc main_arg4)) (m ((c : Thread nD τ).loc main_arg5)) (m ((c : Thread nD τ).loc main_arg6)) ⟨n.val, by omega⟩) :=
  (host1_v10 (Bd2 m ρ c) n).trans (congrArg Ideal.logistic (Bd2_v1_apply m ρ c _))

/-- σ of the output gate's pre-activation. -/
theorem Bd3_v16_apply (n : Fin 2048) :
    (Bd3 m ρ c (Proc.devRef .tc main_v16) : S1x2048.Idx → EReal) (ix2 0 n) = Cert.Spec.outG (m ((c : Thread nD τ).loc main_arg0)) (m ((c : Thread nD τ).loc main_arg1)) (m ((c : Thread nD τ).loc main_arg4)) (m ((c : Thread nD τ).loc main_arg5)) (m ((c : Thread nD τ).loc main_arg6)) n :=
  (host1_v16 (Bd2 m ρ c) n).trans (congrArg Ideal.logistic (Bd2_v1_apply m ρ c _))

/-- tanh of the candidate's pre-activation. -/
theorem Bd3_v17_apply (n : Fin 2048) :
    (Bd3 m ρ c (Proc.devRef .tc main_v17) : S1x2048.Idx → EReal) (ix2 0 n) = Cert.Spec.cand (m ((c : Thread nD τ).loc main_arg0)) (m ((c : Thread nD τ).loc main_arg1)) (m ((c : Thread nD τ).loc main_arg4)) (m ((c : Thread nD τ).loc main_arg5)) (m ((c : Thread nD τ).loc main_arg6)) n :=
  (host1_v17 (Bd2 m ρ c) n).trans (congrArg Ideal.tanh (Bd2_v1_apply m ρ c _))

/-- The attention bias row entering region 1 is the launched attention bias. -/
theorem Bd3_v18_apply (n : Fin 2048) :
    (Bd3 m ρ c (Proc.devRef .tc main_v18) : S1x2048.Idx → EReal) (ix2 0 n) = ((m ((c : Thread nD τ).loc main_arg9)) : S2048.Idx → EReal) (ix1 n) :=
  (host1_v18 (Bd2 m ρ c) n).trans (congrFun (Bd2_arg9 m ρ c) _)

/-! ## Region 1: the input's share of the attention pre-activation -/

theorem Bd4_v19_apply (n : Fin 2048) :
    (Bd4 m ρ c (Proc.devRef .tc main_v19) : S1x2048.Idx → EReal) (ix2 0 n) = Cert.Spec.awi (m ((c : Thread nD τ).loc main_arg0)) (m ((c : Thread nD τ).loc main_arg7)) (m ((c : Thread nD τ).loc main_arg9)) n := by
  have h : Bd4 m ρ c (Proc.devRef .tc main_v19) = awiRow (En3 m ρ) c := (Bd4_arr m ρ c 3).trans (final1 (En3 m ρ) c)
  rw [h]
  unfold awiRow awiOf Cert.Spec.awi
  refine congrArg₂ (· + ·) ?_ ?_
  · exact Finset.sum_congr rfl fun k _ => congrArg₂ (· * ·) (congrFun (Bd3_arg0 m ρ c) _) (congrFun (Bd3_arg7 m ρ c) _)
  · exact Bd3_v18_apply m ρ c n

/-! ## The third host stretch: what region 2 finds -/

/-- σ of the input gate, carried over region 1. -/
theorem Bd4_v10_apply (n : Fin 2048) :
    (Bd4 m ρ c (Proc.devRef .tc main_v10) : S1x2048.Idx → EReal) (ix2 0 n) = Ideal.logistic (Cert.Spec.gates (m ((c : Thread nD τ).loc main_arg0)) (m ((c : Thread nD τ).loc main_arg1)) (m ((c : Thread nD τ).loc main_arg4)) (m ((c : Thread nD τ).loc main_arg5)) (m ((c : Thread nD τ).loc main_arg6)) ⟨n.val, by omega⟩) :=
  (congrFun (Bd4_off m ρ c main_v10 (by decide)) _).trans (Bd3_v10_apply m ρ c n)

/-- The candidate, carried over region 1. -/
theorem Bd4_v17_apply (n : Fin 2048) :
    (Bd4 m ρ c (Proc.devRef .tc main_v17) : S1x2048.Idx → EReal) (ix2 0 n) = Cert.Spec.cand (m ((c : Thread nD τ).loc main_arg0)) (m ((c : Thread nD τ).loc main_arg1)) (m ((c : Thread nD τ).loc main_arg4)) (m ((c : Thread nD τ).loc main_arg5)) (m ((c : Thread nD τ).loc main_arg6)) n :=
  (congrFun (Bd4_off m ρ c main_v17 (by decide)) _).trans (Bd3_v17_apply m ρ c n)

/-- The row the sum of weights starts from: the input gate's weight. -/
theorem Bd5_v20_apply (n : Fin 2048) :
    (Bd5 m ρ c (Proc.devRef .tc main_v20) : S1x2048.Idx → EReal) (ix2 0 n) = Cert.Spec.expI (m ((c : Thread nD τ).loc main_arg0)) (m ((c : Thread nD τ).loc main_arg1)) (m ((c : Thread nD τ).loc main_arg4)) (m ((c : Thread nD τ).loc main_arg5)) (m ((c : Thread nD τ).loc main_arg6)) n :=
  (host2_v20 (Bd4 m ρ c) n).trans (congrArg Ideal.exp (Bd4_v10_apply m ρ c n))

/-- The row the sum of products starts from: the candidate times the input gate's weight. -/
theorem Bd5_v21_apply (n : Fin 2048) :
    (Bd5 m ρ c (Proc.devRef .tc main_v21) : S1x2048.Idx → EReal) (ix2 0 n) = Cert.Spec.cand (m ((c : Thread nD τ).loc main_arg0)) (m ((c : Thread nD τ).loc main_arg1)) (m ((c : Thread nD τ).loc main_arg4)) (m ((c : Thread nD τ).loc main_arg5)) (m ((c : Thread nD τ).loc main_arg6)) n * Cert.Spec.expI (m ((c : Thread nD τ).loc main_arg0)) (m ((c : Thread nD τ).loc main_arg1)) (m ((c : Thread nD τ).loc main_arg4)) (m ((c : Thread nD τ).loc main_arg5)) (m ((c : Thread nD τ).loc main_arg6)) n :=
  (host2_v21 (Bd4 m ρ c) n).trans
    (congrArg₂ (· * ·) (Bd4_v17_apply m ρ c n) (congrArg Ideal.exp (Bd4_v10_apply m ρ c n)))

/-- The attention weights region 2 reads are the launched ones. -/
theorem Bd5_v22_apply (k n : Fin 2048) :
    (Bd5 m ρ c (Proc.devRef .tc main_v22) : S2048x2048.Idx → EReal) (ix2 k n) = ((m ((c : Thread nD τ).loc main_arg8)) : S2048x2048.Idx → EReal) (ix2 k n) :=
  (host2_v22 (Bd4 m ρ c) k n).trans (congrFun (Bd4_arg8 m ρ c) _)

/-- The input's share of the attention pre-activation, as region 2 reads it. -/
theorem Bd5_v19_apply (n : Fin 2048) :
    (Bd5 m ρ c (Proc.devRef .tc main_v19) : S1x2048.Idx → EReal) (ix2 0 n) = Cert.Spec.awi (m ((c : Thread nD τ).loc main_arg0)) (m ((c : Thread nD τ).loc main_arg7)) (m ((c : Thread nD τ).loc main_arg9)) n :=
  (congrFun (StableHlo.after_of_writes_sub (r := main_v19) hostOps2 _ hostOps2_writes (by decide)) _).trans (Bd4_v19_apply m ρ c n)

/-! ## Region 2: the two sums over the children -/

/-- Child cc's weight over region 2's entry contents is the specification's. -/
theorem expA_eq (cc : Fin 16384) (n : Fin 2048) :
    expAOf (En5 m ρ c main_arg3) (En5 m ρ c main_v22) (En5 m ρ c main_v19) cc n = Cert.Spec.expA (m ((c : Thread nD τ).loc main_arg0)) (m ((c : Thread nD τ).loc main_arg3)) (m ((c : Thread nD τ).loc main_arg7)) (m ((c : Thread nD τ).loc main_arg8)) (m ((c : Thread nD τ).loc main_arg9)) cc n := by
  unfold expAOf Cert.Spec.expA
  refine congrArg Ideal.exp (congrArg Ideal.logistic (congrArg₂ (· + ·) ?_ (Bd5_v19_apply m ρ c n)))
  exact Finset.sum_congr rfl fun k _ => congrArg₂ (· * ·) (congrFun (Bd5_arg3 m ρ c) _) (Bd5_v22_apply m ρ c k n)

/-- The sum of the weights. -/
theorem Bd6_v23_0_apply (n : Fin 2048) :
    (Bd6 m ρ c (Proc.devRef .tc main_v23_0) : S1x2048.Idx → EReal) (ix2 0 n)
      = Cert.Spec.expI (m ((c : Thread nD τ).loc main_arg0)) (m ((c : Thread nD τ).loc main_arg1)) (m ((c : Thread nD τ).loc main_arg4)) (m ((c : Thread nD τ).loc main_arg5)) (m ((c : Thread nD τ).loc main_arg6)) n + ∑ cc : Fin 16384, Cert.Spec.expA (m ((c : Thread nD τ).loc main_arg0)) (m ((c : Thread nD τ).loc main_arg3)) (m ((c : Thread nD τ).loc main_arg7)) (m ((c : Thread nD τ).loc main_arg8)) (m ((c : Thread nD τ).loc main_arg9)) cc n := by
  have h : Bd6 m ρ c (Proc.devRef .tc main_v23_0) = sumE (En5 m ρ) c := (Bd6_arr m ρ c 5).trans (final2_5 (En5 m ρ) c)
  rw [h]
  unfold sumE sumEOf sumELane
  exact congrArg₂ (· + ·) (Bd5_v20_apply m ρ c n) (Finset.sum_congr rfl fun cc _ => expA_eq m ρ c cc n)

/-- The sum of the weighted cell states. -/
theorem Bd6_v23_1_apply (n : Fin 2048) :
    (Bd6 m ρ c (Proc.devRef .tc main_v23_1) : S1x2048.Idx → EReal) (ix2 0 n)
      = Cert.Spec.cand (m ((c : Thread nD τ).loc main_arg0)) (m ((c : Thread nD τ).loc main_arg1)) (m ((c : Thread nD τ).loc main_arg4)) (m ((c : Thread nD τ).loc main_arg5)) (m ((c : Thread nD τ).loc main_arg6)) n * Cert.Spec.expI (m ((c : Thread nD τ).loc main_arg0)) (m ((c : Thread nD τ).loc main_arg1)) (m ((c : Thread nD τ).loc main_arg4)) (m ((c : Thread nD τ).loc main_arg5)) (m ((c : Thread nD τ).loc main_arg6)) n
        + ∑ cc : Fin 16384, Cert.Spec.expA (m ((c : Thread nD τ).loc main_arg0)) (m ((c : Thread nD τ).loc main_arg3)) (m ((c : Thread nD τ).loc main_arg7)) (m ((c : Thread nD τ).loc main_arg8)) (m ((c : Thread nD τ).loc main_arg9)) cc n * ((m ((c : Thread nD τ).loc main_arg3)) : S16384x2048.Idx → EReal) (ix2 cc n) := by
  have h : Bd6 m ρ c (Proc.devRef .tc main_v23_1) = sumEC (En5 m ρ) c := (Bd6_arr m ρ c 6).trans (final2_6 (En5 m ρ) c)
  rw [h]
  unfold sumEC sumECOf sumECLane
  exact congrArg₂ (· + ·) (Bd5_v21_apply m ρ c n)
    (Finset.sum_congr rfl fun cc _ => congrArg₂ (· * ·) (expA_eq m ρ c cc n) (congrFun (Bd5_arg3 m ρ c) _))

/-- The output gate, carried over regions 1 and 2. -/
theorem Bd6_v16_apply (n : Fin 2048) :
    (Bd6 m ρ c (Proc.devRef .tc main_v16) : S1x2048.Idx → EReal) (ix2 0 n) = Cert.Spec.outG (m ((c : Thread nD τ).loc main_arg0)) (m ((c : Thread nD τ).loc main_arg1)) (m ((c : Thread nD τ).loc main_arg4)) (m ((c : Thread nD τ).loc main_arg5)) (m ((c : Thread nD τ).loc main_arg6)) n :=
  (congrFun (Bd6_off m ρ c main_v16 (by decide)) _).trans <|
  (congrFun (StableHlo.after_of_writes_sub (r := main_v16) hostOps2 _ hostOps2_writes (by decide)) _).trans <|
  (congrFun (Bd4_off m ρ c main_v16 (by decide)) _).trans (Bd3_v16_apply m ρ c n)

/-! ## The last host stretch: the two results -/

/-- The cell state the kernel returns, at lane n. -/
theorem Bd7_v24_apply (n : Fin 2048) :
    (Bd7 m ρ c (Proc.devRef .tc main_v24) : S1x2048.Idx → EReal) (ix2 0 n) = Cert.Spec.c1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) n :=
  (host3_v24 (Bd6 m ρ c) n).trans (congrArg₂ Ideal.div (Bd6_v23_1_apply m ρ c n) (Bd6_v23_0_apply m ρ c n))

/-- The hidden state the kernel returns, at lane n. -/
theorem Bd7_v26_apply (n : Fin 2048) :
    (Bd7 m ρ c (Proc.devRef .tc main_v26) : S1x2048.Idx → EReal) (ix2 0 n) = Cert.Spec.h1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) n :=
  (host3_v26 (Bd6 m ρ c) n).trans (congrArg₂ (· * ·) (Bd6_v16_apply m ρ c n)
    (congrArg Ideal.tanh (congrArg₂ Ideal.div (Bd6_v23_1_apply m ρ c n) (Bd6_v23_0_apply m ρ c n))))

/-- The kernel's cell-state result is the specification's row of the launched arrays. -/
theorem c1_eq : Cert.KernelIdeal.Hand.Bd7 (F := Ideal) m ρ c (Proc.devRef .tc main_v24) = Cert.Spec.C1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  funext j
  rw [row_ix j]
  exact Bd7_v24_apply m ρ c _

/-- The kernel's hidden-state result is the specification's row of the launched arrays. -/
theorem h1_eq : Cert.KernelIdeal.Hand.Bd7 (F := Ideal) m ρ c (Proc.devRef .tc main_v26) = Cert.Spec.H1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  funext j
  rw [row_ix j]
  exact Bd7_v26_apply m ρ c _

end Cert.KSide

end
-- ==== Proof.RefLaw.lean ====
/-
  The algebra of the weighted mean on the extended reals.

  Every weight  e = exp (σ z)  is a positive REAL, whatever the extended real z (σ z lies in [0, 1]), so the sum S of
  the weights is a positive real s. Division by s is multiplication by the nonnegative real 1/s, and multiplication by
  a nonnegative real distributes over + on ALL of the extended reals. Hence, with no finiteness assumed of the values v,
        Σ_r v_r · (e_r / S)  =  (Σ_r v_r · e_r) / S.
-/
import Idealize.ShloMosaic.PureOps.Ideal.Laws
import Idealize.ShloMosaic.Lib.IdealHost

noncomputable section

namespace Cert.RefLaw

open Idealize.ShloMosaic

/-- σ of an extended real is a real. -/
theorem logistic_real (z : EReal) : ∃ r : ℝ, Ideal.logistic z = (r : EReal) := by
  induction z using EReal.rec with
  | bot => exact ⟨0, by rw [Ideal.logistic_bot, EReal.coe_zero]⟩
  | coe r => exact ⟨_, Ideal.logistic_coe r⟩
  | top => exact ⟨1, by rw [Ideal.logistic_top, EReal.coe_one]⟩

/-- exp (σ z) is a positive real. -/
theorem exp_logistic_pos (z : EReal) : ∃ r : ℝ, 0 < r ∧ Ideal.exp (Ideal.logistic z) = (r : EReal) := by
  obtain ⟨t, ht⟩ := logistic_real z
  exact ⟨Real.exp t, Real.exp_pos t, by rw [ht, Ideal.exp_coe]⟩

/-- The host's spelling of σ: 1 / (1 + e^{-z}). -/
theorem host_logistic (z : EReal) : Ideal.div 1 (1 + Ideal.exp (-z)) = Ideal.logistic z := rfl

/-- A finite sum of reals, summed in the extended reals. -/
theorem coe_sum {ι : Type*} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- Multiplication by a nonnegative real distributes over a finite sum of extended reals. -/
theorem sum_mul_coe {ι : Type*} (s : Finset ι) (f : ι → EReal) {t : ℝ} (ht : 0 ≤ t) :
    (∑ i ∈ s, f i) * (t : EReal) = ∑ i ∈ s, f i * (t : EReal) := by
  classical
  induction s using Finset.induction_on with
  | empty => simp
  | insert a s ha ih =>
    rw [Finset.sum_insert ha, Finset.sum_insert ha,
      EReal.right_distrib_of_nonneg_of_ne_top (by exact_mod_cast ht) (EReal.coe_ne_top t), ih]

/-- Dividing each term by the positive real sum of the weights, or the sum of the products once. -/
theorem sum_mul_div {ι : Type*} (s : Finset ι) (hs : s.Nonempty) (v e : ι → EReal)
    (he : ∀ i, ∃ r : ℝ, 0 < r ∧ e i = (r : EReal)) :
    ∑ i ∈ s, v i * Ideal.div (e i) (∑ j ∈ s, e j) = Ideal.div (∑ i ∈ s, v i * e i) (∑ j ∈ s, e j) := by
  choose r hr using he
  have hS : ∑ j ∈ s, e j = ((∑ j ∈ s, r j : ℝ) : EReal) := by
    rw [← coe_sum]; exact Finset.sum_congr rfl fun j _ => (hr j).2
  have hpos : 0 < ∑ j ∈ s, r j := Finset.sum_pos (fun j _ => (hr j).1) hs
  have ht : (0 : ℝ) ≤ 1 / ∑ j ∈ s, r j := by positivity
  rw [hS, Ideal.div_coe hpos.ne', sum_mul_coe s _ ht]
  refine Finset.sum_congr rfl fun i _ => ?_
  rw [Ideal.div_coe hpos.ne', mul_assoc]

/-- The weighted mean over a head row and n further rows: each term divided by the sum of the weights and then
    added up from zero, against the head's product plus the rows' products, divided once by the head's weight plus the
    rows' weights. -/
theorem mean_law {n : ℕ} (V E : Fin (n + 1) → EReal) (hE : ∀ i, ∃ r : ℝ, 0 < r ∧ E i = (r : EReal)) :
    0 + ∑ k, V k * Ideal.div (E k) (0 + ∑ k', E k')
      = Ideal.div (V 0 * E 0 + ∑ c : Fin n, E c.succ * V c.succ) (E 0 + ∑ c : Fin n, E c.succ) := by
  rw [zero_add, zero_add, sum_mul_div Finset.univ Finset.univ_nonempty V E hE, Fin.sum_univ_succ, Fin.sum_univ_succ]
  congr 2
  exact Finset.sum_congr rfl fun c _ => mul_comm _ _

/-- The same at the literal sizes: a head row and 16384 further rows, row 1 + c of the 16385 being child c. -/
theorem mean_law_rows (V E : Fin 16385 → EReal) (hE : ∀ i, ∃ r : ℝ, 0 < r ∧ E i = (r : EReal)) :
    0 + ∑ k, V k * Ideal.div (E k) (0 + ∑ k', E k')
      = Ideal.div (V ⟨0, by omega⟩ * E ⟨0, by omega⟩ + ∑ c : Fin 16384, E ⟨c.val + 1, by omega⟩ * V ⟨c.val + 1, by omega⟩)
          (E ⟨0, by omega⟩ + ∑ c : Fin 16384, E ⟨c.val + 1, by omega⟩) :=
  mean_law (n := 16384) V E hE

end Cert.RefLaw

end
-- ==== Proof.RefGates.lean ====
/-
  The reference's stages up to the two joins, read at an index: the gate row is the specification's gates (the
  reference adds (h0·W_hh + b) + x·W_ih, the specification (x·W_ih + h0·W_hh) + b: + is commutative and associative on
  the extended reals), the host's 1 / (1 + e^{-z}) is σ z, and the attention pre-activation a + c_in·aW_hh is the
  specification's c_in·aW_hh + a.
-/
import proofs.«130393_j25555055411309_1_alg».proof.Proof.RefReadPatched
import proofs.«130393_j25555055411309_1_alg».proof.Proof.Spec
import proofs.«130393_j25555055411309_1_alg».proof.Proof.RefLaw

noncomputable section

namespace Cert.RefSide

open Cert.ReferenceIdeal Cert.ReferenceIdeal.Gen Cert.ReferenceIdeal.ReadP Idealize.ShloMosaic Idealize.ShloMosaic.ValueIdx Cert.Spec

variable (x0 x1 : Row) (x3 : Kids) (x4 x5 : GateW) (x6 : GateB) (x7 x8 : Sq) (x9 : Bias)

/-- The gate row at column n. -/
theorem v4_apply (i : S1x6144.Idx) :
    val_main_v4 (F := Ideal) x0 x1 x4 x5 x6 i = gates x0 x1 x4 x5 x6 (⟨(i 1).val, idx2_lt1 i⟩ : Fin 6144) := by
  have hl0 : ∀ k, lidx_main_v0 i k = ix2 0 k := fun k => funext fun a => Fin.ext (by
    match a with
    | ⟨0, _⟩ => have := idx2_lt0 i; show (i 0).val = 0; omega
    | ⟨1, _⟩ => rfl)
  have hr0 : ∀ k, ridx_main_v0 i k = ix2 k (⟨(i 1).val, idx2_lt1 i⟩ : Fin 6144) := fun k => funext fun a => Fin.ext (by
    match a with
    | ⟨0, _⟩ => rfl
    | ⟨1, _⟩ => rfl)
  have hl3 : ∀ k, lidx_main_v3 i k = ix2 0 k := hl0
  have hr3 : ∀ k, ridx_main_v3 i k = ix2 k (⟨(i 1).val, idx2_lt1 i⟩ : Fin 6144) := hr0
  have h1 : idx_main_v1 i = ix1 (⟨(i 1).val, idx2_lt1 i⟩ : Fin 6144) := funext fun a => Fin.ext (by
    match a with
    | ⟨0, _⟩ => rfl)
  rw [val_main_v4_apply, val_main_v2_apply, val_main_v0_apply, val_main_v1_apply, val_main_v3_apply]
  simp only [Ideal.addf_def, hl0, hr0, hl3, hr3, h1]
  unfold gates
  rw [add_right_comm]
  congr 1
  exact add_comm _ _

/-- The three literal ones of the host's σ. -/
theorem one_f32 : FloatOps.ofBits (F := Ideal) .f32 0x3F800000#32 = (1 : EReal) := Ideal.ofBits_one_f32

/-- σ of the first gate block: the input gate. -/
theorem v13_apply (j : S1x2048.Idx) :
    val_main_v13 (F := Ideal) x0 x1 x4 x5 x6 j
      = Ideal.logistic (gates x0 x1 x4 x5 x6 (⟨(j 1).val, by have := idx2_lt1 j; omega⟩ : Fin 6144)) := by
  rw [val_main_v13_apply, val_main_v12_apply, val_main_cst_0_apply, val_main_v11_apply, val_main_v10_apply,
    val_main_cst_apply, val_main_v9_apply, val_main_v8_apply, val_main_v5_apply, v4_apply]
  simp only [Ideal.hostDivf_def, Ideal.addf_def, Ideal.hostUnary_exp_def, Ideal.hostNegf_def, Ideal.negf_def, one_f32]
  rfl

/-- σ of the second gate block: the output gate. -/
theorem v19_apply (j : S1x2048.Idx) :
    val_main_v19 (F := Ideal) x0 x1 x4 x5 x6 j = outG x0 x1 x4 x5 x6 (⟨(j 1).val, idx2_lt1 j⟩ : Fin 2048) := by
  rw [val_main_v19_apply, val_main_v18_apply, val_main_cst_2_apply, val_main_v17_apply, val_main_v16_apply,
    val_main_cst_1_apply, val_main_v15_apply, val_main_v14_apply, val_main_v6_apply, v4_apply]
  simp only [Ideal.hostDivf_def, Ideal.addf_def, Ideal.hostUnary_exp_def, Ideal.hostNegf_def, Ideal.negf_def, one_f32]
  rfl

/-- tanh of the third gate block: the candidate. -/
theorem v20_apply (j : S1x2048.Idx) :
    val_main_v20 (F := Ideal) x0 x1 x4 x5 x6 j = cand x0 x1 x4 x5 x6 (⟨(j 1).val, idx2_lt1 j⟩ : Fin 2048) := by
  rw [val_main_v20_apply, val_main_v7_apply, v4_apply]
  simp only [Ideal.hostUnary_tanh_def]
  rfl

/-- The input's share of the attention pre-activation. -/
theorem v23_apply (j : S1x2048.Idx) :
    val_main_v23 (F := Ideal) x0 x7 x9 j = awi x0 x7 x9 (⟨(j 1).val, idx2_lt1 j⟩ : Fin 2048) := by
  have hl : ∀ k, lidx_main_v21 j k = ix2 0 k := fun k => funext fun a => Fin.ext (by
    match a with
    | ⟨0, _⟩ => have := idx2_lt0 j; show (j 0).val = 0; omega
    | ⟨1, _⟩ => rfl)
  have hr : ∀ k, ridx_main_v21 j k = ix2 k (⟨(j 1).val, idx2_lt1 j⟩ : Fin 2048) := fun k => funext fun a => Fin.ext (by
    match a with
    | ⟨0, _⟩ => rfl
    | ⟨1, _⟩ => rfl)
  have h1 : idx_main_v22 j = ix1 (⟨(j 1).val, idx2_lt1 j⟩ : Fin 2048) := funext fun a => Fin.ext (by
    match a with
    | ⟨0, _⟩ => rfl)
  rw [val_main_v23_apply, val_main_v21_apply, val_main_v22_apply]
  simp only [Ideal.addf_def, hl, hr, h1]
  rfl

/-- σ of child c's attention pre-activation. -/
theorem v32_apply (i : S16384x2048.Idx) :
    val_main_v32 (F := Ideal) x0 x3 x7 x8 x9 i
      = Ideal.logistic (∑ k : Fin 2048, x3 (ix2 (⟨(i 0).val, idx2_lt0 i⟩ : Fin 16384) k) * x8 (ix2 k (⟨(i 1).val, idx2_lt1 i⟩ : Fin 2048))
          + awi x0 x7 x9 (⟨(i 1).val, idx2_lt1 i⟩ : Fin 2048)) := by
  have hl : ∀ k, lidx_main_v24 i k = ix2 (⟨(i 0).val, idx2_lt0 i⟩ : Fin 16384) k := fun k => funext fun a => Fin.ext (by
    match a with
    | ⟨0, _⟩ => rfl
    | ⟨1, _⟩ => rfl)
  have hr : ∀ k, ridx_main_v24 i k = ix2 k (⟨(i 1).val, idx2_lt1 i⟩ : Fin 2048) := fun k => funext fun a => Fin.ext (by
    match a with
    | ⟨0, _⟩ => rfl
    | ⟨1, _⟩ => rfl)
  rw [val_main_v32_apply, val_main_v31_apply, val_main_cst_4_apply, val_main_v30_apply, val_main_v29_apply,
    val_main_cst_3_apply, val_main_v28_apply, val_main_v27_apply, val_main_v26_apply, val_main_v25_apply,
    val_main_v24_apply, v23_apply]
  simp only [Ideal.hostDivf_def, Ideal.addf_def, Ideal.hostUnary_exp_def, Ideal.hostNegf_def, Ideal.negf_def, one_f32,
    hl, hr]
  rw [add_comm (awi x0 x7 x9 _)]
  rfl

end Cert.RefSide

end
-- ==== Proof.RefCat.lean ====
/-
  The join of one row [1, 2048] with 16384 rows [16384, 2048] along axis 0, read at an index: row 0 is the one row,
  row 1 + c is row c of the others.
-/
import proofs.«130393_j25555055411309_1_alg».proof.Proof.Gen.ReferenceIdeal
import Idealize.ShloMosaic.Lib.Pipeline.Value
import Idealize.ShloMosaic.Lib.ValueIdx

noncomputable section

namespace Cert.RefSide

open Cert.ReferenceIdeal Cert.ReferenceIdeal.Gen Idealize.ShloMosaic Idealize.ShloMosaic.ValueIdx

variable {α : Type}

/-- Row 0 of the join is the one row. -/
theorem cat_head (a : S1x2048.Idx → α) (b : S16384x2048.Idx → α) (n : Fin 2048) :
    concatenate S16385x2048 0 [⟨S1x2048, a⟩, ⟨S16384x2048, b⟩] concatenates_S1x2048_S16384x2048_S16385x2048_d0
      (ix2 (⟨0, by omega⟩ : Fin 16385) n) = a (ix2 0 n) :=
  concatenate_pair_apply_left (t := S16385x2048) (s₁ := S1x2048) (s₂ := S16384x2048) 0 a b
    concatenates_S1x2048_S16384x2048_S16385x2048_d0 (ix2 (⟨0, by omega⟩ : Fin 16385) n) rfl (ix2 0 n) (fun d => by
    match d with
    | ⟨0, _⟩ => rfl
    | ⟨1, _⟩ => rfl)

/-- Row 1 + c of the join is row c of the 16384. -/
theorem cat_tail (a : S1x2048.Idx → α) (b : S16384x2048.Idx → α) (c : Fin 16384) (n : Fin 2048) :
    concatenate S16385x2048 0 [⟨S1x2048, a⟩, ⟨S16384x2048, b⟩] concatenates_S1x2048_S16384x2048_S16385x2048_d0
      (ix2 (⟨c.val + 1, by omega⟩ : Fin 16385) n) = b (ix2 c n) :=
  concatenate_pair_apply_right (t := S16385x2048) (s₁ := S1x2048) (s₂ := S16384x2048) 0 a b
    concatenates_S1x2048_S16384x2048_S16385x2048_d0 (ix2 (⟨c.val + 1, by omega⟩ : Fin 16385) n) rfl rfl (ix2 c n)
    (fun d hd => by
      match d with
      | ⟨0, _⟩ => exact absurd rfl hd
      | ⟨1, _⟩ => rfl)
    rfl

end Cert.RefSide

end
-- ==== Proof.RefSide.lean ====
/-
  The reference's two results are the specification's rows.

  At lane n the reference holds 16385 weight rows e_r = exp (row r of the join [σ i ; α]) and 16385 value rows
  v_r (the join [tanh g ; c_in]); it divides every weight by S = 0 + Σ_r e_r, multiplies by the value and sums from
  zero. Row 0 is (tanh (gates (4096+n)), exp (σ (gates n))), row 1 + c is (c_in[c,n], exp (σ (c_in[c,:]·aW_hh[:,n] + a n))).
  Every weight is a positive real, so Σ_r v_r · (e_r / S) = (Σ_r v_r · e_r) / S, which is the specification's
  weighted mean; the hidden state is σ (gates (2048+n)) · tanh of it.
-/
import proofs.«130393_j25555055411309_1_alg».proof.Proof.RefGates
import proofs.«130393_j25555055411309_1_alg».proof.Proof.RefCat

noncomputable section

namespace Cert.RefSide

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx Cert.Spec

variable (x0 x1 : Row) (x3 : Kids) (x4 x5 : GateW) (x6 : GateB) (x7 x8 : Sq) (x9 : Bias)

/-- The literal zero the two sums start from. -/
theorem zero_f32 : FloatOps.ofBits (F := Ideal) .f32 0x00000000#32 = (0 : EReal) := Ideal.ofBits_zero_f32

/-- Weight row 0: the input gate's weight. -/
theorem v34_head (n : Fin 2048) :
    val_main_v34 (F := Ideal) x0 x1 x3 x4 x5 x6 x7 x8 x9 (ix2 (⟨0, by omega⟩ : Fin 16385) n) = expI x0 x1 x4 x5 x6 n := by
  rw [val_main_v34_apply]
  unfold val_main_v33
  rw [cat_head, v13_apply]
  simp only [Ideal.hostUnary_exp_def]
  rfl

/-- Weight row 1 + c: child c's weight. -/
theorem v34_tail (c : Fin 16384) (n : Fin 2048) :
    val_main_v34 (F := Ideal) x0 x1 x3 x4 x5 x6 x7 x8 x9 (ix2 (⟨c.val + 1, by omega⟩ : Fin 16385) n)
      = expA x0 x3 x7 x8 x9 c n := by
  rw [val_main_v34_apply]
  unfold val_main_v33
  rw [cat_tail, v32_apply]
  simp only [Ideal.hostUnary_exp_def]
  rfl

/-- Value row 0: the candidate. -/
theorem v39_head (n : Fin 2048) :
    val_main_v39 (F := Ideal) x0 x1 x3 x4 x5 x6 (ix2 (⟨0, by omega⟩ : Fin 16385) n) = cand x0 x1 x4 x5 x6 n := by
  unfold val_main_v39
  rw [cat_head, v20_apply]

/-- Value row 1 + c: child c's cell state. -/
theorem v39_tail (c : Fin 16384) (n : Fin 2048) :
    val_main_v39 (F := Ideal) x0 x1 x3 x4 x5 x6 (ix2 (⟨c.val + 1, by omega⟩ : Fin 16385) n) = x3 (ix2 c n) := by
  unfold val_main_v39
  exact cat_tail _ _ c n

/-- Every weight is a positive real. -/
theorem v34_pos (n : Fin 2048) (k : Fin 16385) :
    ∃ r : ℝ, 0 < r ∧ val_main_v34 (F := Ideal) x0 x1 x3 x4 x5 x6 x7 x8 x9 (ix2 k n) = (r : EReal) := by
  by_cases h : k.val = 0
  · have hk : k = ⟨0, by omega⟩ := Fin.ext h
    rw [hk, v34_head]
    exact RefLaw.exp_logistic_pos _
  · have hk : k = ⟨(⟨k.val - 1, by omega⟩ : Fin 16384).val + 1, by omega⟩ :=
      Fin.ext (by show k.val = k.val - 1 + 1; omega)
    rw [hk, v34_tail]
    exact RefLaw.exp_logistic_pos _

/-- The sum of the weights, spread back over the rows. -/
theorem v37_row (n : Fin 2048) (k : Fin 16385) :
    val_main_v37 (F := Ideal) x0 x1 x3 x4 x5 x6 x7 x8 x9 (ix2 k n)
      = 0 + ∑ k' : Fin 16385, val_main_v34 (F := Ideal) x0 x1 x3 x4 x5 x6 x7 x8 x9 (ix2 k' n) := by
  have hrow : ∀ k' : Fin 16385, idx_main_v35 (idx_main_v36 (idx_main_v37 (ix2 k n))) k' = ix2 k' n :=
    fun k' => funext fun a => Fin.ext (by
      match a with
      | ⟨0, _⟩ => rfl
      | ⟨1, _⟩ => rfl)
  rw [val_main_v37_apply, val_main_v36_apply, val_main_v35_apply, val_main_cst_5_apply]
  simp only [hrow, zero_f32]

/-- The reference's cell state at lane n is the specification's. -/
theorem v41_row (n : Fin 2048) :
    val_main_v41 (F := Ideal) x0 x1 x3 x4 x5 x6 x7 x8 x9 (ix1 n) = c1 x0 x1 x3 x4 x5 x6 x7 x8 x9 n := by
  have hrow : ∀ k : Fin 16385, idx_main_v41 (ix1 n) k = ix2 k n :=
    fun k => funext fun a => Fin.ext (by
      match a with
      | ⟨0, _⟩ => rfl
      | ⟨1, _⟩ => rfl)
  rw [val_main_v41_apply, val_main_cst_6_apply]
  simp only [hrow, val_main_v40_apply, val_main_v38_apply, v37_row, Ideal.mulf_def, Ideal.hostDivf_def, zero_f32]
  rw [RefLaw.mean_law_rows (fun k => val_main_v39 (F := Ideal) x0 x1 x3 x4 x5 x6 (ix2 k n))
    (fun k => val_main_v34 (F := Ideal) x0 x1 x3 x4 x5 x6 x7 x8 x9 (ix2 k n)) (v34_pos x0 x1 x3 x4 x5 x6 x7 x8 x9 n)]
  simp only [v34_head, v34_tail, v39_head, v39_tail]
  rfl

/-- The cell-state row at an index. -/
theorem v42_apply (j : S1x2048.Idx) :
    val_main_v42 (F := Ideal) x0 x1 x3 x4 x5 x6 x7 x8 x9 j = c1 x0 x1 x3 x4 x5 x6 x7 x8 x9 (⟨(j 1).val, idx2_lt1 j⟩ : Fin 2048) := by
  have h : idx_main_v42 j = ix1 (⟨(j 1).val, idx2_lt1 j⟩ : Fin 2048) := funext fun a => Fin.ext (by
    match a with
    | ⟨0, _⟩ => rfl)
  rw [val_main_v42_apply, h, v41_row]

/-- The reference's cell-state result is the specification's row. -/
theorem v42_eq : val_main_v42 (F := Ideal) x0 x1 x3 x4 x5 x6 x7 x8 x9 = C1 x0 x1 x3 x4 x5 x6 x7 x8 x9 :=
  funext fun j => v42_apply x0 x1 x3 x4 x5 x6 x7 x8 x9 j

/-- The reference's hidden-state result is the specification's row. -/
theorem v44_eq : val_main_v44 (F := Ideal) x0 x1 x3 x4 x5 x6 x7 x8 x9 = H1 x0 x1 x3 x4 x5 x6 x7 x8 x9 := by
  funext j
  rw [val_main_v44_apply, val_main_v43_apply, v42_apply, v19_apply]
  simp only [Ideal.mulf_def, Ideal.hostUnary_tanh_def]
  rfl

/-- On every device, from any memory with zero counters: every weakly fair execution of the reference terminates with
    the hidden-state result and the cell-state result at the specification's rows of the argument arrays, and the
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v44) = H1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v42) = C1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c).1.trans ((val_main_v44_eq m c).trans (v44_eq _ _ _ _ _ _ _ _ _)),
      (h c).2.1.trans ((val_main_v42_eq _ _ _ _ _ _ _ _ _).trans (v42_eq _ _ _ _ _ _ _ _ _)), (h c).2.2⟩)
    (Cert.ReferenceIdeal.ValueP.run (F := Ideal) m ρ)

end Cert.RefSide

end
-- ==== Proof.lean ====
/-
  The certificate of one tree-structured LSTM cell step over 16384 children: the kernel's program (three pipelined
  regions — the gate pre-activations, the input's share of the attention pre-activation, and one streaming pass over
  the children that accumulates Σ_c e^{σ(α_c)} and Σ_c e^{σ(α_c)}·c_c from the input gate's terms — among host
  operations) against the plain reference, which normalises every child's weight by the total before summing.

  Frames. Each kernel program's run is its seven segments chained through the buffers' contents at the segment
  boundaries (KernelFrame/…, KernelIdealFrame/…); an argument array is written by no host operation and is either
  untouched by a region or read through an input window, so it ends as launched. The reference's frame is its run with
  the results dropped.

  Values. At the extended reals both programs end with the new cell state
      c₁ n = (g n · e^{σ(i n)} + Σ_c E c n · c_in[c,n]) / (e^{σ(i n)} + Σ_c E c n)        (Spec.lean)
  and h₁ n = σ(o n) · tanh (c₁ n): the kernel by reading its three regions' final arrays and its host operations
  index by index (one division, as in the formula); the reference because every weight e^{σ(·)} is a positive real
  whatever its argument, so the total S is a positive real and Σ_r v_r·(e_r / S) = (Σ_r v_r·e_r) / S holds on all of
  the extended reals — no finiteness of any input is used. The idealization rewrote nothing, so `preserves` is trivial.
-/
import proofs.«130393_j25555055411309_1_alg».proof.Defs
import proofs.«130393_j25555055411309_1_alg».proof.Proof.Gen.Kernel
import proofs.«130393_j25555055411309_1_alg».proof.Proof.Gen.KernelIdeal
import proofs.«130393_j25555055411309_1_alg».proof.Proof.Gen.ReferenceIdeal
import proofs.«130393_j25555055411309_1_alg».proof.Proof.Gen.Pre_finite_inputs
import proofs.«130393_j25555055411309_1_alg».proof.Proof.KernelFrame.Args
import proofs.«130393_j25555055411309_1_alg».proof.Proof.KernelIdealFrame.Args
import proofs.«130393_j25555055411309_1_alg».proof.Proof.KSide
import proofs.«130393_j25555055411309_1_alg».proof.Proof.RefSide
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Hand.frame_all m ρ
theorem frame_ki : Cert.frame_KernelIdeal := fun m ρ _ => Cert.KernelIdeal.Hand.frame_all m ρ
theorem frame_ri : Cert.frame_ReferenceIdeal := fun m ρ _ =>
  (θ_run Cert.ReferenceIdeal.defs _ _).mono (fun _ h c => (h c).2.2) (Cert.RefSide.run m ρ)

/-- The ideal pass rewrote no operation. -/
theorem preserves : Cert.preserves_Kernel_KernelIdeal := trivial

/-- Both idealized programs end with the results at the specification's rows of the (agreeing) argument arrays. -/
theorem algebraic : Cert.algebraic_KernelIdeal_ReferenceIdeal := by
  intro m ρ m' ρ' _ hagree
  refine ⟨fun c => Cert.Spec.H1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.Spec.C1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono (fun r h c =>
      ⟨(h c _ (Cert.KernelIdeal.Hand.mem_ucH Cert.KernelIdeal.main_v26 (by decide))).trans (Cert.KSide.h1_eq m ρ c),
       (h c _ (Cert.KernelIdeal.Hand.mem_ucH Cert.KernelIdeal.main_v24 (by decide))).trans (Cert.KSide.c1_eq m ρ c),
       (h c _ (Cert.KernelIdeal.Hand.mem_ucH Cert.KernelIdeal.main_arg0 (by decide))).trans (Cert.KernelIdeal.Hand.Bd7_arg0 m ρ c),
       (h c _ (Cert.KernelIdeal.Hand.mem_ucH Cert.KernelIdeal.main_arg1 (by decide))).trans (Cert.KernelIdeal.Hand.Bd7_arg1 m ρ c),
       (h c _ (Cert.KernelIdeal.Hand.mem_ucH Cert.KernelIdeal.main_arg2 (by decide))).trans (Cert.KernelIdeal.Hand.Bd7_arg2 m ρ c),
       (h c _ (Cert.KernelIdeal.Hand.mem_ucH Cert.KernelIdeal.main_arg3 (by decide))).trans (Cert.KernelIdeal.Hand.Bd7_arg3 m ρ c),
       (h c _ (Cert.KernelIdeal.Hand.mem_ucH Cert.KernelIdeal.main_arg4 (by decide))).trans (Cert.KernelIdeal.Hand.Bd7_arg4 m ρ c),
       (h c _ (Cert.KernelIdeal.Hand.mem_ucH Cert.KernelIdeal.main_arg5 (by decide))).trans (Cert.KernelIdeal.Hand.Bd7_arg5 m ρ c),
       (h c _ (Cert.KernelIdeal.Hand.mem_ucH Cert.KernelIdeal.main_arg6 (by decide))).trans (Cert.KernelIdeal.Hand.Bd7_arg6 m ρ c),
       (h c _ (Cert.KernelIdeal.Hand.mem_ucH Cert.KernelIdeal.main_arg7 (by decide))).trans (Cert.KernelIdeal.Hand.Bd7_arg7 m ρ c),
       (h c _ (Cert.KernelIdeal.Hand.mem_ucH Cert.KernelIdeal.main_arg8 (by decide))).trans (Cert.KernelIdeal.Hand.Bd7_arg8 m ρ c),
       (h c _ (Cert.KernelIdeal.Hand.mem_ucH Cert.KernelIdeal.main_arg9 (by decide))).trans (Cert.KernelIdeal.Hand.Bd7_arg9 m ρ c)⟩)
      (Cert.KernelIdeal.Hand.run_all m ρ)
  · refine (θ_run Cert.ReferenceIdeal.defs _ _).mono (fun r h c => ⟨(h c).1.trans ?_, (h c).2.1.trans ?_, (h c).2.2⟩)
      (Cert.RefSide.run m' ρ')
    · rw [(hagree c).1, (hagree c).2.1, (hagree c).2.2.2.1, (hagree c).2.2.2.2.1, (hagree c).2.2.2.2.2.1, (hagree c).2.2.2.2.2.2.1,
        (hagree c).2.2.2.2.2.2.2.1, (hagree c).2.2.2.2.2.2.2.2.1, (hagree c).2.2.2.2.2.2.2.2.2]
    · rw [(hagree c).1, (hagree c).2.1, (hagree c).2.2.2.1, (hagree c).2.2.2.2.1, (hagree c).2.2.2.2.2.1, (hagree c).2.2.2.2.2.2.1,
        (hagree c).2.2.2.2.2.2.2.1, (hagree c).2.2.2.2.2.2.2.2.1, (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
